-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1026) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel

variable [Facts]

def fn {F : FTy → Type} [FloatOps F] (main_arg0 : FVec F S2000000x3 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  main_v3
-- ==== Kernel.lean ====
abbrev S2000000x3 : Shape := ⟨2, ![2000000, 3]⟩
abbrev S2000000x1 : Shape := ⟨2, ![2000000, 1]⟩
abbrev S2000000 : Shape := ⟨1, ![2000000]⟩
abbrev S1x2000000 : Shape := ⟨2, ![1, 2000000]⟩
abbrev S3x2000000 : Shape := ⟨2, ![3, 2000000]⟩
abbrev S2000000x101 : Shape := ⟨2, ![2000000, 101]⟩
abbrev S3x16000 : Shape := ⟨2, ![3, 16000]⟩
abbrev S16000x101 : Shape := ⟨2, ![16000, 101]⟩
abbrev S1x16000 : Shape := ⟨2, ![1, 16000]⟩
abbrev S9x1 : Shape := ⟨2, ![9, 1]⟩
abbrev S9x16000 : Shape := ⟨2, ![9, 16000]⟩
abbrev S101x16000 : Shape := ⟨2, ![101, 16000]⟩

abbrev nBuf : Space → Nat
  | .hbm => 12
  | .vmem => 4
  | .smem => 0
  | _ => 0

abbrev bufTy : (tb : Table) → Fin (tcTables nBuf tb) → BufTy
  | .hbm, ⟨0, _⟩ => ⟨S2000000x3, .f32⟩
  | .hbm, ⟨1, _⟩ => ⟨S2000000x1, .f32⟩
  | .hbm, ⟨2, _⟩ => ⟨S2000000, .f32⟩
  | .hbm, ⟨3, _⟩ => ⟨S2000000x1, .f32⟩
  | .hbm, ⟨4, _⟩ => ⟨S2000000, .f32⟩
  | .hbm, ⟨5, _⟩ => ⟨S2000000x1, .f32⟩
  | .hbm, ⟨6, _⟩ => ⟨S2000000, .f32⟩
  | .hbm, ⟨7, _⟩ => ⟨S1x2000000, .f32⟩
  | .hbm, ⟨8, _⟩ => ⟨S1x2000000, .f32⟩
  | .hbm, ⟨9, _⟩ => ⟨S1x2000000, .f32⟩
  | .hbm, ⟨10, _⟩ => ⟨S3x2000000, .f32⟩
  | .hbm, ⟨11, _⟩ => ⟨S2000000x101, .f32⟩
  | .local _ .vmem, ⟨0, _⟩ => ⟨S3x16000, .f32⟩
  | .local _ .vmem, ⟨1, _⟩ => ⟨S3x16000, .f32⟩
  | .local _ .vmem, ⟨2, _⟩ => ⟨S16000x101, .f32⟩
  | .local _ .vmem, ⟨3, _⟩ => ⟨S16000x101, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x101 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  slices_S2000000x3_S2000000x1_0_2 : S2000000x3.Slices ![0, 2] S2000000x1
  bcast_S2000000_S1x2000000_1 : S2000000.BroadcastsInDim S1x2000000 (![1] : Fin 1 → Fin S1x2000000.rank)
  concatenates_S1x2000000_S1x2000000_S1x2000000_S3x2000000_d0 : Shape.Concatenates [S1x2000000, S1x2000000, S1x2000000] S3x2000000 0
  inb_S3x16000_S1x16000_0_0 : ∀ a, (![0, 0] : Fin 2 → Nat) a + S1x16000.size a ≤ S3x16000.size a
  h_S1x16000 : 0 < S1x16000.numel
  shapeCasts_S1x16000_S1x16000 : S1x16000.ShapeCasts S1x16000
  inb_S3x16000_S1x16000_1_0 : ∀ a, (![1, 0] : Fin 2 → Nat) a + S1x16000.size a ≤ S3x16000.size a
  inb_S3x16000_S1x16000_2_0 : ∀ a, (![2, 0] : Fin 2 → Nat) a + S1x16000.size a ≤ S3x16000.size a
  iota_S9x1_d0_w32 : S9x1.Iotas .tc 32 [0]
  broadcasts_S1x16000_S9x16000 : S1x16000.Broadcasts S9x16000
  broadcasts_S9x1_S9x16000 : S9x1.Broadcasts S9x16000
  slices_S9x16000_o0_0_S1x16000 : S9x16000.Slices ![0, 0] S1x16000
  slices_S9x16000_o1_0_S1x16000 : S9x16000.Slices ![1, 0] S1x16000
  slices_S9x16000_o2_0_S1x16000 : S9x16000.Slices ![2, 0] S1x16000
  slices_S9x16000_o3_0_S1x16000 : S9x16000.Slices ![3, 0] S1x16000
  slices_S9x16000_o4_0_S1x16000 : S9x16000.Slices ![4, 0] S1x16000
  slices_S9x16000_o5_0_S1x16000 : S9x16000.Slices ![5, 0] S1x16000
  slices_S9x16000_o6_0_S1x16000 : S9x16000.Slices ![6, 0] S1x16000
  slices_S9x16000_o7_0_S1x16000 : S9x16000.Slices ![7, 0] S1x16000
  slices_S9x16000_o8_0_S1x16000 : S9x16000.Slices ![8, 0] S1x16000
  concatenates_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S1x16000_S101x16000_d0 : Shape.Concatenates (S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: S1x16000 :: []) S101x16000 0
  transposes_S101x16000_p1_0_S16000x101 : S101x16000.Transposes [1, 0] S16000x101
  inb_S16000x101_S16000x101_0_0 : ∀ a, (![0, 0] : Fin 2 → Nat) a + S16000x101.size a ≤ S16000x101.size a
  h_S16000x101 : 0 < S16000x101.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x16000.size a ≤ S3x2000000.size a
  hwx0_0 : ∀ i : grid0.Coords, EltTy.bits .f32 = 32 ∨ (Rect.block (s := S3x2000000) S3x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x101.size a ≤ S2000000x101.size a
  hwx0_1 : ∀ i : grid0.Coords, EltTy.bits .f32 = 32 ∨ (Rect.block (s := S2000000x101) S16000x101.size (cc0_transform_1 i) (hinb0_1 i)).WholeWords (EltTy.packing .f32)

variable [Facts₀]

abbrev win0_0 : Pipeline.Window sig grid0 :=
  Pipeline.Window.ofSpec (Memref.whole main_v9) S3x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S16000x101.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S2000000x1 : Shape := ⟨2, ![2000000, 1]⟩
abbrev S2000000 : Shape := ⟨1, ![2000000]⟩
abbrev S_ : Shape := ⟨0, ![]⟩
abbrev S2000000x16 : Shape := ⟨2, ![2000000, 16]⟩
abbrev S2000000x4 : Shape := ⟨2, ![2000000, 4]⟩
abbrev S2000000x100 : Shape := ⟨2, ![2000000, 100]⟩
abbrev S2000000x101 : Shape := ⟨2, ![2000000, 101]⟩

abbrev nBuf : Space → Nat
  | .hbm => 1349
  | .vmem => 0
  | .smem => 0
  | _ => 0

abbrev hbmTy0_0 (i : Nat) : BufTy := match i % 128 with
  | 0 => ⟨S2000000x3, .f32⟩
  | 1 => ⟨S2000000x1, .f32⟩
  | 2 => ⟨S2000000, .f32⟩
  | 3 => ⟨S2000000x1, .f32⟩
  | 4 => ⟨S2000000, .f32⟩
  | 5 => ⟨S_, .f32⟩
  | 6 => ⟨S2000000, .f32⟩
  | 7 => ⟨S2000000, .f32⟩
  | 8 => ⟨S_, .f32⟩
  | 9 => ⟨S2000000, .f32⟩
  | 10 => ⟨S2000000, .f32⟩
  | 11 => ⟨S_, .f32⟩
  | 12 => ⟨S2000000, .f32⟩
  | 13 => ⟨S2000000, .f32⟩
  | 14 => ⟨S_, .f32⟩
  | 15 => ⟨S2000000, .f32⟩
  | 16 => ⟨S2000000, .f32⟩
  | 17 => ⟨S2000000, .f32⟩
  | 18 => ⟨S2000000, .f32⟩
  | 19 => ⟨S_, .f32⟩
  | 20 => ⟨S2000000, .f32⟩
  | 21 => ⟨S_, .f32⟩
  | 22 => ⟨S2000000, .f32⟩
  | 23 => ⟨S2000000, .f32⟩
  | 24 => ⟨S2000000, .f32⟩
  | 25 => ⟨S_, .f32⟩
  | 26 => ⟨S2000000, .f32⟩
  | 27 => ⟨S2000000, .f32⟩
  | 28 => ⟨S2000000, .f32⟩
  | 29 => ⟨S_, .f32⟩
  | 30 => ⟨S2000000, .f32⟩
  | 31 => ⟨S2000000, .f32⟩
  | 32 => ⟨S2000000, .f32⟩
  | 33 => ⟨S_, .f32⟩
  | 34 => ⟨S2000000, .f32⟩
  | 35 => ⟨S2000000, .f32⟩
  | 36 => ⟨S_, .f32⟩
  | 37 => ⟨S2000000, .f32⟩
  | 38 => ⟨S2000000, .f32⟩
  | 39 => ⟨S2000000, .f32⟩
  | 40 => ⟨S_, .f32⟩
  | 41 => ⟨S2000000, .f32⟩
  | 42 => ⟨S2000000, .f32⟩
  | 43 => ⟨S2000000, .f32⟩
  | 44 => ⟨S_, .f32⟩
  | 45 => ⟨S2000000, .f32⟩
  | 46 => ⟨S2000000, .f32⟩
  | 47 => ⟨S_, .f32⟩
  | 48 => ⟨S2000000, .f32⟩
  | 49 => ⟨S2000000, .f32⟩
  | 50 => ⟨S2000000, .f32⟩
  | 51 => ⟨S_, .f32⟩
  | 52 => ⟨S2000000, .f32⟩
  | 53 => ⟨S2000000, .f32⟩
  | 54 => ⟨S2000000, .f32⟩
  | 55 => ⟨S_, .f32⟩
  | 56 => ⟨S2000000, .f32⟩
  | 57 => ⟨S2000000, .f32⟩
  | 58 => ⟨S_, .f32⟩
  | 59 => ⟨S2000000, .f32⟩
  | 60 => ⟨S2000000, .f32⟩
  | 61 => ⟨S2000000, .f32⟩
  | 62 => ⟨S_, .f32⟩
  | 63 => ⟨S2000000, .f32⟩
  | 64 => ⟨S2000000, .f32⟩
  | 65 => ⟨S2000000, .f32⟩
  | 66 => ⟨S_, .f32⟩
  | 67 => ⟨S2000000, .f32⟩
  | 68 => ⟨S2000000, .f32⟩
  | 69 => ⟨S_, .f32⟩
  | 70 => ⟨S2000000, .f32⟩
  | 71 => ⟨S2000000, .f32⟩
  | 72 => ⟨S2000000, .f32⟩
  | 73 => ⟨S_, .f32⟩
  | 74 => ⟨S2000000, .f32⟩
  | 75 => ⟨S2000000, .f32⟩
  | 76 => ⟨S2000000, .f32⟩
  | 77 => ⟨S_, .f32⟩
  | 78 => ⟨S2000000, .f32⟩
  | 79 => ⟨S2000000, .f32⟩
  | 80 => ⟨S_, .f32⟩
  | 81 => ⟨S2000000, .f32⟩
  | 82 => ⟨S2000000, .f32⟩
  | 83 => ⟨S2000000, .f32⟩
  | 84 => ⟨S_, .f32⟩
  | 85 => ⟨S2000000, .f32⟩
  | 86 => ⟨S2000000, .f32⟩
  | 87 => ⟨S2000000, .f32⟩
  | 88 => ⟨S_, .f32⟩
  | 89 => ⟨S2000000, .f32⟩
  | 90 => ⟨S2000000, .f32⟩
  | 91 => ⟨S_, .f32⟩
  | 92 => ⟨S2000000, .f32⟩
  | 93 => ⟨S2000000, .f32⟩
  | 94 => ⟨S2000000, .f32⟩
  | 95 => ⟨S_, .f32⟩
  | 96 => ⟨S2000000, .f32⟩
  | 97 => ⟨S2000000, .f32⟩
  | 98 => ⟨S2000000, .f32⟩
  | 99 => ⟨S_, .f32⟩
  | 100 => ⟨S2000000, .f32⟩
  | 101 => ⟨S2000000, .f32⟩
  | 102 => ⟨S_, .f32⟩
  | 103 => ⟨S2000000, .f32⟩
  | 104 => ⟨S2000000, .f32⟩
  | 105 => ⟨S2000000, .f32⟩
  | 106 => ⟨S_, .f32⟩
  | 107 => ⟨S2000000, .f32⟩
  | 108 => ⟨S2000000, .f32⟩
  | 109 => ⟨S2000000, .f32⟩
  | 110 => ⟨S_, .f32⟩
  | 111 => ⟨S2000000, .f32⟩
  | 112 => ⟨S2000000, .f32⟩
  | 113 => ⟨S_, .f32⟩
  | 114 => ⟨S2000000, .f32⟩
  | 115 => ⟨S2000000, .f32⟩
  | 116 => ⟨S2000000, .f32⟩
  | 117 => ⟨S_, .f32⟩
  | 118 => ⟨S2000000, .f32⟩
  | 119 => ⟨S2000000, .f32⟩
  | 120 => ⟨S2000000, .f32⟩
  | 121 => ⟨S_, .f32⟩
  | 122 => ⟨S2000000, .f32⟩
  | 123 => ⟨S2000000, .f32⟩
  | 124 => ⟨S2000000, .f32⟩
  | 125 => ⟨S_, .f32⟩
  | 126 => ⟨S2000000, .f32⟩
  | 127 => ⟨S2000000, .f32⟩
  | _ => ⟨S2000000x3, .f32⟩

abbrev hbmTy0_1 (i : Nat) : BufTy := match i % 128 with
  | 0 => ⟨S2000000, .f32⟩
  | 1 => ⟨S_, .f32⟩
  | 2 => ⟨S2000000, .f32⟩
  | 3 => ⟨S2000000, .f32⟩
  | 4 => ⟨S_, .f32⟩
  | 5 => ⟨S2000000, .f32⟩
  | 6 => ⟨S2000000, .f32⟩
  | 7 => ⟨S2000000, .f32⟩
  | 8 => ⟨S_, .f32⟩
  | 9 => ⟨S2000000, .f32⟩
  | 10 => ⟨S2000000, .f32⟩
  | 11 => ⟨S2000000, .f32⟩
  | 12 => ⟨S_, .f32⟩
  | 13 => ⟨S2000000, .f32⟩
  | 14 => ⟨S2000000, .f32⟩
  | 15 => ⟨S_, .f32⟩
  | 16 => ⟨S2000000, .f32⟩
  | 17 => ⟨S2000000, .f32⟩
  | 18 => ⟨S2000000, .f32⟩
  | 19 => ⟨S_, .f32⟩
  | 20 => ⟨S2000000, .f32⟩
  | 21 => ⟨S2000000, .f32⟩
  | 22 => ⟨S2000000, .f32⟩
  | 23 => ⟨S_, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S2000000, .f32⟩
  | 34 => ⟨S_, .f32⟩
  | 35 => ⟨S2000000, .f32⟩
  | 36 => ⟨S2000000, .f32⟩
  | 37 => ⟨S_, .f32⟩
  | 38 => ⟨S2000000, .f32⟩
  | 39 => ⟨S2000000, .f32⟩
  | 40 => ⟨S2000000, .f32⟩
  | 41 => ⟨S_, .f32⟩
  | 42 => ⟨S2000000, .f32⟩
  | 43 => ⟨S2000000, .f32⟩
  | 44 => ⟨S2000000, .f32⟩
  | 45 => ⟨S_, .f32⟩
  | 46 => ⟨S2000000, .f32⟩
  | 47 => ⟨S2000000, .f32⟩
  | 48 => ⟨S_, .f32⟩
  | 49 => ⟨S2000000, .f32⟩
  | 50 => ⟨S2000000, .f32⟩
  | 51 => ⟨S2000000, .f32⟩
  | 52 => ⟨S_, .f32⟩
  | 53 => ⟨S2000000, .f32⟩
  | 54 => ⟨S2000000, .f32⟩
  | 55 => ⟨S2000000, .f32⟩
  | 56 => ⟨S_, .f32⟩
  | 57 => ⟨S2000000, .f32⟩
  | 58 => ⟨S2000000, .f32⟩
  | 59 => ⟨S_, .f32⟩
  | 60 => ⟨S2000000, .f32⟩
  | 61 => ⟨S2000000, .f32⟩
  | 62 => ⟨S2000000, .f32⟩
  | 63 => ⟨S_, .f32⟩
  | 64 => ⟨S2000000, .f32⟩
  | 65 => ⟨S2000000, .f32⟩
  | 66 => ⟨S2000000, .f32⟩
  | 67 => ⟨S_, .f32⟩
  | 68 => ⟨S2000000, .f32⟩
  | 69 => ⟨S2000000, .f32⟩
  | 70 => ⟨S_, .f32⟩
  | 71 => ⟨S2000000, .f32⟩
  | 72 => ⟨S2000000, .f32⟩
  | 73 => ⟨S2000000, .f32⟩
  | 74 => ⟨S_, .f32⟩
  | 75 => ⟨S2000000, .f32⟩
  | 76 => ⟨S2000000, .f32⟩
  | 77 => ⟨S2000000, .f32⟩
  | 78 => ⟨S_, .f32⟩
  | 79 => ⟨S2000000, .f32⟩
  | 80 => ⟨S2000000, .f32⟩
  | 81 => ⟨S2000000, .f32⟩
  | 82 => ⟨S_, .f32⟩
  | 83 => ⟨S2000000, .f32⟩
  | 84 => ⟨S2000000, .f32⟩
  | 85 => ⟨S2000000, .f32⟩
  | 86 => ⟨S_, .f32⟩
  | 87 => ⟨S2000000, .f32⟩
  | 88 => ⟨S2000000, .f32⟩
  | 89 => ⟨S_, .f32⟩
  | 90 => ⟨S2000000, .f32⟩
  | 91 => ⟨S2000000, .f32⟩
  | 92 => ⟨S2000000, .f32⟩
  | 93 => ⟨S_, .f32⟩
  | 94 => ⟨S2000000, .f32⟩
  | 95 => ⟨S2000000, .f32⟩
  | 96 => ⟨S2000000, .f32⟩
  | 97 => ⟨S_, .f32⟩
  | 98 => ⟨S2000000, .f32⟩
  | 99 => ⟨S2000000, .f32⟩
  | 100 => ⟨S_, .f32⟩
  | 101 => ⟨S2000000, .f32⟩
  | 102 => ⟨S2000000, .f32⟩
  | 103 => ⟨S2000000, .f32⟩
  | 104 => ⟨S_, .f32⟩
  | 105 => ⟨S2000000, .f32⟩
  | 106 => ⟨S2000000, .f32⟩
  | 107 => ⟨S2000000, .f32⟩
  | 108 => ⟨S_, .f32⟩
  | 109 => ⟨S2000000, .f32⟩
  | 110 => ⟨S2000000, .f32⟩
  | 111 => ⟨S_, .f32⟩
  | 112 => ⟨S2000000, .f32⟩
  | 113 => ⟨S2000000, .f32⟩
  | 114 => ⟨S2000000, .f32⟩
  | 115 => ⟨S_, .f32⟩
  | 116 => ⟨S2000000, .f32⟩
  | 117 => ⟨S2000000, .f32⟩
  | 118 => ⟨S2000000, .f32⟩
  | 119 => ⟨S_, .f32⟩
  | 120 => ⟨S2000000, .f32⟩
  | 121 => ⟨S2000000, .f32⟩
  | 122 => ⟨S_, .f32⟩
  | 123 => ⟨S2000000, .f32⟩
  | 124 => ⟨S2000000, .f32⟩
  | 125 => ⟨S2000000, .f32⟩
  | 126 => ⟨S_, .f32⟩
  | 127 => ⟨S2000000, .f32⟩
  | _ => ⟨S2000000x3, .f32⟩

abbrev hbmTy0_2 (i : Nat) : BufTy := match i % 128 with
  | 0 => ⟨S2000000, .f32⟩
  | 1 => ⟨S2000000, .f32⟩
  | 2 => ⟨S_, .f32⟩
  | 3 => ⟨S2000000, .f32⟩
  | 4 => ⟨S2000000, .f32⟩
  | 5 => ⟨S_, .f32⟩
  | 6 => ⟨S2000000, .f32⟩
  | 7 => ⟨S2000000, .f32⟩
  | 8 => ⟨S2000000, .f32⟩
  | 9 => ⟨S_, .f32⟩
  | 10 => ⟨S2000000, .f32⟩
  | 11 => ⟨S2000000, .f32⟩
  | 12 => ⟨S2000000, .f32⟩
  | 13 => ⟨S_, .f32⟩
  | 14 => ⟨S2000000, .f32⟩
  | 15 => ⟨S2000000, .f32⟩
  | 16 => ⟨S_, .f32⟩
  | 17 => ⟨S2000000, .f32⟩
  | 18 => ⟨S2000000, .f32⟩
  | 19 => ⟨S2000000, .f32⟩
  | 20 => ⟨S_, .f32⟩
  | 21 => ⟨S2000000, .f32⟩
  | 22 => ⟨S2000000, .f32⟩
  | 23 => ⟨S2000000, .f32⟩
  | 24 => ⟨S_, .f32⟩
  | 25 => ⟨S2000000, .f32⟩
  | 26 => ⟨S2000000, .f32⟩
  | 27 => ⟨S2000000, .f32⟩
  | 28 => ⟨S_, .f32⟩
  | 29 => ⟨S2000000, .f32⟩
  | 30 => ⟨S2000000, .f32⟩
  | 31 => ⟨S2000000, .f32⟩
  | 32 => ⟨S_, .f32⟩
  | 33 => ⟨S2000000, .f32⟩
  | 34 => ⟨S2000000, .f32⟩
  | 35 => ⟨S_, .f32⟩
  | 36 => ⟨S2000000, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S2000000, .f32⟩
  | 43 => ⟨S_, .f32⟩
  | 44 => ⟨S2000000, .f32⟩
  | 45 => ⟨S2000000, .f32⟩
  | 46 => ⟨S_, .f32⟩
  | 47 => ⟨S2000000, .f32⟩
  | 48 => ⟨S2000000, .f32⟩
  | 49 => ⟨S2000000, .f32⟩
  | 50 => ⟨S_, .f32⟩
  | 51 => ⟨S2000000, .f32⟩
  | 52 => ⟨S2000000, .f32⟩
  | 53 => ⟨S2000000, .f32⟩
  | 54 => ⟨S_, .f32⟩
  | 55 => ⟨S2000000, .f32⟩
  | 56 => ⟨S2000000, .f32⟩
  | 57 => ⟨S_, .f32⟩
  | 58 => ⟨S2000000, .f32⟩
  | 59 => ⟨S2000000, .f32⟩
  | 60 => ⟨S2000000, .f32⟩
  | 61 => ⟨S_, .f32⟩
  | 62 => ⟨S2000000, .f32⟩
  | 63 => ⟨S2000000, .f32⟩
  | 64 => ⟨S2000000, .f32⟩
  | 65 => ⟨S_, .f32⟩
  | 66 => ⟨S2000000, .f32⟩
  | 67 => ⟨S2000000, .f32⟩
  | 68 => ⟨S_, .f32⟩
  | 69 => ⟨S2000000, .f32⟩
  | 70 => ⟨S2000000, .f32⟩
  | 71 => ⟨S2000000, .f32⟩
  | 72 => ⟨S_, .f32⟩
  | 73 => ⟨S2000000, .f32⟩
  | 74 => ⟨S2000000, .f32⟩
  | 75 => ⟨S2000000, .f32⟩
  | 76 => ⟨S_, .f32⟩
  | 77 => ⟨S2000000, .f32⟩
  | 78 => ⟨S2000000, .f32⟩
  | 79 => ⟨S_, .f32⟩
  | 80 => ⟨S2000000, .f32⟩
  | 81 => ⟨S2000000, .f32⟩
  | 82 => ⟨S2000000, .f32⟩
  | 83 => ⟨S_, .f32⟩
  | 84 => ⟨S2000000, .f32⟩
  | 85 => ⟨S2000000, .f32⟩
  | 86 => ⟨S2000000, .f32⟩
  | 87 => ⟨S_, .f32⟩
  | 88 => ⟨S2000000, .f32⟩
  | 89 => ⟨S2000000, .f32⟩
  | 90 => ⟨S2000000, .f32⟩
  | 91 => ⟨S_, .f32⟩
  | 92 => ⟨S2000000, .f32⟩
  | 93 => ⟨S2000000, .f32⟩
  | 94 => ⟨S2000000, .f32⟩
  | 95 => ⟨S_, .f32⟩
  | 96 => ⟨S2000000, .f32⟩
  | 97 => ⟨S2000000, .f32⟩
  | 98 => ⟨S_, .f32⟩
  | 99 => ⟨S2000000, .f32⟩
  | 100 => ⟨S2000000, .f32⟩
  | 101 => ⟨S2000000, .f32⟩
  | 102 => ⟨S_, .f32⟩
  | 103 => ⟨S2000000, .f32⟩
  | 104 => ⟨S2000000, .f32⟩
  | 105 => ⟨S2000000, .f32⟩
  | 106 => ⟨S_, .f32⟩
  | 107 => ⟨S2000000, .f32⟩
  | 108 => ⟨S2000000, .f32⟩
  | 109 => ⟨S_, .f32⟩
  | 110 => ⟨S2000000, .f32⟩
  | 111 => ⟨S2000000, .f32⟩
  | 112 => ⟨S2000000, .f32⟩
  | 113 => ⟨S_, .f32⟩
  | 114 => ⟨S2000000, .f32⟩
  | 115 => ⟨S2000000, .f32⟩
  | 116 => ⟨S2000000, .f32⟩
  | 117 => ⟨S_, .f32⟩
  | 118 => ⟨S2000000, .f32⟩
  | 119 => ⟨S2000000, .f32⟩
  | 120 => ⟨S_, .f32⟩
  | 121 => ⟨S2000000, .f32⟩
  | 122 => ⟨S2000000, .f32⟩
  | 123 => ⟨S2000000, .f32⟩
  | 124 => ⟨S_, .f32⟩
  | 125 => ⟨S2000000, .f32⟩
  | 126 => ⟨S2000000, .f32⟩
  | 127 => ⟨S2000000, .f32⟩
  | _ => ⟨S2000000x3, .f32⟩

abbrev hbmTy0_3 (i : Nat) : BufTy := match i % 128 with
  | 0 => ⟨S_, .f32⟩
  | 1 => ⟨S2000000, .f32⟩
  | 2 => ⟨S2000000, .f32⟩
  | 3 => ⟨S_, .f32⟩
  | 4 => ⟨S2000000, .f32⟩
  | 5 => ⟨S2000000, .f32⟩
  | 6 => ⟨S2000000, .f32⟩
  | 7 => ⟨S_, .f32⟩
  | 8 => ⟨S2000000, .f32⟩
  | 9 => ⟨S2000000, .f32⟩
  | 10 => ⟨S2000000, .f32⟩
  | 11 => ⟨S_, .f32⟩
  | 12 => ⟨S2000000, .f32⟩
  | 13 => ⟨S2000000, .f32⟩
  | 14 => ⟨S2000000, .f32⟩
  | 15 => ⟨S_, .f32⟩
  | 16 => ⟨S2000000, .f32⟩
  | 17 => ⟨S2000000, .f32⟩
  | 18 => ⟨S2000000, .f32⟩
  | 19 => ⟨S_, .f32⟩
  | 20 => ⟨S2000000, .f32⟩
  | 21 => ⟨S2000000, .f32⟩
  | 22 => ⟨S_, .f32⟩
  | 23 => ⟨S2000000, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S_, .f32⟩
  | 34 => ⟨S2000000, .f32⟩
  | 35 => ⟨S2000000, .f32⟩
  | 36 => ⟨S2000000, .f32⟩
  | 37 => ⟨S_, .f32⟩
  | 38 => ⟨S2000000, .f32⟩
  | 39 => ⟨S2000000, .f32⟩
  | 40 => ⟨S2000000, .f32⟩
  | 41 => ⟨S_, .f32⟩
  | 42 => ⟨S2000000, .f32⟩
  | 43 => ⟨S2000000, .f32⟩
  | 44 => ⟨S_, .f32⟩
  | 45 => ⟨S2000000, .f32⟩
  | 46 => ⟨S2000000, .f32⟩
  | 47 => ⟨S2000000, .f32⟩
  | 48 => ⟨S_, .f32⟩
  | 49 => ⟨S2000000, .f32⟩
  | 50 => ⟨S2000000, .f32⟩
  | 51 => ⟨S2000000, .f32⟩
  | 52 => ⟨S_, .f32⟩
  | 53 => ⟨S2000000, .f32⟩
  | 54 => ⟨S2000000, .f32⟩
  | 55 => ⟨S2000000, .f32⟩
  | 56 => ⟨S_, .f32⟩
  | 57 => ⟨S2000000, .f32⟩
  | 58 => ⟨S2000000, .f32⟩
  | 59 => ⟨S2000000, .f32⟩
  | 60 => ⟨S_, .f32⟩
  | 61 => ⟨S2000000, .f32⟩
  | 62 => ⟨S2000000, .f32⟩
  | 63 => ⟨S_, .f32⟩
  | 64 => ⟨S2000000, .f32⟩
  | 65 => ⟨S2000000, .f32⟩
  | 66 => ⟨S2000000, .f32⟩
  | 67 => ⟨S_, .f32⟩
  | 68 => ⟨S2000000, .f32⟩
  | 69 => ⟨S2000000, .f32⟩
  | 70 => ⟨S2000000, .f32⟩
  | 71 => ⟨S_, .f32⟩
  | 72 => ⟨S2000000, .f32⟩
  | 73 => ⟨S2000000, .f32⟩
  | 74 => ⟨S_, .f32⟩
  | 75 => ⟨S2000000, .f32⟩
  | 76 => ⟨S2000000, .f32⟩
  | 77 => ⟨S2000000, .f32⟩
  | 78 => ⟨S_, .f32⟩
  | 79 => ⟨S2000000, .f32⟩
  | 80 => ⟨S2000000, .f32⟩
  | 81 => ⟨S2000000, .f32⟩
  | 82 => ⟨S_, .f32⟩
  | 83 => ⟨S2000000, .f32⟩
  | 84 => ⟨S2000000, .f32⟩
  | 85 => ⟨S2000000, .f32⟩
  | 86 => ⟨S_, .f32⟩
  | 87 => ⟨S2000000, .f32⟩
  | 88 => ⟨S2000000, .f32⟩
  | 89 => ⟨S2000000, .f32⟩
  | 90 => ⟨S_, .f32⟩
  | 91 => ⟨S2000000, .f32⟩
  | 92 => ⟨S2000000, .f32⟩
  | 93 => ⟨S_, .f32⟩
  | 94 => ⟨S2000000, .f32⟩
  | 95 => ⟨S2000000, .f32⟩
  | 96 => ⟨S2000000, .f32⟩
  | 97 => ⟨S_, .f32⟩
  | 98 => ⟨S2000000, .f32⟩
  | 99 => ⟨S2000000, .f32⟩
  | 100 => ⟨S2000000, .f32⟩
  | 101 => ⟨S_, .f32⟩
  | 102 => ⟨S2000000, .f32⟩
  | 103 => ⟨S2000000, .f32⟩
  | 104 => ⟨S2000000, .f32⟩
  | 105 => ⟨S_, .f32⟩
  | 106 => ⟨S2000000, .f32⟩
  | 107 => ⟨S2000000, .f32⟩
  | 108 => ⟨S_, .f32⟩
  | 109 => ⟨S2000000, .f32⟩
  | 110 => ⟨S2000000, .f32⟩
  | 111 => ⟨S2000000, .f32⟩
  | 112 => ⟨S_, .f32⟩
  | 113 => ⟨S2000000, .f32⟩
  | 114 => ⟨S2000000, .f32⟩
  | 115 => ⟨S2000000, .f32⟩
  | 116 => ⟨S_, .f32⟩
  | 117 => ⟨S2000000, .f32⟩
  | 118 => ⟨S2000000, .f32⟩
  | 119 => ⟨S_, .f32⟩
  | 120 => ⟨S2000000, .f32⟩
  | 121 => ⟨S2000000, .f32⟩
  | 122 => ⟨S2000000, .f32⟩
  | 123 => ⟨S_, .f32⟩
  | 124 => ⟨S2000000, .f32⟩
  | 125 => ⟨S2000000, .f32⟩
  | 126 => ⟨S2000000, .f32⟩
  | 127 => ⟨S_, .f32⟩
  | _ => ⟨S2000000x3, .f32⟩

abbrev hbmTy0_4 (i : Nat) : BufTy := match i % 128 with
  | 0 => ⟨S2000000, .f32⟩
  | 1 => ⟨S2000000, .f32⟩
  | 2 => ⟨S2000000, .f32⟩
  | 3 => ⟨S_, .f32⟩
  | 4 => ⟨S2000000, .f32⟩
  | 5 => ⟨S2000000, .f32⟩
  | 6 => ⟨S2000000, .f32⟩
  | 7 => ⟨S_, .f32⟩
  | 8 => ⟨S2000000, .f32⟩
  | 9 => ⟨S2000000, .f32⟩
  | 10 => ⟨S2000000, .f32⟩
  | 11 => ⟨S_, .f32⟩
  | 12 => ⟨S2000000, .f32⟩
  | 13 => ⟨S2000000, .f32⟩
  | 14 => ⟨S2000000, .f32⟩
  | 15 => ⟨S_, .f32⟩
  | 16 => ⟨S2000000, .f32⟩
  | 17 => ⟨S2000000, .f32⟩
  | 18 => ⟨S_, .f32⟩
  | 19 => ⟨S2000000, .f32⟩
  | 20 => ⟨S2000000, .f32⟩
  | 21 => ⟨S2000000, .f32⟩
  | 22 => ⟨S_, .f32⟩
  | 23 => ⟨S2000000, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S2000000, .f32⟩
  | 34 => ⟨S_, .f32⟩
  | 35 => ⟨S2000000, .f32⟩
  | 36 => ⟨S2000000, .f32⟩
  | 37 => ⟨S2000000, .f32⟩
  | 38 => ⟨S_, .f32⟩
  | 39 => ⟨S2000000, .f32⟩
  | 40 => ⟨S2000000, .f32⟩
  | 41 => ⟨S2000000, .f32⟩
  | 42 => ⟨S_, .f32⟩
  | 43 => ⟨S2000000, .f32⟩
  | 44 => ⟨S2000000, .f32⟩
  | 45 => ⟨S2000000, .f32⟩
  | 46 => ⟨S_, .f32⟩
  | 47 => ⟨S2000000, .f32⟩
  | 48 => ⟨S2000000, .f32⟩
  | 49 => ⟨S2000000, .f32⟩
  | 50 => ⟨S_, .f32⟩
  | 51 => ⟨S2000000, .f32⟩
  | 52 => ⟨S2000000, .f32⟩
  | 53 => ⟨S2000000, .f32⟩
  | 54 => ⟨S_, .f32⟩
  | 55 => ⟨S2000000, .f32⟩
  | 56 => ⟨S2000000, .f32⟩
  | 57 => ⟨S2000000, .f32⟩
  | 58 => ⟨S_, .f32⟩
  | 59 => ⟨S2000000, .f32⟩
  | 60 => ⟨S2000000, .f32⟩
  | 61 => ⟨S_, .f32⟩
  | 62 => ⟨S2000000, .f32⟩
  | 63 => ⟨S2000000, .f32⟩
  | 64 => ⟨S2000000, .f32⟩
  | 65 => ⟨S_, .f32⟩
  | 66 => ⟨S2000000, .f32⟩
  | 67 => ⟨S2000000, .f32⟩
  | 68 => ⟨S2000000, .f32⟩
  | 69 => ⟨S_, .f32⟩
  | 70 => ⟨S2000000, .f32⟩
  | 71 => ⟨S2000000, .f32⟩
  | 72 => ⟨S2000000, .f32⟩
  | 73 => ⟨S_, .f32⟩
  | 74 => ⟨S2000000, .f32⟩
  | 75 => ⟨S2000000, .f32⟩
  | 76 => ⟨S2000000, .f32⟩
  | 77 => ⟨S_, .f32⟩
  | 78 => ⟨S2000000, .f32⟩
  | 79 => ⟨S2000000, .f32⟩
  | 80 => ⟨S2000000, .f32⟩
  | 81 => ⟨S_, .f32⟩
  | 82 => ⟨S2000000, .f32⟩
  | 83 => ⟨S2000000, .f32⟩
  | 84 => ⟨S2000000, .f32⟩
  | 85 => ⟨S_, .f32⟩
  | 86 => ⟨S2000000, .f32⟩
  | 87 => ⟨S2000000, .f32⟩
  | 88 => ⟨S2000000, .f32⟩
  | 89 => ⟨S_, .f32⟩
  | 90 => ⟨S2000000, .f32⟩
  | 91 => ⟨S2000000, .f32⟩
  | 92 => ⟨S2000000, .f32⟩
  | 93 => ⟨S_, .f32⟩
  | 94 => ⟨S2000000, .f32⟩
  | 95 => ⟨S2000000, .f32⟩
  | 96 => ⟨S2000000, .f32⟩
  | 97 => ⟨S_, .f32⟩
  | 98 => ⟨S2000000, .f32⟩
  | 99 => ⟨S2000000, .f32⟩
  | 100 => ⟨S2000000, .f32⟩
  | 101 => ⟨S_, .f32⟩
  | 102 => ⟨S2000000, .f32⟩
  | 103 => ⟨S2000000, .f32⟩
  | 104 => ⟨S2000000, .f32⟩
  | 105 => ⟨S_, .f32⟩
  | 106 => ⟨S2000000, .f32⟩
  | 107 => ⟨S2000000, .f32⟩
  | 108 => ⟨S2000000, .f32⟩
  | 109 => ⟨S_, .f32⟩
  | 110 => ⟨S2000000, .f32⟩
  | 111 => ⟨S2000000, .f32⟩
  | 112 => ⟨S2000000, .f32⟩
  | 113 => ⟨S_, .f32⟩
  | 114 => ⟨S2000000, .f32⟩
  | 115 => ⟨S2000000, .f32⟩
  | 116 => ⟨S2000000, .f32⟩
  | 117 => ⟨S_, .f32⟩
  | 118 => ⟨S2000000, .f32⟩
  | 119 => ⟨S2000000, .f32⟩
  | 120 => ⟨S_, .f32⟩
  | 121 => ⟨S2000000, .f32⟩
  | 122 => ⟨S2000000, .f32⟩
  | 123 => ⟨S2000000, .f32⟩
  | 124 => ⟨S_, .f32⟩
  | 125 => ⟨S2000000, .f32⟩
  | 126 => ⟨S2000000, .f32⟩
  | 127 => ⟨S2000000, .f32⟩
  | _ => ⟨S2000000x3, .f32⟩

abbrev hbmTy0_5 (i : Nat) : BufTy := match i % 128 with
  | 0 => ⟨S_, .f32⟩
  | 1 => ⟨S2000000, .f32⟩
  | 2 => ⟨S2000000, .f32⟩
  | 3 => ⟨S2000000, .f32⟩
  | 4 => ⟨S_, .f32⟩
  | 5 => ⟨S2000000, .f32⟩
  | 6 => ⟨S2000000, .f32⟩
  | 7 => ⟨S2000000, .f32⟩
  | 8 => ⟨S_, .f32⟩
  | 9 => ⟨S2000000, .f32⟩
  | 10 => ⟨S2000000, .f32⟩
  | 11 => ⟨S2000000, .f32⟩
  | 12 => ⟨S_, .f32⟩
  | 13 => ⟨S2000000, .f32⟩
  | 14 => ⟨S2000000, .f32⟩
  | 15 => ⟨S2000000, .f32⟩
  | 16 => ⟨S_, .f32⟩
  | 17 => ⟨S2000000, .f32⟩
  | 18 => ⟨S2000000, .f32⟩
  | 19 => ⟨S2000000, .f32⟩
  | 20 => ⟨S_, .f32⟩
  | 21 => ⟨S2000000, .f32⟩
  | 22 => ⟨S2000000, .f32⟩
  | 23 => ⟨S2000000, .f32⟩
  | 24 => ⟨S_, .f32⟩
  | 25 => ⟨S2000000, .f32⟩
  | 26 => ⟨S2000000, .f32⟩
  | 27 => ⟨S2000000, .f32⟩
  | 28 => ⟨S_, .f32⟩
  | 29 => ⟨S2000000, .f32⟩
  | 30 => ⟨S2000000, .f32⟩
  | 31 => ⟨S2000000, .f32⟩
  | 32 => ⟨S_, .f32⟩
  | 33 => ⟨S2000000, .f32⟩
  | 34 => ⟨S2000000, .f32⟩
  | 35 => ⟨S2000000, .f32⟩
  | 36 => ⟨S_, .f32⟩
  | 37 => ⟨S2000000, .f32⟩
  | 38 => ⟨S2000000, .f32⟩
  | 39 => ⟨S2000000, .f32⟩
  | 40 => ⟨S_, .f32⟩
  | 41 => ⟨S2000000, .f32⟩
  | 42 => ⟨S2000000, .f32⟩
  | 43 => ⟨S2000000, .f32⟩
  | 44 => ⟨S_, .f32⟩
  | 45 => ⟨S2000000, .f32⟩
  | 46 => ⟨S2000000, .f32⟩
  | 47 => ⟨S2000000, .f32⟩
  | 48 => ⟨S_, .f32⟩
  | 49 => ⟨S2000000, .f32⟩
  | 50 => ⟨S2000000, .f32⟩
  | 51 => ⟨S2000000, .f32⟩
  | 52 => ⟨S_, .f32⟩
  | 53 => ⟨S2000000, .f32⟩
  | 54 => ⟨S2000000, .f32⟩
  | 55 => ⟨S2000000, .f32⟩
  | 56 => ⟨S_, .f32⟩
  | 57 => ⟨S2000000, .f32⟩
  | 58 => ⟨S2000000, .f32⟩
  | 59 => ⟨S2000000, .f32⟩
  | 60 => ⟨S_, .f32⟩
  | 61 => ⟨S2000000, .f32⟩
  | 62 => ⟨S2000000, .f32⟩
  | 63 => ⟨S2000000, .f32⟩
  | 64 => ⟨S_, .f32⟩
  | 65 => ⟨S2000000, .f32⟩
  | 66 => ⟨S2000000, .f32⟩
  | 67 => ⟨S_, .f32⟩
  | 68 => ⟨S2000000, .f32⟩
  | 69 => ⟨S2000000, .f32⟩
  | 70 => ⟨S2000000, .f32⟩
  | 71 => ⟨S_, .f32⟩
  | 72 => ⟨S2000000, .f32⟩
  | 73 => ⟨S2000000, .f32⟩
  | 74 => ⟨S2000000, .f32⟩
  | 75 => ⟨S_, .f32⟩
  | 76 => ⟨S2000000, .f32⟩
  | 77 => ⟨S2000000, .f32⟩
  | 78 => ⟨S2000000, .f32⟩
  | 79 => ⟨S_, .f32⟩
  | 80 => ⟨S2000000, .f32⟩
  | 81 => ⟨S2000000, .f32⟩
  | 82 => ⟨S2000000, .f32⟩
  | 83 => ⟨S_, .f32⟩
  | 84 => ⟨S2000000, .f32⟩
  | 85 => ⟨S2000000, .f32⟩
  | 86 => ⟨S2000000, .f32⟩
  | 87 => ⟨S_, .f32⟩
  | 88 => ⟨S2000000, .f32⟩
  | 89 => ⟨S2000000, .f32⟩
  | 90 => ⟨S2000000, .f32⟩
  | 91 => ⟨S_, .f32⟩
  | 92 => ⟨S2000000, .f32⟩
  | 93 => ⟨S2000000, .f32⟩
  | 94 => ⟨S2000000, .f32⟩
  | 95 => ⟨S_, .f32⟩
  | 96 => ⟨S2000000, .f32⟩
  | 97 => ⟨S2000000, .f32⟩
  | 98 => ⟨S2000000, .f32⟩
  | 99 => ⟨S_, .f32⟩
  | 100 => ⟨S2000000, .f32⟩
  | 101 => ⟨S2000000, .f32⟩
  | 102 => ⟨S2000000, .f32⟩
  | 103 => ⟨S_, .f32⟩
  | 104 => ⟨S2000000, .f32⟩
  | 105 => ⟨S2000000, .f32⟩
  | 106 => ⟨S2000000, .f32⟩
  | 107 => ⟨S_, .f32⟩
  | 108 => ⟨S2000000, .f32⟩
  | 109 => ⟨S2000000, .f32⟩
  | 110 => ⟨S2000000, .f32⟩
  | 111 => ⟨S_, .f32⟩
  | 112 => ⟨S2000000, .f32⟩
  | 113 => ⟨S2000000, .f32⟩
  | 114 => ⟨S2000000, .f32⟩
  | 115 => ⟨S_, .f32⟩
  | 116 => ⟨S2000000, .f32⟩
  | 117 => ⟨S2000000, .f32⟩
  | 118 => ⟨S2000000, .f32⟩
  | 119 => ⟨S_, .f32⟩
  | 120 => ⟨S2000000, .f32⟩
  | 121 => ⟨S2000000, .f32⟩
  | 122 => ⟨S2000000, .f32⟩
  | 123 => ⟨S_, .f32⟩
  | 124 => ⟨S2000000, .f32⟩
  | 125 => ⟨S2000000, .f32⟩
  | 126 => ⟨S2000000, .f32⟩
  | 127 => ⟨S_, .f32⟩
  | _ => ⟨S2000000x3, .f32⟩

abbrev hbmTy0_6 (i : Nat) : BufTy := match i % 128 with
  | 0 => ⟨S2000000, .f32⟩
  | 1 => ⟨S2000000, .f32⟩
  | 2 => ⟨S2000000, .f32⟩
  | 3 => ⟨S_, .f32⟩
  | 4 => ⟨S2000000, .f32⟩
  | 5 => ⟨S2000000, .f32⟩
  | 6 => ⟨S2000000, .f32⟩
  | 7 => ⟨S_, .f32⟩
  | 8 => ⟨S2000000, .f32⟩
  | 9 => ⟨S2000000, .f32⟩
  | 10 => ⟨S2000000, .f32⟩
  | 11 => ⟨S_, .f32⟩
  | 12 => ⟨S2000000, .f32⟩
  | 13 => ⟨S2000000, .f32⟩
  | 14 => ⟨S2000000, .f32⟩
  | 15 => ⟨S_, .f32⟩
  | 16 => ⟨S2000000, .f32⟩
  | 17 => ⟨S2000000, .f32⟩
  | 18 => ⟨S2000000, .f32⟩
  | 19 => ⟨S_, .f32⟩
  | 20 => ⟨S2000000, .f32⟩
  | 21 => ⟨S2000000, .f32⟩
  | 22 => ⟨S2000000, .f32⟩
  | 23 => ⟨S_, .f32⟩
  | 24 => ⟨S2000000, .f32⟩
  | 25 => ⟨S2000000, .f32⟩
  | 26 => ⟨S2000000, .f32⟩
  | 27 => ⟨S_, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S2000000, .f32⟩
  | 34 => ⟨S_, .f32⟩
  | 35 => ⟨S2000000, .f32⟩
  | 36 => ⟨S2000000, .f32⟩
  | 37 => ⟨S2000000, .f32⟩
  | 38 => ⟨S_, .f32⟩
  | 39 => ⟨S2000000, .f32⟩
  | 40 => ⟨S2000000, .f32⟩
  | 41 => ⟨S2000000, .f32⟩
  | 42 => ⟨S_, .f32⟩
  | 43 => ⟨S2000000, .f32⟩
  | 44 => ⟨S2000000, .f32⟩
  | 45 => ⟨S2000000, .f32⟩
  | 46 => ⟨S_, .f32⟩
  | 47 => ⟨S2000000, .f32⟩
  | 48 => ⟨S2000000, .f32⟩
  | 49 => ⟨S2000000, .f32⟩
  | 50 => ⟨S_, .f32⟩
  | 51 => ⟨S2000000, .f32⟩
  | 52 => ⟨S2000000, .f32⟩
  | 53 => ⟨S2000000, .f32⟩
  | 54 => ⟨S_, .f32⟩
  | 55 => ⟨S2000000, .f32⟩
  | 56 => ⟨S2000000, .f32⟩
  | 57 => ⟨S2000000, .f32⟩
  | 58 => ⟨S_, .f32⟩
  | 59 => ⟨S2000000, .f32⟩
  | 60 => ⟨S2000000, .f32⟩
  | 61 => ⟨S2000000, .f32⟩
  | 62 => ⟨S_, .f32⟩
  | 63 => ⟨S2000000, .f32⟩
  | 64 => ⟨S2000000, .f32⟩
  | 65 => ⟨S2000000, .f32⟩
  | 66 => ⟨S_, .f32⟩
  | 67 => ⟨S2000000, .f32⟩
  | 68 => ⟨S2000000, .f32⟩
  | 69 => ⟨S2000000, .f32⟩
  | 70 => ⟨S_, .f32⟩
  | 71 => ⟨S2000000, .f32⟩
  | 72 => ⟨S2000000, .f32⟩
  | 73 => ⟨S2000000, .f32⟩
  | 74 => ⟨S_, .f32⟩
  | 75 => ⟨S2000000, .f32⟩
  | 76 => ⟨S2000000, .f32⟩
  | 77 => ⟨S2000000, .f32⟩
  | 78 => ⟨S_, .f32⟩
  | 79 => ⟨S2000000, .f32⟩
  | 80 => ⟨S2000000, .f32⟩
  | 81 => ⟨S2000000, .f32⟩
  | 82 => ⟨S_, .f32⟩
  | 83 => ⟨S2000000, .f32⟩
  | 84 => ⟨S2000000, .f32⟩
  | 85 => ⟨S2000000, .f32⟩
  | 86 => ⟨S_, .f32⟩
  | 87 => ⟨S2000000, .f32⟩
  | 88 => ⟨S2000000, .f32⟩
  | 89 => ⟨S2000000, .f32⟩
  | 90 => ⟨S_, .f32⟩
  | 91 => ⟨S2000000, .f32⟩
  | 92 => ⟨S2000000, .f32⟩
  | 93 => ⟨S2000000, .f32⟩
  | 94 => ⟨S_, .f32⟩
  | 95 => ⟨S2000000, .f32⟩
  | 96 => ⟨S2000000, .f32⟩
  | 97 => ⟨S2000000, .f32⟩
  | 98 => ⟨S_, .f32⟩
  | 99 => ⟨S2000000, .f32⟩
  | 100 => ⟨S2000000, .f32⟩
  | 101 => ⟨S2000000, .f32⟩
  | 102 => ⟨S_, .f32⟩
  | 103 => ⟨S2000000, .f32⟩
  | 104 => ⟨S2000000, .f32⟩
  | 105 => ⟨S2000000, .f32⟩
  | 106 => ⟨S_, .f32⟩
  | 107 => ⟨S2000000, .f32⟩
  | 108 => ⟨S2000000, .f32⟩
  | 109 => ⟨S2000000, .f32⟩
  | 110 => ⟨S_, .f32⟩
  | 111 => ⟨S2000000, .f32⟩
  | 112 => ⟨S2000000, .f32⟩
  | 113 => ⟨S2000000, .f32⟩
  | 114 => ⟨S_, .f32⟩
  | 115 => ⟨S2000000, .f32⟩
  | 116 => ⟨S2000000, .f32⟩
  | 117 => ⟨S2000000, .f32⟩
  | 118 => ⟨S_, .f32⟩
  | 119 => ⟨S2000000, .f32⟩
  | 120 => ⟨S2000000, .f32⟩
  | 121 => ⟨S2000000, .f32⟩
  | 122 => ⟨S_, .f32⟩
  | 123 => ⟨S2000000, .f32⟩
  | 124 => ⟨S2000000, .f32⟩
  | 125 => ⟨S2000000, .f32⟩
  | 126 => ⟨S_, .f32⟩
  | 127 => ⟨S2000000, .f32⟩
  | _ => ⟨S2000000x3, .f32⟩

abbrev hbmTy0_7 (i : Nat) : BufTy := match i % 128 with
  | 0 => ⟨S2000000, .f32⟩
  | 1 => ⟨S2000000, .f32⟩
  | 2 => ⟨S_, .f32⟩
  | 3 => ⟨S2000000, .f32⟩
  | 4 => ⟨S2000000, .f32⟩
  | 5 => ⟨S2000000, .f32⟩
  | 6 => ⟨S_, .f32⟩
  | 7 => ⟨S2000000, .f32⟩
  | 8 => ⟨S2000000, .f32⟩
  | 9 => ⟨S_, .f32⟩
  | 10 => ⟨S2000000, .f32⟩
  | 11 => ⟨S2000000, .f32⟩
  | 12 => ⟨S2000000, .f32⟩
  | 13 => ⟨S_, .f32⟩
  | 14 => ⟨S2000000, .f32⟩
  | 15 => ⟨S2000000, .f32⟩
  | 16 => ⟨S2000000, .f32⟩
  | 17 => ⟨S_, .f32⟩
  | 18 => ⟨S2000000, .f32⟩
  | 19 => ⟨S2000000, .f32⟩
  | 20 => ⟨S2000000, .f32⟩
  | 21 => ⟨S_, .f32⟩
  | 22 => ⟨S2000000, .f32⟩
  | 23 => ⟨S2000000, .f32⟩
  | 24 => ⟨S2000000, .f32⟩
  | 25 => ⟨S_, .f32⟩
  | 26 => ⟨S2000000, .f32⟩
  | 27 => ⟨S2000000, .f32⟩
  | 28 => ⟨S2000000, .f32⟩
  | 29 => ⟨S_, .f32⟩
  | 30 => ⟨S2000000, .f32⟩
  | 31 => ⟨S2000000, .f32⟩
  | 32 => ⟨S2000000, .f32⟩
  | 33 => ⟨S_, .f32⟩
  | 34 => ⟨S2000000, .f32⟩
  | 35 => ⟨S2000000, .f32⟩
  | 36 => ⟨S2000000, .f32⟩
  | 37 => ⟨S_, .f32⟩
  | 38 => ⟨S2000000, .f32⟩
  | 39 => ⟨S2000000, .f32⟩
  | 40 => ⟨S2000000, .f32⟩
  | 41 => ⟨S_, .f32⟩
  | 42 => ⟨S2000000, .f32⟩
  | 43 => ⟨S2000000, .f32⟩
  | 44 => ⟨S2000000, .f32⟩
  | 45 => ⟨S_, .f32⟩
  | 46 => ⟨S2000000, .f32⟩
  | 47 => ⟨S2000000, .f32⟩
  | 48 => ⟨S2000000, .f32⟩
  | 49 => ⟨S_, .f32⟩
  | 50 => ⟨S2000000, .f32⟩
  | 51 => ⟨S2000000, .f32⟩
  | 52 => ⟨S2000000, .f32⟩
  | 53 => ⟨S_, .f32⟩
  | 54 => ⟨S2000000, .f32⟩
  | 55 => ⟨S2000000, .f32⟩
  | 56 => ⟨S2000000, .f32⟩
  | 57 => ⟨S_, .f32⟩
  | 58 => ⟨S2000000, .f32⟩
  | 59 => ⟨S2000000, .f32⟩
  | 60 => ⟨S2000000, .f32⟩
  | 61 => ⟨S_, .f32⟩
  | 62 => ⟨S2000000, .f32⟩
  | 63 => ⟨S2000000, .f32⟩
  | 64 => ⟨S2000000, .f32⟩
  | 65 => ⟨S_, .f32⟩
  | 66 => ⟨S2000000, .f32⟩
  | 67 => ⟨S2000000, .f32⟩
  | 68 => ⟨S2000000, .f32⟩
  | 69 => ⟨S_, .f32⟩
  | 70 => ⟨S2000000, .f32⟩
  | 71 => ⟨S2000000, .f32⟩
  | 72 => ⟨S2000000, .f32⟩
  | 73 => ⟨S_, .f32⟩
  | 74 => ⟨S2000000, .f32⟩
  | 75 => ⟨S2000000, .f32⟩
  | 76 => ⟨S2000000, .f32⟩
  | 77 => ⟨S_, .f32⟩
  | 78 => ⟨S2000000, .f32⟩
  | 79 => ⟨S2000000, .f32⟩
  | 80 => ⟨S2000000, .f32⟩
  | 81 => ⟨S_, .f32⟩
  | 82 => ⟨S2000000, .f32⟩
  | 83 => ⟨S2000000, .f32⟩
  | 84 => ⟨S2000000, .f32⟩
  | 85 => ⟨S_, .f32⟩
  | 86 => ⟨S2000000, .f32⟩
  | 87 => ⟨S2000000, .f32⟩
  | 88 => ⟨S2000000, .f32⟩
  | 89 => ⟨S_, .f32⟩
  | 90 => ⟨S2000000, .f32⟩
  | 91 => ⟨S2000000, .f32⟩
  | 92 => ⟨S2000000, .f32⟩
  | 93 => ⟨S_, .f32⟩
  | 94 => ⟨S2000000, .f32⟩
  | 95 => ⟨S2000000, .f32⟩
  | 96 => ⟨S2000000, .f32⟩
  | 97 => ⟨S_, .f32⟩
  | 98 => ⟨S2000000, .f32⟩
  | 99 => ⟨S2000000, .f32⟩
  | 100 => ⟨S2000000, .f32⟩
  | 101 => ⟨S_, .f32⟩
  | 102 => ⟨S2000000, .f32⟩
  | 103 => ⟨S2000000, .f32⟩
  | 104 => ⟨S2000000, .f32⟩
  | 105 => ⟨S_, .f32⟩
  | 106 => ⟨S2000000, .f32⟩
  | 107 => ⟨S2000000, .f32⟩
  | 108 => ⟨S2000000, .f32⟩
  | 109 => ⟨S_, .f32⟩
  | 110 => ⟨S2000000, .f32⟩
  | 111 => ⟨S2000000, .f32⟩
  | 112 => ⟨S2000000, .f32⟩
  | 113 => ⟨S_, .f32⟩
  | 114 => ⟨S2000000, .f32⟩
  | 115 => ⟨S2000000, .f32⟩
  | 116 => ⟨S2000000, .f32⟩
  | 117 => ⟨S_, .f32⟩
  | 118 => ⟨S2000000, .f32⟩
  | 119 => ⟨S2000000, .f32⟩
  | 120 => ⟨S2000000, .f32⟩
  | 121 => ⟨S_, .f32⟩
  | 122 => ⟨S2000000, .f32⟩
  | 123 => ⟨S2000000, .f32⟩
  | 124 => ⟨S2000000, .f32⟩
  | 125 => ⟨S_, .f32⟩
  | 126 => ⟨S2000000, .f32⟩
  | 127 => ⟨S2000000, .f32⟩
  | _ => ⟨S2000000x3, .f32⟩

abbrev hbmTy0_8 (i : Nat) : BufTy := match i % 128 with
  | 0 => ⟨S2000000, .f32⟩
  | 1 => ⟨S_, .f32⟩
  | 2 => ⟨S2000000, .f32⟩
  | 3 => ⟨S2000000, .f32⟩
  | 4 => ⟨S_, .f32⟩
  | 5 => ⟨S2000000, .f32⟩
  | 6 => ⟨S2000000, .f32⟩
  | 7 => ⟨S2000000, .f32⟩
  | 8 => ⟨S_, .f32⟩
  | 9 => ⟨S2000000, .f32⟩
  | 10 => ⟨S2000000, .f32⟩
  | 11 => ⟨S2000000, .f32⟩
  | 12 => ⟨S_, .f32⟩
  | 13 => ⟨S2000000, .f32⟩
  | 14 => ⟨S2000000, .f32⟩
  | 15 => ⟨S2000000, .f32⟩
  | 16 => ⟨S_, .f32⟩
  | 17 => ⟨S2000000, .f32⟩
  | 18 => ⟨S2000000, .f32⟩
  | 19 => ⟨S2000000, .f32⟩
  | 20 => ⟨S_, .f32⟩
  | 21 => ⟨S2000000, .f32⟩
  | 22 => ⟨S2000000, .f32⟩
  | 23 => ⟨S2000000, .f32⟩
  | 24 => ⟨S_, .f32⟩
  | 25 => ⟨S2000000, .f32⟩
  | 26 => ⟨S2000000, .f32⟩
  | 27 => ⟨S2000000, .f32⟩
  | 28 => ⟨S_, .f32⟩
  | 29 => ⟨S2000000, .f32⟩
  | 30 => ⟨S2000000, .f32⟩
  | 31 => ⟨S2000000, .f32⟩
  | 32 => ⟨S_, .f32⟩
  | 33 => ⟨S2000000, .f32⟩
  | 34 => ⟨S2000000, .f32⟩
  | 35 => ⟨S2000000, .f32⟩
  | 36 => ⟨S_, .f32⟩
  | 37 => ⟨S2000000, .f32⟩
  | 38 => ⟨S2000000, .f32⟩
  | 39 => ⟨S2000000, .f32⟩
  | 40 => ⟨S_, .f32⟩
  | 41 => ⟨S2000000, .f32⟩
  | 42 => ⟨S2000000, .f32⟩
  | 43 => ⟨S2000000, .f32⟩
  | 44 => ⟨S_, .f32⟩
  | 45 => ⟨S2000000, .f32⟩
  | 46 => ⟨S2000000, .f32⟩
  | 47 => ⟨S2000000, .f32⟩
  | 48 => ⟨S_, .f32⟩
  | 49 => ⟨S2000000, .f32⟩
  | 50 => ⟨S2000000, .f32⟩
  | 51 => ⟨S2000000, .f32⟩
  | 52 => ⟨S_, .f32⟩
  | 53 => ⟨S2000000, .f32⟩
  | 54 => ⟨S2000000, .f32⟩
  | 55 => ⟨S2000000, .f32⟩
  | 56 => ⟨S_, .f32⟩
  | 57 => ⟨S2000000, .f32⟩
  | 58 => ⟨S2000000, .f32⟩
  | 59 => ⟨S2000000, .f32⟩
  | 60 => ⟨S_, .f32⟩
  | 61 => ⟨S2000000, .f32⟩
  | 62 => ⟨S2000000, .f32⟩
  | 63 => ⟨S2000000, .f32⟩
  | 64 => ⟨S_, .f32⟩
  | 65 => ⟨S2000000, .f32⟩
  | 66 => ⟨S2000000, .f32⟩
  | 67 => ⟨S2000000, .f32⟩
  | 68 => ⟨S_, .f32⟩
  | 69 => ⟨S2000000, .f32⟩
  | 70 => ⟨S2000000, .f32⟩
  | 71 => ⟨S2000000, .f32⟩
  | 72 => ⟨S_, .f32⟩
  | 73 => ⟨S2000000, .f32⟩
  | 74 => ⟨S2000000, .f32⟩
  | 75 => ⟨S2000000, .f32⟩
  | 76 => ⟨S_, .f32⟩
  | 77 => ⟨S2000000, .f32⟩
  | 78 => ⟨S2000000, .f32⟩
  | 79 => ⟨S2000000, .f32⟩
  | 80 => ⟨S_, .f32⟩
  | 81 => ⟨S2000000, .f32⟩
  | 82 => ⟨S2000000, .f32⟩
  | 83 => ⟨S2000000, .f32⟩
  | 84 => ⟨S_, .f32⟩
  | 85 => ⟨S2000000, .f32⟩
  | 86 => ⟨S2000000, .f32⟩
  | 87 => ⟨S2000000, .f32⟩
  | 88 => ⟨S_, .f32⟩
  | 89 => ⟨S2000000, .f32⟩
  | 90 => ⟨S2000000, .f32⟩
  | 91 => ⟨S2000000, .f32⟩
  | 92 => ⟨S_, .f32⟩
  | 93 => ⟨S2000000, .f32⟩
  | 94 => ⟨S2000000, .f32⟩
  | 95 => ⟨S2000000, .f32⟩
  | 96 => ⟨S_, .f32⟩
  | 97 => ⟨S2000000, .f32⟩
  | 98 => ⟨S2000000, .f32⟩
  | 99 => ⟨S2000000, .f32⟩
  | 100 => ⟨S_, .f32⟩
  | 101 => ⟨S2000000, .f32⟩
  | 102 => ⟨S2000000, .f32⟩
  | 103 => ⟨S2000000, .f32⟩
  | 104 => ⟨S_, .f32⟩
  | 105 => ⟨S2000000, .f32⟩
  | 106 => ⟨S2000000, .f32⟩
  | 107 => ⟨S2000000, .f32⟩
  | 108 => ⟨S_, .f32⟩
  | 109 => ⟨S2000000, .f32⟩
  | 110 => ⟨S2000000, .f32⟩
  | 111 => ⟨S2000000, .f32⟩
  | 112 => ⟨S_, .f32⟩
  | 113 => ⟨S2000000, .f32⟩
  | 114 => ⟨S2000000, .f32⟩
  | 115 => ⟨S2000000, .f32⟩
  | 116 => ⟨S_, .f32⟩
  | 117 => ⟨S2000000, .f32⟩
  | 118 => ⟨S2000000, .f32⟩
  | 119 => ⟨S2000000, .f32⟩
  | 120 => ⟨S_, .f32⟩
  | 121 => ⟨S2000000, .f32⟩
  | 122 => ⟨S2000000, .f32⟩
  | 123 => ⟨S2000000, .f32⟩
  | 124 => ⟨S_, .f32⟩
  | 125 => ⟨S2000000, .f32⟩
  | 126 => ⟨S2000000, .f32⟩
  | 127 => ⟨S2000000, .f32⟩
  | _ => ⟨S2000000x3, .f32⟩

abbrev hbmTy0_9 (i : Nat) : BufTy := match i % 128 with
  | 0 => ⟨S_, .f32⟩
  | 1 => ⟨S2000000, .f32⟩
  | 2 => ⟨S2000000, .f32⟩
  | 3 => ⟨S2000000, .f32⟩
  | 4 => ⟨S_, .f32⟩
  | 5 => ⟨S2000000, .f32⟩
  | 6 => ⟨S2000000, .f32⟩
  | 7 => ⟨S2000000, .f32⟩
  | 8 => ⟨S_, .f32⟩
  | 9 => ⟨S2000000, .f32⟩
  | 10 => ⟨S2000000, .f32⟩
  | 11 => ⟨S2000000, .f32⟩
  | 12 => ⟨S_, .f32⟩
  | 13 => ⟨S2000000, .f32⟩
  | 14 => ⟨S2000000, .f32⟩
  | 15 => ⟨S_, .f32⟩
  | 16 => ⟨S2000000, .f32⟩
  | 17 => ⟨S2000000, .f32⟩
  | 18 => ⟨S2000000, .f32⟩
  | 19 => ⟨S_, .f32⟩
  | 20 => ⟨S2000000, .f32⟩
  | 21 => ⟨S2000000, .f32⟩
  | 22 => ⟨S2000000, .f32⟩
  | 23 => ⟨S_, .f32⟩
  | 24 => ⟨S2000000, .f32⟩
  | 25 => ⟨S2000000, .f32⟩
  | 26 => ⟨S2000000, .f32⟩
  | 27 => ⟨S_, .f32⟩
  | 28 => ⟨S2000000, .f32⟩
  | 29 => ⟨S2000000, .f32⟩
  | 30 => ⟨S2000000, .f32⟩
  | 31 => ⟨S_, .f32⟩
  | 32 => ⟨S2000000, .f32⟩
  | 33 => ⟨S2000000, .f32⟩
  | 34 => ⟨S2000000, .f32⟩
  | 35 => ⟨S_, .f32⟩
  | 36 => ⟨S2000000, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S2000000, .f32⟩
  | 43 => ⟨S_, .f32⟩
  | 44 => ⟨S2000000, .f32⟩
  | 45 => ⟨S2000000, .f32⟩
  | 46 => ⟨S2000000, .f32⟩
  | 47 => ⟨S_, .f32⟩
  | 48 => ⟨S2000000, .f32⟩
  | 49 => ⟨S2000000, .f32⟩
  | 50 => ⟨S2000000, .f32⟩
  | 51 => ⟨S_, .f32⟩
  | 52 => ⟨S2000000, .f32⟩
  | 53 => ⟨S2000000, .f32⟩
  | 54 => ⟨S2000000, .f32⟩
  | 55 => ⟨S_, .f32⟩
  | 56 => ⟨S2000000, .f32⟩
  | 57 => ⟨S2000000, .f32⟩
  | 58 => ⟨S2000000, .f32⟩
  | 59 => ⟨S_, .f32⟩
  | 60 => ⟨S2000000, .f32⟩
  | 61 => ⟨S2000000, .f32⟩
  | 62 => ⟨S2000000, .f32⟩
  | 63 => ⟨S_, .f32⟩
  | 64 => ⟨S2000000, .f32⟩
  | 65 => ⟨S2000000, .f32⟩
  | 66 => ⟨S2000000, .f32⟩
  | 67 => ⟨S_, .f32⟩
  | 68 => ⟨S2000000, .f32⟩
  | 69 => ⟨S2000000, .f32⟩
  | 70 => ⟨S2000000, .f32⟩
  | 71 => ⟨S_, .f32⟩
  | 72 => ⟨S2000000, .f32⟩
  | 73 => ⟨S2000000, .f32⟩
  | 74 => ⟨S2000000, .f32⟩
  | 75 => ⟨S_, .f32⟩
  | 76 => ⟨S2000000, .f32⟩
  | 77 => ⟨S2000000, .f32⟩
  | 78 => ⟨S2000000, .f32⟩
  | 79 => ⟨S_, .f32⟩
  | 80 => ⟨S2000000, .f32⟩
  | 81 => ⟨S2000000, .f32⟩
  | 82 => ⟨S2000000, .f32⟩
  | 83 => ⟨S_, .f32⟩
  | 84 => ⟨S2000000, .f32⟩
  | 85 => ⟨S2000000, .f32⟩
  | 86 => ⟨S2000000, .f32⟩
  | 87 => ⟨S2000000x1, .f32⟩
  | 88 => ⟨S2000000x1, .f32⟩
  | 89 => ⟨S2000000x1, .f32⟩
  | 90 => ⟨S2000000x1, .f32⟩
  | 91 => ⟨S2000000x1, .f32⟩
  | 92 => ⟨S2000000x1, .f32⟩
  | 93 => ⟨S2000000x1, .f32⟩
  | 94 => ⟨S2000000x1, .f32⟩
  | 95 => ⟨S2000000x1, .f32⟩
  | 96 => ⟨S2000000x1, .f32⟩
  | 97 => ⟨S2000000x1, .f32⟩
  | 98 => ⟨S2000000x1, .f32⟩
  | 99 => ⟨S2000000x1, .f32⟩
  | 100 => ⟨S2000000x1, .f32⟩
  | 101 => ⟨S2000000x1, .f32⟩
  | 102 => ⟨S2000000x1, .f32⟩
  | 103 => ⟨S2000000x1, .f32⟩
  | 104 => ⟨S2000000x1, .f32⟩
  | 105 => ⟨S2000000x1, .f32⟩
  | 106 => ⟨S2000000x1, .f32⟩
  | 107 => ⟨S2000000x1, .f32⟩
  | 108 => ⟨S2000000x1, .f32⟩
  | 109 => ⟨S2000000x1, .f32⟩
  | 110 => ⟨S2000000x1, .f32⟩
  | 111 => ⟨S2000000x1, .f32⟩
  | 112 => ⟨S2000000x1, .f32⟩
  | 113 => ⟨S2000000x1, .f32⟩
  | 114 => ⟨S2000000x1, .f32⟩
  | 115 => ⟨S2000000x1, .f32⟩
  | 116 => ⟨S2000000x1, .f32⟩
  | 117 => ⟨S2000000x1, .f32⟩
  | 118 => ⟨S2000000x1, .f32⟩
  | 119 => ⟨S2000000x1, .f32⟩
  | 120 => ⟨S2000000x1, .f32⟩
  | 121 => ⟨S2000000x1, .f32⟩
  | 122 => ⟨S2000000x1, .f32⟩
  | 123 => ⟨S2000000x1, .f32⟩
  | 124 => ⟨S2000000x1, .f32⟩
  | 125 => ⟨S2000000x1, .f32⟩
  | 126 => ⟨S2000000x1, .f32⟩
  | 127 => ⟨S2000000x1, .f32⟩
  | _ => ⟨S2000000x3, .f32⟩

abbrev hbmTy0_10 (i : Nat) : BufTy := match i % 128 with
  | 0 => ⟨S2000000x1, .f32⟩
  | 1 => ⟨S2000000x1, .f32⟩
  | 2 => ⟨S2000000x1, .f32⟩
  | 3 => ⟨S2000000x1, .f32⟩
  | 4 => ⟨S2000000x1, .f32⟩
  | 5 => ⟨S2000000x1, .f32⟩
  | 6 => ⟨S2000000x1, .f32⟩
  | 7 => ⟨S2000000x1, .f32⟩
  | 8 => ⟨S2000000x1, .f32⟩
  | 9 => ⟨S2000000x1, .f32⟩
  | 10 => ⟨S2000000x1, .f32⟩
  | 11 => ⟨S2000000x1, .f32⟩
  | 12 => ⟨S2000000x1, .f32⟩
  | 13 => ⟨S2000000x1, .f32⟩
  | 14 => ⟨S2000000x1, .f32⟩
  | 15 => ⟨S2000000x1, .f32⟩
  | 16 => ⟨S2000000x1, .f32⟩
  | 17 => ⟨S2000000x1, .f32⟩
  | 18 => ⟨S2000000x1, .f32⟩
  | 19 => ⟨S2000000x1, .f32⟩
  | 20 => ⟨S2000000x1, .f32⟩
  | 21 => ⟨S2000000x1, .f32⟩
  | 22 => ⟨S2000000x1, .f32⟩
  | 23 => ⟨S2000000x1, .f32⟩
  | 24 => ⟨S2000000x1, .f32⟩
  | 25 => ⟨S2000000x1, .f32⟩
  | 26 => ⟨S2000000x1, .f32⟩
  | 27 => ⟨S2000000x1, .f32⟩
  | 28 => ⟨S2000000x1, .f32⟩
  | 29 => ⟨S2000000x1, .f32⟩
  | 30 => ⟨S2000000x1, .f32⟩
  | 31 => ⟨S2000000x1, .f32⟩
  | 32 => ⟨S2000000x1, .f32⟩
  | 33 => ⟨S2000000x1, .f32⟩
  | 34 => ⟨S2000000x1, .f32⟩
  | 35 => ⟨S2000000x1, .f32⟩
  | 36 => ⟨S2000000x1, .f32⟩
  | 37 => ⟨S2000000x1, .f32⟩
  | 38 => ⟨S2000000x1, .f32⟩
  | 39 => ⟨S2000000x1, .f32⟩
  | 40 => ⟨S2000000x1, .f32⟩
  | 41 => ⟨S2000000x1, .f32⟩
  | 42 => ⟨S2000000x1, .f32⟩
  | 43 => ⟨S2000000x1, .f32⟩
  | 44 => ⟨S2000000x1, .f32⟩
  | 45 => ⟨S2000000x1, .f32⟩
  | 46 => ⟨S2000000x1, .f32⟩
  | 47 => ⟨S2000000x1, .f32⟩
  | 48 => ⟨S2000000x1, .f32⟩
  | 49 => ⟨S2000000x1, .f32⟩
  | 50 => ⟨S2000000x1, .f32⟩
  | 51 => ⟨S2000000x1, .f32⟩
  | 52 => ⟨S2000000x1, .f32⟩
  | 53 => ⟨S2000000x1, .f32⟩
  | 54 => ⟨S2000000x1, .f32⟩
  | 55 => ⟨S2000000x1, .f32⟩
  | 56 => ⟨S2000000x1, .f32⟩
  | 57 => ⟨S2000000x1, .f32⟩
  | 58 => ⟨S2000000x1, .f32⟩
  | 59 => ⟨S2000000x16, .f32⟩
  | 60 => ⟨S2000000x16, .f32⟩
  | 61 => ⟨S2000000x16, .f32⟩
  | 62 => ⟨S2000000x16, .f32⟩
  | 63 => ⟨S2000000x16, .f32⟩
  | 64 => ⟨S2000000x16, .f32⟩
  | 65 => ⟨S2000000x4, .f32⟩
  | 66 => ⟨S2000000x100, .f32⟩
  | 67 => ⟨S2000000x1, .f32⟩
  | 68 => ⟨S2000000x101, .f32⟩
  | _ => ⟨S2000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_5 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_6 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_7 : Ref sig .tc := ⟨.hbm, 33, rfl⟩
abbrev main_v24 : Ref sig .tc := ⟨.hbm, 34, rfl⟩
abbrev main_v25 : Ref sig .tc := ⟨.hbm, 35, rfl⟩
abbrev main_cst_8 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_9 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_10 : Ref sig .tc := ⟨.hbm, 44, rfl⟩
abbrev main_v32 : Ref sig .tc := ⟨.hbm, 45, rfl⟩
abbrev main_v33 : Ref sig .tc := ⟨.hbm, 46, rfl⟩
abbrev main_cst_11 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_12 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_13 : Ref sig .tc := ⟨.hbm, 55, rfl⟩
abbrev main_v40 : Ref sig .tc := ⟨.hbm, 56, rfl⟩
abbrev main_v41 : Ref sig .tc := ⟨.hbm, 57, rfl⟩
abbrev main_cst_14 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_15 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_16 : Ref sig .tc := ⟨.hbm, 66, rfl⟩
abbrev main_v48 : Ref sig .tc := ⟨.hbm, 67, rfl⟩
abbrev main_v49 : Ref sig .tc := ⟨.hbm, 68, rfl⟩
abbrev main_cst_17 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_18 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_19 : Ref sig .tc := ⟨.hbm, 77, rfl⟩
abbrev main_v56 : Ref sig .tc := ⟨.hbm, 78, rfl⟩
abbrev main_v57 : Ref sig .tc := ⟨.hbm, 79, rfl⟩
abbrev main_cst_20 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_21 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_22 : Ref sig .tc := ⟨.hbm, 88, rfl⟩
abbrev main_v64 : Ref sig .tc := ⟨.hbm, 89, rfl⟩
abbrev main_v65 : Ref sig .tc := ⟨.hbm, 90, rfl⟩
abbrev main_cst_23 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_24 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_25 : Ref sig .tc := ⟨.hbm, 99, rfl⟩
abbrev main_v72 : Ref sig .tc := ⟨.hbm, 100, rfl⟩
abbrev main_v73 : Ref sig .tc := ⟨.hbm, 101, rfl⟩
abbrev main_cst_26 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_27 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_28 : Ref sig .tc := ⟨.hbm, 110, rfl⟩
abbrev main_v80 : Ref sig .tc := ⟨.hbm, 111, rfl⟩
abbrev main_v81 : Ref sig .tc := ⟨.hbm, 112, rfl⟩
abbrev main_cst_29 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_30 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_31 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_32 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_33 : Ref sig .tc := ⟨.hbm, 129, rfl⟩
abbrev main_v94 : Ref sig .tc := ⟨.hbm, 130, rfl⟩
abbrev main_v95 : Ref sig .tc := ⟨.hbm, 131, rfl⟩
abbrev main_cst_34 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_35 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_36 : Ref sig .tc := ⟨.hbm, 140, rfl⟩
abbrev main_v102 : Ref sig .tc := ⟨.hbm, 141, rfl⟩
abbrev main_v103 : Ref sig .tc := ⟨.hbm, 142, rfl⟩
abbrev main_cst_37 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_38 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_39 : Ref sig .tc := ⟨.hbm, 151, rfl⟩
abbrev main_v110 : Ref sig .tc := ⟨.hbm, 152, rfl⟩
abbrev main_v111 : Ref sig .tc := ⟨.hbm, 153, rfl⟩
abbrev main_cst_40 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_41 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_42 : Ref sig .tc := ⟨.hbm, 162, rfl⟩
abbrev main_v118 : Ref sig .tc := ⟨.hbm, 163, rfl⟩
abbrev main_v119 : Ref sig .tc := ⟨.hbm, 164, rfl⟩
abbrev main_cst_43 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_44 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_45 : Ref sig .tc := ⟨.hbm, 173, rfl⟩
abbrev main_v126 : Ref sig .tc := ⟨.hbm, 174, rfl⟩
abbrev main_v127 : Ref sig .tc := ⟨.hbm, 175, rfl⟩
abbrev main_cst_46 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_47 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_48 : Ref sig .tc := ⟨.hbm, 184, rfl⟩
abbrev main_v134 : Ref sig .tc := ⟨.hbm, 185, rfl⟩
abbrev main_v135 : Ref sig .tc := ⟨.hbm, 186, rfl⟩
abbrev main_cst_49 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_50 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_51 : Ref sig .tc := ⟨.hbm, 195, rfl⟩
abbrev main_v142 : Ref sig .tc := ⟨.hbm, 196, rfl⟩
abbrev main_v143 : Ref sig .tc := ⟨.hbm, 197, rfl⟩
abbrev main_cst_52 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_53 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_cst_54 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_55 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_cst_56 : Ref sig .tc := ⟨.hbm, 214, rfl⟩
abbrev main_v156 : Ref sig .tc := ⟨.hbm, 215, rfl⟩
abbrev main_v157 : Ref sig .tc := ⟨.hbm, 216, rfl⟩
abbrev main_cst_57 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_58 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_cst_59 : Ref sig .tc := ⟨.hbm, 225, rfl⟩
abbrev main_v164 : Ref sig .tc := ⟨.hbm, 226, rfl⟩
abbrev main_v165 : Ref sig .tc := ⟨.hbm, 227, rfl⟩
abbrev main_cst_60 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_cst_61 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_cst_62 : Ref sig .tc := ⟨.hbm, 236, rfl⟩
abbrev main_v172 : Ref sig .tc := ⟨.hbm, 237, rfl⟩
abbrev main_v173 : Ref sig .tc := ⟨.hbm, 238, rfl⟩
abbrev main_cst_63 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_cst_64 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_cst_65 : Ref sig .tc := ⟨.hbm, 247, rfl⟩
abbrev main_v180 : Ref sig .tc := ⟨.hbm, 248, rfl⟩
abbrev main_v181 : Ref sig .tc := ⟨.hbm, 249, rfl⟩
abbrev main_cst_66 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_cst_67 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_cst_68 : Ref sig .tc := ⟨.hbm, 258, rfl⟩
abbrev main_v188 : Ref sig .tc := ⟨.hbm, 259, rfl⟩
abbrev main_v189 : Ref sig .tc := ⟨.hbm, 260, rfl⟩
abbrev main_cst_69 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_cst_70 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_cst_71 : Ref sig .tc := ⟨.hbm, 269, rfl⟩
abbrev main_v196 : Ref sig .tc := ⟨.hbm, 270, rfl⟩
abbrev main_v197 : Ref sig .tc := ⟨.hbm, 271, rfl⟩
abbrev main_cst_72 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_cst_73 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_cst_74 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_cst_75 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_cst_76 : Ref sig .tc := ⟨.hbm, 288, rfl⟩
abbrev main_v210 : Ref sig .tc := ⟨.hbm, 289, rfl⟩
abbrev main_v211 : Ref sig .tc := ⟨.hbm, 290, rfl⟩
abbrev main_cst_77 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_cst_78 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_cst_79 : Ref sig .tc := ⟨.hbm, 299, rfl⟩
abbrev main_v218 : Ref sig .tc := ⟨.hbm, 300, rfl⟩
abbrev main_v219 : Ref sig .tc := ⟨.hbm, 301, rfl⟩
abbrev main_cst_80 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_cst_81 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_cst_82 : Ref sig .tc := ⟨.hbm, 310, rfl⟩
abbrev main_v226 : Ref sig .tc := ⟨.hbm, 311, rfl⟩
abbrev main_v227 : Ref sig .tc := ⟨.hbm, 312, rfl⟩
abbrev main_cst_83 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_cst_84 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_cst_85 : Ref sig .tc := ⟨.hbm, 321, rfl⟩
abbrev main_v234 : Ref sig .tc := ⟨.hbm, 322, rfl⟩
abbrev main_v235 : Ref sig .tc := ⟨.hbm, 323, rfl⟩
abbrev main_cst_86 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_cst_87 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_cst_88 : Ref sig .tc := ⟨.hbm, 332, rfl⟩
abbrev main_v242 : Ref sig .tc := ⟨.hbm, 333, rfl⟩
abbrev main_v243 : Ref sig .tc := ⟨.hbm, 334, rfl⟩
abbrev main_cst_89 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_cst_90 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_cst_91 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_cst_92 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_cst_93 : Ref sig .tc := ⟨.hbm, 351, rfl⟩
abbrev main_v256 : Ref sig .tc := ⟨.hbm, 352, rfl⟩
abbrev main_v257 : Ref sig .tc := ⟨.hbm, 353, rfl⟩
abbrev main_cst_94 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_cst_95 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_cst_96 : Ref sig .tc := ⟨.hbm, 362, rfl⟩
abbrev main_v264 : Ref sig .tc := ⟨.hbm, 363, rfl⟩
abbrev main_v265 : Ref sig .tc := ⟨.hbm, 364, rfl⟩
abbrev main_cst_97 : Ref sig .tc := ⟨.hbm, 365, rfl⟩
abbrev main_v266 : Ref sig .tc := ⟨.hbm, 366, rfl⟩
abbrev main_v267 : Ref sig .tc := ⟨.hbm, 367, rfl⟩
abbrev main_v268 : Ref sig .tc := ⟨.hbm, 368, rfl⟩
abbrev main_cst_98 : Ref sig .tc := ⟨.hbm, 369, rfl⟩
abbrev main_v269 : Ref sig .tc := ⟨.hbm, 370, rfl⟩
abbrev main_v270 : Ref sig .tc := ⟨.hbm, 371, rfl⟩
abbrev main_v271 : Ref sig .tc := ⟨.hbm, 372, rfl⟩
abbrev main_cst_99 : Ref sig .tc := ⟨.hbm, 373, rfl⟩
abbrev main_v272 : Ref sig .tc := ⟨.hbm, 374, rfl⟩
abbrev main_v273 : Ref sig .tc := ⟨.hbm, 375, rfl⟩
abbrev main_cst_100 : Ref sig .tc := ⟨.hbm, 376, rfl⟩
abbrev main_v274 : Ref sig .tc := ⟨.hbm, 377, rfl⟩
abbrev main_v275 : Ref sig .tc := ⟨.hbm, 378, rfl⟩
abbrev main_v276 : Ref sig .tc := ⟨.hbm, 379, rfl⟩
abbrev main_cst_101 : Ref sig .tc := ⟨.hbm, 380, rfl⟩
abbrev main_v277 : Ref sig .tc := ⟨.hbm, 381, rfl⟩
abbrev main_v278 : Ref sig .tc := ⟨.hbm, 382, rfl⟩
abbrev main_v279 : Ref sig .tc := ⟨.hbm, 383, rfl⟩
abbrev main_cst_102 : Ref sig .tc := ⟨.hbm, 384, rfl⟩
abbrev main_v280 : Ref sig .tc := ⟨.hbm, 385, rfl⟩
abbrev main_v281 : Ref sig .tc := ⟨.hbm, 386, rfl⟩
abbrev main_cst_103 : Ref sig .tc := ⟨.hbm, 387, rfl⟩
abbrev main_v282 : Ref sig .tc := ⟨.hbm, 388, rfl⟩
abbrev main_v283 : Ref sig .tc := ⟨.hbm, 389, rfl⟩
abbrev main_v284 : Ref sig .tc := ⟨.hbm, 390, rfl⟩
abbrev main_cst_104 : Ref sig .tc := ⟨.hbm, 391, rfl⟩
abbrev main_v285 : Ref sig .tc := ⟨.hbm, 392, rfl⟩
abbrev main_v286 : Ref sig .tc := ⟨.hbm, 393, rfl⟩
abbrev main_v287 : Ref sig .tc := ⟨.hbm, 394, rfl⟩
abbrev main_cst_105 : Ref sig .tc := ⟨.hbm, 395, rfl⟩
abbrev main_v288 : Ref sig .tc := ⟨.hbm, 396, rfl⟩
abbrev main_v289 : Ref sig .tc := ⟨.hbm, 397, rfl⟩
abbrev main_v290 : Ref sig .tc := ⟨.hbm, 398, rfl⟩
abbrev main_cst_106 : Ref sig .tc := ⟨.hbm, 399, rfl⟩
abbrev main_v291 : Ref sig .tc := ⟨.hbm, 400, rfl⟩
abbrev main_v292 : Ref sig .tc := ⟨.hbm, 401, rfl⟩
abbrev main_v293 : Ref sig .tc := ⟨.hbm, 402, rfl⟩
abbrev main_cst_107 : Ref sig .tc := ⟨.hbm, 403, rfl⟩
abbrev main_v294 : Ref sig .tc := ⟨.hbm, 404, rfl⟩
abbrev main_v295 : Ref sig .tc := ⟨.hbm, 405, rfl⟩
abbrev main_cst_108 : Ref sig .tc := ⟨.hbm, 406, rfl⟩
abbrev main_v296 : Ref sig .tc := ⟨.hbm, 407, rfl⟩
abbrev main_v297 : Ref sig .tc := ⟨.hbm, 408, rfl⟩
abbrev main_v298 : Ref sig .tc := ⟨.hbm, 409, rfl⟩
abbrev main_cst_109 : Ref sig .tc := ⟨.hbm, 410, rfl⟩
abbrev main_v299 : Ref sig .tc := ⟨.hbm, 411, rfl⟩
abbrev main_v300 : Ref sig .tc := ⟨.hbm, 412, rfl⟩
abbrev main_v301 : Ref sig .tc := ⟨.hbm, 413, rfl⟩
abbrev main_cst_110 : Ref sig .tc := ⟨.hbm, 414, rfl⟩
abbrev main_v302 : Ref sig .tc := ⟨.hbm, 415, rfl⟩
abbrev main_v303 : Ref sig .tc := ⟨.hbm, 416, rfl⟩
abbrev main_cst_111 : Ref sig .tc := ⟨.hbm, 417, rfl⟩
abbrev main_v304 : Ref sig .tc := ⟨.hbm, 418, rfl⟩
abbrev main_v305 : Ref sig .tc := ⟨.hbm, 419, rfl⟩
abbrev main_v306 : Ref sig .tc := ⟨.hbm, 420, rfl⟩
abbrev main_cst_112 : Ref sig .tc := ⟨.hbm, 421, rfl⟩
abbrev main_v307 : Ref sig .tc := ⟨.hbm, 422, rfl⟩
abbrev main_v308 : Ref sig .tc := ⟨.hbm, 423, rfl⟩
abbrev main_v309 : Ref sig .tc := ⟨.hbm, 424, rfl⟩
abbrev main_cst_113 : Ref sig .tc := ⟨.hbm, 425, rfl⟩
abbrev main_v310 : Ref sig .tc := ⟨.hbm, 426, rfl⟩
abbrev main_v311 : Ref sig .tc := ⟨.hbm, 427, rfl⟩
abbrev main_cst_114 : Ref sig .tc := ⟨.hbm, 428, rfl⟩
abbrev main_v312 : Ref sig .tc := ⟨.hbm, 429, rfl⟩
abbrev main_v313 : Ref sig .tc := ⟨.hbm, 430, rfl⟩
abbrev main_v314 : Ref sig .tc := ⟨.hbm, 431, rfl⟩
abbrev main_cst_115 : Ref sig .tc := ⟨.hbm, 432, rfl⟩
abbrev main_v315 : Ref sig .tc := ⟨.hbm, 433, rfl⟩
abbrev main_v316 : Ref sig .tc := ⟨.hbm, 434, rfl⟩
abbrev main_v317 : Ref sig .tc := ⟨.hbm, 435, rfl⟩
abbrev main_cst_116 : Ref sig .tc := ⟨.hbm, 436, rfl⟩
abbrev main_v318 : Ref sig .tc := ⟨.hbm, 437, rfl⟩
abbrev main_v319 : Ref sig .tc := ⟨.hbm, 438, rfl⟩
abbrev main_v320 : Ref sig .tc := ⟨.hbm, 439, rfl⟩
abbrev main_cst_117 : Ref sig .tc := ⟨.hbm, 440, rfl⟩
abbrev main_v321 : Ref sig .tc := ⟨.hbm, 441, rfl⟩
abbrev main_v322 : Ref sig .tc := ⟨.hbm, 442, rfl⟩
abbrev main_v323 : Ref sig .tc := ⟨.hbm, 443, rfl⟩
abbrev main_cst_118 : Ref sig .tc := ⟨.hbm, 444, rfl⟩
abbrev main_v324 : Ref sig .tc := ⟨.hbm, 445, rfl⟩
abbrev main_v325 : Ref sig .tc := ⟨.hbm, 446, rfl⟩
abbrev main_cst_119 : Ref sig .tc := ⟨.hbm, 447, rfl⟩
abbrev main_v326 : Ref sig .tc := ⟨.hbm, 448, rfl⟩
abbrev main_v327 : Ref sig .tc := ⟨.hbm, 449, rfl⟩
abbrev main_v328 : Ref sig .tc := ⟨.hbm, 450, rfl⟩
abbrev main_cst_120 : Ref sig .tc := ⟨.hbm, 451, rfl⟩
abbrev main_v329 : Ref sig .tc := ⟨.hbm, 452, rfl⟩
abbrev main_v330 : Ref sig .tc := ⟨.hbm, 453, rfl⟩
abbrev main_v331 : Ref sig .tc := ⟨.hbm, 454, rfl⟩
abbrev main_cst_121 : Ref sig .tc := ⟨.hbm, 455, rfl⟩
abbrev main_v332 : Ref sig .tc := ⟨.hbm, 456, rfl⟩
abbrev main_v333 : Ref sig .tc := ⟨.hbm, 457, rfl⟩
abbrev main_cst_122 : Ref sig .tc := ⟨.hbm, 458, rfl⟩
abbrev main_v334 : Ref sig .tc := ⟨.hbm, 459, rfl⟩
abbrev main_v335 : Ref sig .tc := ⟨.hbm, 460, rfl⟩
abbrev main_v336 : Ref sig .tc := ⟨.hbm, 461, rfl⟩
abbrev main_cst_123 : Ref sig .tc := ⟨.hbm, 462, rfl⟩
abbrev main_v337 : Ref sig .tc := ⟨.hbm, 463, rfl⟩
abbrev main_v338 : Ref sig .tc := ⟨.hbm, 464, rfl⟩
abbrev main_v339 : Ref sig .tc := ⟨.hbm, 465, rfl⟩
abbrev main_cst_124 : Ref sig .tc := ⟨.hbm, 466, rfl⟩
abbrev main_v340 : Ref sig .tc := ⟨.hbm, 467, rfl⟩
abbrev main_v341 : Ref sig .tc := ⟨.hbm, 468, rfl⟩
abbrev main_v342 : Ref sig .tc := ⟨.hbm, 469, rfl⟩
abbrev main_cst_125 : Ref sig .tc := ⟨.hbm, 470, rfl⟩
abbrev main_v343 : Ref sig .tc := ⟨.hbm, 471, rfl⟩
abbrev main_v344 : Ref sig .tc := ⟨.hbm, 472, rfl⟩
abbrev main_v345 : Ref sig .tc := ⟨.hbm, 473, rfl⟩
abbrev main_cst_126 : Ref sig .tc := ⟨.hbm, 474, rfl⟩
abbrev main_v346 : Ref sig .tc := ⟨.hbm, 475, rfl⟩
abbrev main_v347 : Ref sig .tc := ⟨.hbm, 476, rfl⟩
abbrev main_cst_127 : Ref sig .tc := ⟨.hbm, 477, rfl⟩
abbrev main_v348 : Ref sig .tc := ⟨.hbm, 478, rfl⟩
abbrev main_v349 : Ref sig .tc := ⟨.hbm, 479, rfl⟩
abbrev main_v350 : Ref sig .tc := ⟨.hbm, 480, rfl⟩
abbrev main_cst_128 : Ref sig .tc := ⟨.hbm, 481, rfl⟩
abbrev main_v351 : Ref sig .tc := ⟨.hbm, 482, rfl⟩
abbrev main_v352 : Ref sig .tc := ⟨.hbm, 483, rfl⟩
abbrev main_v353 : Ref sig .tc := ⟨.hbm, 484, rfl⟩
abbrev main_cst_129 : Ref sig .tc := ⟨.hbm, 485, rfl⟩
abbrev main_v354 : Ref sig .tc := ⟨.hbm, 486, rfl⟩
abbrev main_v355 : Ref sig .tc := ⟨.hbm, 487, rfl⟩
abbrev main_v356 : Ref sig .tc := ⟨.hbm, 488, rfl⟩
abbrev main_cst_130 : Ref sig .tc := ⟨.hbm, 489, rfl⟩
abbrev main_v357 : Ref sig .tc := ⟨.hbm, 490, rfl⟩
abbrev main_v358 : Ref sig .tc := ⟨.hbm, 491, rfl⟩
abbrev main_cst_131 : Ref sig .tc := ⟨.hbm, 492, rfl⟩
abbrev main_v359 : Ref sig .tc := ⟨.hbm, 493, rfl⟩
abbrev main_v360 : Ref sig .tc := ⟨.hbm, 494, rfl⟩
abbrev main_v361 : Ref sig .tc := ⟨.hbm, 495, rfl⟩
abbrev main_cst_132 : Ref sig .tc := ⟨.hbm, 496, rfl⟩
abbrev main_v362 : Ref sig .tc := ⟨.hbm, 497, rfl⟩
abbrev main_v363 : Ref sig .tc := ⟨.hbm, 498, rfl⟩
abbrev main_v364 : Ref sig .tc := ⟨.hbm, 499, rfl⟩
abbrev main_cst_133 : Ref sig .tc := ⟨.hbm, 500, rfl⟩
abbrev main_v365 : Ref sig .tc := ⟨.hbm, 501, rfl⟩
abbrev main_v366 : Ref sig .tc := ⟨.hbm, 502, rfl⟩
abbrev main_cst_134 : Ref sig .tc := ⟨.hbm, 503, rfl⟩
abbrev main_v367 : Ref sig .tc := ⟨.hbm, 504, rfl⟩
abbrev main_v368 : Ref sig .tc := ⟨.hbm, 505, rfl⟩
abbrev main_v369 : Ref sig .tc := ⟨.hbm, 506, rfl⟩
abbrev main_cst_135 : Ref sig .tc := ⟨.hbm, 507, rfl⟩
abbrev main_v370 : Ref sig .tc := ⟨.hbm, 508, rfl⟩
abbrev main_v371 : Ref sig .tc := ⟨.hbm, 509, rfl⟩
abbrev main_v372 : Ref sig .tc := ⟨.hbm, 510, rfl⟩
abbrev main_cst_136 : Ref sig .tc := ⟨.hbm, 511, rfl⟩
abbrev main_v373 : Ref sig .tc := ⟨.hbm, 512, rfl⟩
abbrev main_v374 : Ref sig .tc := ⟨.hbm, 513, rfl⟩
abbrev main_v375 : Ref sig .tc := ⟨.hbm, 514, rfl⟩
abbrev main_cst_137 : Ref sig .tc := ⟨.hbm, 515, rfl⟩
abbrev main_v376 : Ref sig .tc := ⟨.hbm, 516, rfl⟩
abbrev main_v377 : Ref sig .tc := ⟨.hbm, 517, rfl⟩
abbrev main_v378 : Ref sig .tc := ⟨.hbm, 518, rfl⟩
abbrev main_cst_138 : Ref sig .tc := ⟨.hbm, 519, rfl⟩
abbrev main_v379 : Ref sig .tc := ⟨.hbm, 520, rfl⟩
abbrev main_v380 : Ref sig .tc := ⟨.hbm, 521, rfl⟩
abbrev main_v381 : Ref sig .tc := ⟨.hbm, 522, rfl⟩
abbrev main_cst_139 : Ref sig .tc := ⟨.hbm, 523, rfl⟩
abbrev main_v382 : Ref sig .tc := ⟨.hbm, 524, rfl⟩
abbrev main_v383 : Ref sig .tc := ⟨.hbm, 525, rfl⟩
abbrev main_v384 : Ref sig .tc := ⟨.hbm, 526, rfl⟩
abbrev main_cst_140 : Ref sig .tc := ⟨.hbm, 527, rfl⟩
abbrev main_v385 : Ref sig .tc := ⟨.hbm, 528, rfl⟩
abbrev main_v386 : Ref sig .tc := ⟨.hbm, 529, rfl⟩
abbrev main_cst_141 : Ref sig .tc := ⟨.hbm, 530, rfl⟩
abbrev main_v387 : Ref sig .tc := ⟨.hbm, 531, rfl⟩
abbrev main_v388 : Ref sig .tc := ⟨.hbm, 532, rfl⟩
abbrev main_v389 : Ref sig .tc := ⟨.hbm, 533, rfl⟩
abbrev main_cst_142 : Ref sig .tc := ⟨.hbm, 534, rfl⟩
abbrev main_v390 : Ref sig .tc := ⟨.hbm, 535, rfl⟩
abbrev main_v391 : Ref sig .tc := ⟨.hbm, 536, rfl⟩
abbrev main_v392 : Ref sig .tc := ⟨.hbm, 537, rfl⟩
abbrev main_cst_143 : Ref sig .tc := ⟨.hbm, 538, rfl⟩
abbrev main_v393 : Ref sig .tc := ⟨.hbm, 539, rfl⟩
abbrev main_v394 : Ref sig .tc := ⟨.hbm, 540, rfl⟩
abbrev main_v395 : Ref sig .tc := ⟨.hbm, 541, rfl⟩
abbrev main_cst_144 : Ref sig .tc := ⟨.hbm, 542, rfl⟩
abbrev main_v396 : Ref sig .tc := ⟨.hbm, 543, rfl⟩
abbrev main_v397 : Ref sig .tc := ⟨.hbm, 544, rfl⟩
abbrev main_v398 : Ref sig .tc := ⟨.hbm, 545, rfl⟩
abbrev main_cst_145 : Ref sig .tc := ⟨.hbm, 546, rfl⟩
abbrev main_v399 : Ref sig .tc := ⟨.hbm, 547, rfl⟩
abbrev main_v400 : Ref sig .tc := ⟨.hbm, 548, rfl⟩
abbrev main_v401 : Ref sig .tc := ⟨.hbm, 549, rfl⟩
abbrev main_cst_146 : Ref sig .tc := ⟨.hbm, 550, rfl⟩
abbrev main_v402 : Ref sig .tc := ⟨.hbm, 551, rfl⟩
abbrev main_v403 : Ref sig .tc := ⟨.hbm, 552, rfl⟩
abbrev main_v404 : Ref sig .tc := ⟨.hbm, 553, rfl⟩
abbrev main_cst_147 : Ref sig .tc := ⟨.hbm, 554, rfl⟩
abbrev main_v405 : Ref sig .tc := ⟨.hbm, 555, rfl⟩
abbrev main_v406 : Ref sig .tc := ⟨.hbm, 556, rfl⟩
abbrev main_v407 : Ref sig .tc := ⟨.hbm, 557, rfl⟩
abbrev main_cst_148 : Ref sig .tc := ⟨.hbm, 558, rfl⟩
abbrev main_v408 : Ref sig .tc := ⟨.hbm, 559, rfl⟩
abbrev main_v409 : Ref sig .tc := ⟨.hbm, 560, rfl⟩
abbrev main_v410 : Ref sig .tc := ⟨.hbm, 561, rfl⟩
abbrev main_cst_149 : Ref sig .tc := ⟨.hbm, 562, rfl⟩
abbrev main_v411 : Ref sig .tc := ⟨.hbm, 563, rfl⟩
abbrev main_v412 : Ref sig .tc := ⟨.hbm, 564, rfl⟩
abbrev main_v413 : Ref sig .tc := ⟨.hbm, 565, rfl⟩
abbrev main_cst_150 : Ref sig .tc := ⟨.hbm, 566, rfl⟩
abbrev main_v414 : Ref sig .tc := ⟨.hbm, 567, rfl⟩
abbrev main_v415 : Ref sig .tc := ⟨.hbm, 568, rfl⟩
abbrev main_v416 : Ref sig .tc := ⟨.hbm, 569, rfl⟩
abbrev main_cst_151 : Ref sig .tc := ⟨.hbm, 570, rfl⟩
abbrev main_v417 : Ref sig .tc := ⟨.hbm, 571, rfl⟩
abbrev main_v418 : Ref sig .tc := ⟨.hbm, 572, rfl⟩
abbrev main_cst_152 : Ref sig .tc := ⟨.hbm, 573, rfl⟩
abbrev main_v419 : Ref sig .tc := ⟨.hbm, 574, rfl⟩
abbrev main_v420 : Ref sig .tc := ⟨.hbm, 575, rfl⟩
abbrev main_v421 : Ref sig .tc := ⟨.hbm, 576, rfl⟩
abbrev main_cst_153 : Ref sig .tc := ⟨.hbm, 577, rfl⟩
abbrev main_v422 : Ref sig .tc := ⟨.hbm, 578, rfl⟩
abbrev main_v423 : Ref sig .tc := ⟨.hbm, 579, rfl⟩
abbrev main_v424 : Ref sig .tc := ⟨.hbm, 580, rfl⟩
abbrev main_cst_154 : Ref sig .tc := ⟨.hbm, 581, rfl⟩
abbrev main_v425 : Ref sig .tc := ⟨.hbm, 582, rfl⟩
abbrev main_v426 : Ref sig .tc := ⟨.hbm, 583, rfl⟩
abbrev main_v427 : Ref sig .tc := ⟨.hbm, 584, rfl⟩
abbrev main_cst_155 : Ref sig .tc := ⟨.hbm, 585, rfl⟩
abbrev main_v428 : Ref sig .tc := ⟨.hbm, 586, rfl⟩
abbrev main_v429 : Ref sig .tc := ⟨.hbm, 587, rfl⟩
abbrev main_v430 : Ref sig .tc := ⟨.hbm, 588, rfl⟩
abbrev main_cst_156 : Ref sig .tc := ⟨.hbm, 589, rfl⟩
abbrev main_v431 : Ref sig .tc := ⟨.hbm, 590, rfl⟩
abbrev main_v432 : Ref sig .tc := ⟨.hbm, 591, rfl⟩
abbrev main_v433 : Ref sig .tc := ⟨.hbm, 592, rfl⟩
abbrev main_cst_157 : Ref sig .tc := ⟨.hbm, 593, rfl⟩
abbrev main_v434 : Ref sig .tc := ⟨.hbm, 594, rfl⟩
abbrev main_v435 : Ref sig .tc := ⟨.hbm, 595, rfl⟩
abbrev main_v436 : Ref sig .tc := ⟨.hbm, 596, rfl⟩
abbrev main_cst_158 : Ref sig .tc := ⟨.hbm, 597, rfl⟩
abbrev main_v437 : Ref sig .tc := ⟨.hbm, 598, rfl⟩
abbrev main_v438 : Ref sig .tc := ⟨.hbm, 599, rfl⟩
abbrev main_v439 : Ref sig .tc := ⟨.hbm, 600, rfl⟩
abbrev main_cst_159 : Ref sig .tc := ⟨.hbm, 601, rfl⟩
abbrev main_v440 : Ref sig .tc := ⟨.hbm, 602, rfl⟩
abbrev main_v441 : Ref sig .tc := ⟨.hbm, 603, rfl⟩
abbrev main_v442 : Ref sig .tc := ⟨.hbm, 604, rfl⟩
abbrev main_cst_160 : Ref sig .tc := ⟨.hbm, 605, rfl⟩
abbrev main_v443 : Ref sig .tc := ⟨.hbm, 606, rfl⟩
abbrev main_v444 : Ref sig .tc := ⟨.hbm, 607, rfl⟩
abbrev main_v445 : Ref sig .tc := ⟨.hbm, 608, rfl⟩
abbrev main_cst_161 : Ref sig .tc := ⟨.hbm, 609, rfl⟩
abbrev main_v446 : Ref sig .tc := ⟨.hbm, 610, rfl⟩
abbrev main_v447 : Ref sig .tc := ⟨.hbm, 611, rfl⟩
abbrev main_v448 : Ref sig .tc := ⟨.hbm, 612, rfl⟩
abbrev main_cst_162 : Ref sig .tc := ⟨.hbm, 613, rfl⟩
abbrev main_v449 : Ref sig .tc := ⟨.hbm, 614, rfl⟩
abbrev main_v450 : Ref sig .tc := ⟨.hbm, 615, rfl⟩
abbrev main_v451 : Ref sig .tc := ⟨.hbm, 616, rfl⟩
abbrev main_cst_163 : Ref sig .tc := ⟨.hbm, 617, rfl⟩
abbrev main_v452 : Ref sig .tc := ⟨.hbm, 618, rfl⟩
abbrev main_v453 : Ref sig .tc := ⟨.hbm, 619, rfl⟩
abbrev main_v454 : Ref sig .tc := ⟨.hbm, 620, rfl⟩
abbrev main_cst_164 : Ref sig .tc := ⟨.hbm, 621, rfl⟩
abbrev main_v455 : Ref sig .tc := ⟨.hbm, 622, rfl⟩
abbrev main_v456 : Ref sig .tc := ⟨.hbm, 623, rfl⟩
abbrev main_v457 : Ref sig .tc := ⟨.hbm, 624, rfl⟩
abbrev main_cst_165 : Ref sig .tc := ⟨.hbm, 625, rfl⟩
abbrev main_v458 : Ref sig .tc := ⟨.hbm, 626, rfl⟩
abbrev main_v459 : Ref sig .tc := ⟨.hbm, 627, rfl⟩
abbrev main_v460 : Ref sig .tc := ⟨.hbm, 628, rfl⟩
abbrev main_cst_166 : Ref sig .tc := ⟨.hbm, 629, rfl⟩
abbrev main_v461 : Ref sig .tc := ⟨.hbm, 630, rfl⟩
abbrev main_v462 : Ref sig .tc := ⟨.hbm, 631, rfl⟩
abbrev main_cst_167 : Ref sig .tc := ⟨.hbm, 632, rfl⟩
abbrev main_v463 : Ref sig .tc := ⟨.hbm, 633, rfl⟩
abbrev main_v464 : Ref sig .tc := ⟨.hbm, 634, rfl⟩
abbrev main_v465 : Ref sig .tc := ⟨.hbm, 635, rfl⟩
abbrev main_cst_168 : Ref sig .tc := ⟨.hbm, 636, rfl⟩
abbrev main_v466 : Ref sig .tc := ⟨.hbm, 637, rfl⟩
abbrev main_v467 : Ref sig .tc := ⟨.hbm, 638, rfl⟩
abbrev main_v468 : Ref sig .tc := ⟨.hbm, 639, rfl⟩
abbrev main_cst_169 : Ref sig .tc := ⟨.hbm, 640, rfl⟩
abbrev main_v469 : Ref sig .tc := ⟨.hbm, 641, rfl⟩
abbrev main_v470 : Ref sig .tc := ⟨.hbm, 642, rfl⟩
abbrev main_v471 : Ref sig .tc := ⟨.hbm, 643, rfl⟩
abbrev main_cst_170 : Ref sig .tc := ⟨.hbm, 644, rfl⟩
abbrev main_v472 : Ref sig .tc := ⟨.hbm, 645, rfl⟩
abbrev main_v473 : Ref sig .tc := ⟨.hbm, 646, rfl⟩
abbrev main_v474 : Ref sig .tc := ⟨.hbm, 647, rfl⟩
abbrev main_cst_171 : Ref sig .tc := ⟨.hbm, 648, rfl⟩
abbrev main_v475 : Ref sig .tc := ⟨.hbm, 649, rfl⟩
abbrev main_v476 : Ref sig .tc := ⟨.hbm, 650, rfl⟩
abbrev main_v477 : Ref sig .tc := ⟨.hbm, 651, rfl⟩
abbrev main_cst_172 : Ref sig .tc := ⟨.hbm, 652, rfl⟩
abbrev main_v478 : Ref sig .tc := ⟨.hbm, 653, rfl⟩
abbrev main_v479 : Ref sig .tc := ⟨.hbm, 654, rfl⟩
abbrev main_v480 : Ref sig .tc := ⟨.hbm, 655, rfl⟩
abbrev main_cst_173 : Ref sig .tc := ⟨.hbm, 656, rfl⟩
abbrev main_v481 : Ref sig .tc := ⟨.hbm, 657, rfl⟩
abbrev main_v482 : Ref sig .tc := ⟨.hbm, 658, rfl⟩
abbrev main_v483 : Ref sig .tc := ⟨.hbm, 659, rfl⟩
abbrev main_cst_174 : Ref sig .tc := ⟨.hbm, 660, rfl⟩
abbrev main_v484 : Ref sig .tc := ⟨.hbm, 661, rfl⟩
abbrev main_v485 : Ref sig .tc := ⟨.hbm, 662, rfl⟩
abbrev main_v486 : Ref sig .tc := ⟨.hbm, 663, rfl⟩
abbrev main_cst_175 : Ref sig .tc := ⟨.hbm, 664, rfl⟩
abbrev main_v487 : Ref sig .tc := ⟨.hbm, 665, rfl⟩
abbrev main_v488 : Ref sig .tc := ⟨.hbm, 666, rfl⟩
abbrev main_v489 : Ref sig .tc := ⟨.hbm, 667, rfl⟩
abbrev main_cst_176 : Ref sig .tc := ⟨.hbm, 668, rfl⟩
abbrev main_v490 : Ref sig .tc := ⟨.hbm, 669, rfl⟩
abbrev main_v491 : Ref sig .tc := ⟨.hbm, 670, rfl⟩
abbrev main_v492 : Ref sig .tc := ⟨.hbm, 671, rfl⟩
abbrev main_cst_177 : Ref sig .tc := ⟨.hbm, 672, rfl⟩
abbrev main_v493 : Ref sig .tc := ⟨.hbm, 673, rfl⟩
abbrev main_v494 : Ref sig .tc := ⟨.hbm, 674, rfl⟩
abbrev main_v495 : Ref sig .tc := ⟨.hbm, 675, rfl⟩
abbrev main_cst_178 : Ref sig .tc := ⟨.hbm, 676, rfl⟩
abbrev main_v496 : Ref sig .tc := ⟨.hbm, 677, rfl⟩
abbrev main_v497 : Ref sig .tc := ⟨.hbm, 678, rfl⟩
abbrev main_v498 : Ref sig .tc := ⟨.hbm, 679, rfl⟩
abbrev main_cst_179 : Ref sig .tc := ⟨.hbm, 680, rfl⟩
abbrev main_v499 : Ref sig .tc := ⟨.hbm, 681, rfl⟩
abbrev main_v500 : Ref sig .tc := ⟨.hbm, 682, rfl⟩
abbrev main_v501 : Ref sig .tc := ⟨.hbm, 683, rfl⟩
abbrev main_cst_180 : Ref sig .tc := ⟨.hbm, 684, rfl⟩
abbrev main_v502 : Ref sig .tc := ⟨.hbm, 685, rfl⟩
abbrev main_v503 : Ref sig .tc := ⟨.hbm, 686, rfl⟩
abbrev main_v504 : Ref sig .tc := ⟨.hbm, 687, rfl⟩
abbrev main_cst_181 : Ref sig .tc := ⟨.hbm, 688, rfl⟩
abbrev main_v505 : Ref sig .tc := ⟨.hbm, 689, rfl⟩
abbrev main_v506 : Ref sig .tc := ⟨.hbm, 690, rfl⟩
abbrev main_v507 : Ref sig .tc := ⟨.hbm, 691, rfl⟩
abbrev main_cst_182 : Ref sig .tc := ⟨.hbm, 692, rfl⟩
abbrev main_v508 : Ref sig .tc := ⟨.hbm, 693, rfl⟩
abbrev main_v509 : Ref sig .tc := ⟨.hbm, 694, rfl⟩
abbrev main_v510 : Ref sig .tc := ⟨.hbm, 695, rfl⟩
abbrev main_cst_183 : Ref sig .tc := ⟨.hbm, 696, rfl⟩
abbrev main_v511 : Ref sig .tc := ⟨.hbm, 697, rfl⟩
abbrev main_v512 : Ref sig .tc := ⟨.hbm, 698, rfl⟩
abbrev main_v513 : Ref sig .tc := ⟨.hbm, 699, rfl⟩
abbrev main_cst_184 : Ref sig .tc := ⟨.hbm, 700, rfl⟩
abbrev main_v514 : Ref sig .tc := ⟨.hbm, 701, rfl⟩
abbrev main_v515 : Ref sig .tc := ⟨.hbm, 702, rfl⟩
abbrev main_v516 : Ref sig .tc := ⟨.hbm, 703, rfl⟩
abbrev main_cst_185 : Ref sig .tc := ⟨.hbm, 704, rfl⟩
abbrev main_v517 : Ref sig .tc := ⟨.hbm, 705, rfl⟩
abbrev main_v518 : Ref sig .tc := ⟨.hbm, 706, rfl⟩
abbrev main_cst_186 : Ref sig .tc := ⟨.hbm, 707, rfl⟩
abbrev main_v519 : Ref sig .tc := ⟨.hbm, 708, rfl⟩
abbrev main_v520 : Ref sig .tc := ⟨.hbm, 709, rfl⟩
abbrev main_v521 : Ref sig .tc := ⟨.hbm, 710, rfl⟩
abbrev main_cst_187 : Ref sig .tc := ⟨.hbm, 711, rfl⟩
abbrev main_v522 : Ref sig .tc := ⟨.hbm, 712, rfl⟩
abbrev main_v523 : Ref sig .tc := ⟨.hbm, 713, rfl⟩
abbrev main_v524 : Ref sig .tc := ⟨.hbm, 714, rfl⟩
abbrev main_cst_188 : Ref sig .tc := ⟨.hbm, 715, rfl⟩
abbrev main_v525 : Ref sig .tc := ⟨.hbm, 716, rfl⟩
abbrev main_v526 : Ref sig .tc := ⟨.hbm, 717, rfl⟩
abbrev main_v527 : Ref sig .tc := ⟨.hbm, 718, rfl⟩
abbrev main_cst_189 : Ref sig .tc := ⟨.hbm, 719, rfl⟩
abbrev main_v528 : Ref sig .tc := ⟨.hbm, 720, rfl⟩
abbrev main_v529 : Ref sig .tc := ⟨.hbm, 721, rfl⟩
abbrev main_v530 : Ref sig .tc := ⟨.hbm, 722, rfl⟩
abbrev main_cst_190 : Ref sig .tc := ⟨.hbm, 723, rfl⟩
abbrev main_v531 : Ref sig .tc := ⟨.hbm, 724, rfl⟩
abbrev main_v532 : Ref sig .tc := ⟨.hbm, 725, rfl⟩
abbrev main_v533 : Ref sig .tc := ⟨.hbm, 726, rfl⟩
abbrev main_cst_191 : Ref sig .tc := ⟨.hbm, 727, rfl⟩
abbrev main_v534 : Ref sig .tc := ⟨.hbm, 728, rfl⟩
abbrev main_v535 : Ref sig .tc := ⟨.hbm, 729, rfl⟩
abbrev main_v536 : Ref sig .tc := ⟨.hbm, 730, rfl⟩
abbrev main_cst_192 : Ref sig .tc := ⟨.hbm, 731, rfl⟩
abbrev main_v537 : Ref sig .tc := ⟨.hbm, 732, rfl⟩
abbrev main_v538 : Ref sig .tc := ⟨.hbm, 733, rfl⟩
abbrev main_v539 : Ref sig .tc := ⟨.hbm, 734, rfl⟩
abbrev main_cst_193 : Ref sig .tc := ⟨.hbm, 735, rfl⟩
abbrev main_v540 : Ref sig .tc := ⟨.hbm, 736, rfl⟩
abbrev main_v541 : Ref sig .tc := ⟨.hbm, 737, rfl⟩
abbrev main_v542 : Ref sig .tc := ⟨.hbm, 738, rfl⟩
abbrev main_cst_194 : Ref sig .tc := ⟨.hbm, 739, rfl⟩
abbrev main_v543 : Ref sig .tc := ⟨.hbm, 740, rfl⟩
abbrev main_v544 : Ref sig .tc := ⟨.hbm, 741, rfl⟩
abbrev main_v545 : Ref sig .tc := ⟨.hbm, 742, rfl⟩
abbrev main_cst_195 : Ref sig .tc := ⟨.hbm, 743, rfl⟩
abbrev main_v546 : Ref sig .tc := ⟨.hbm, 744, rfl⟩
abbrev main_v547 : Ref sig .tc := ⟨.hbm, 745, rfl⟩
abbrev main_v548 : Ref sig .tc := ⟨.hbm, 746, rfl⟩
abbrev main_cst_196 : Ref sig .tc := ⟨.hbm, 747, rfl⟩
abbrev main_v549 : Ref sig .tc := ⟨.hbm, 748, rfl⟩
abbrev main_v550 : Ref sig .tc := ⟨.hbm, 749, rfl⟩
abbrev main_v551 : Ref sig .tc := ⟨.hbm, 750, rfl⟩
abbrev main_cst_197 : Ref sig .tc := ⟨.hbm, 751, rfl⟩
abbrev main_v552 : Ref sig .tc := ⟨.hbm, 752, rfl⟩
abbrev main_v553 : Ref sig .tc := ⟨.hbm, 753, rfl⟩
abbrev main_v554 : Ref sig .tc := ⟨.hbm, 754, rfl⟩
abbrev main_cst_198 : Ref sig .tc := ⟨.hbm, 755, rfl⟩
abbrev main_v555 : Ref sig .tc := ⟨.hbm, 756, rfl⟩
abbrev main_v556 : Ref sig .tc := ⟨.hbm, 757, rfl⟩
abbrev main_v557 : Ref sig .tc := ⟨.hbm, 758, rfl⟩
abbrev main_cst_199 : Ref sig .tc := ⟨.hbm, 759, rfl⟩
abbrev main_v558 : Ref sig .tc := ⟨.hbm, 760, rfl⟩
abbrev main_v559 : Ref sig .tc := ⟨.hbm, 761, rfl⟩
abbrev main_v560 : Ref sig .tc := ⟨.hbm, 762, rfl⟩
abbrev main_cst_200 : Ref sig .tc := ⟨.hbm, 763, rfl⟩
abbrev main_v561 : Ref sig .tc := ⟨.hbm, 764, rfl⟩
abbrev main_v562 : Ref sig .tc := ⟨.hbm, 765, rfl⟩
abbrev main_v563 : Ref sig .tc := ⟨.hbm, 766, rfl⟩
abbrev main_cst_201 : Ref sig .tc := ⟨.hbm, 767, rfl⟩
abbrev main_v564 : Ref sig .tc := ⟨.hbm, 768, rfl⟩
abbrev main_v565 : Ref sig .tc := ⟨.hbm, 769, rfl⟩
abbrev main_v566 : Ref sig .tc := ⟨.hbm, 770, rfl⟩
abbrev main_cst_202 : Ref sig .tc := ⟨.hbm, 771, rfl⟩
abbrev main_v567 : Ref sig .tc := ⟨.hbm, 772, rfl⟩
abbrev main_v568 : Ref sig .tc := ⟨.hbm, 773, rfl⟩
abbrev main_v569 : Ref sig .tc := ⟨.hbm, 774, rfl⟩
abbrev main_cst_203 : Ref sig .tc := ⟨.hbm, 775, rfl⟩
abbrev main_v570 : Ref sig .tc := ⟨.hbm, 776, rfl⟩
abbrev main_v571 : Ref sig .tc := ⟨.hbm, 777, rfl⟩
abbrev main_v572 : Ref sig .tc := ⟨.hbm, 778, rfl⟩
abbrev main_cst_204 : Ref sig .tc := ⟨.hbm, 779, rfl⟩
abbrev main_v573 : Ref sig .tc := ⟨.hbm, 780, rfl⟩
abbrev main_v574 : Ref sig .tc := ⟨.hbm, 781, rfl⟩
abbrev main_v575 : Ref sig .tc := ⟨.hbm, 782, rfl⟩
abbrev main_cst_205 : Ref sig .tc := ⟨.hbm, 783, rfl⟩
abbrev main_v576 : Ref sig .tc := ⟨.hbm, 784, rfl⟩
abbrev main_v577 : Ref sig .tc := ⟨.hbm, 785, rfl⟩
abbrev main_v578 : Ref sig .tc := ⟨.hbm, 786, rfl⟩
abbrev main_cst_206 : Ref sig .tc := ⟨.hbm, 787, rfl⟩
abbrev main_v579 : Ref sig .tc := ⟨.hbm, 788, rfl⟩
abbrev main_v580 : Ref sig .tc := ⟨.hbm, 789, rfl⟩
abbrev main_v581 : Ref sig .tc := ⟨.hbm, 790, rfl⟩
abbrev main_cst_207 : Ref sig .tc := ⟨.hbm, 791, rfl⟩
abbrev main_v582 : Ref sig .tc := ⟨.hbm, 792, rfl⟩
abbrev main_v583 : Ref sig .tc := ⟨.hbm, 793, rfl⟩
abbrev main_v584 : Ref sig .tc := ⟨.hbm, 794, rfl⟩
abbrev main_cst_208 : Ref sig .tc := ⟨.hbm, 795, rfl⟩
abbrev main_v585 : Ref sig .tc := ⟨.hbm, 796, rfl⟩
abbrev main_v586 : Ref sig .tc := ⟨.hbm, 797, rfl⟩
abbrev main_cst_209 : Ref sig .tc := ⟨.hbm, 798, rfl⟩
abbrev main_v587 : Ref sig .tc := ⟨.hbm, 799, rfl⟩
abbrev main_v588 : Ref sig .tc := ⟨.hbm, 800, rfl⟩
abbrev main_v589 : Ref sig .tc := ⟨.hbm, 801, rfl⟩
abbrev main_cst_210 : Ref sig .tc := ⟨.hbm, 802, rfl⟩
abbrev main_v590 : Ref sig .tc := ⟨.hbm, 803, rfl⟩
abbrev main_v591 : Ref sig .tc := ⟨.hbm, 804, rfl⟩
abbrev main_v592 : Ref sig .tc := ⟨.hbm, 805, rfl⟩
abbrev main_cst_211 : Ref sig .tc := ⟨.hbm, 806, rfl⟩
abbrev main_v593 : Ref sig .tc := ⟨.hbm, 807, rfl⟩
abbrev main_v594 : Ref sig .tc := ⟨.hbm, 808, rfl⟩
abbrev main_v595 : Ref sig .tc := ⟨.hbm, 809, rfl⟩
abbrev main_cst_212 : Ref sig .tc := ⟨.hbm, 810, rfl⟩
abbrev main_v596 : Ref sig .tc := ⟨.hbm, 811, rfl⟩
abbrev main_v597 : Ref sig .tc := ⟨.hbm, 812, rfl⟩
abbrev main_v598 : Ref sig .tc := ⟨.hbm, 813, rfl⟩
abbrev main_cst_213 : Ref sig .tc := ⟨.hbm, 814, rfl⟩
abbrev main_v599 : Ref sig .tc := ⟨.hbm, 815, rfl⟩
abbrev main_v600 : Ref sig .tc := ⟨.hbm, 816, rfl⟩
abbrev main_v601 : Ref sig .tc := ⟨.hbm, 817, rfl⟩
abbrev main_cst_214 : Ref sig .tc := ⟨.hbm, 818, rfl⟩
abbrev main_v602 : Ref sig .tc := ⟨.hbm, 819, rfl⟩
abbrev main_v603 : Ref sig .tc := ⟨.hbm, 820, rfl⟩
abbrev main_v604 : Ref sig .tc := ⟨.hbm, 821, rfl⟩
abbrev main_cst_215 : Ref sig .tc := ⟨.hbm, 822, rfl⟩
abbrev main_v605 : Ref sig .tc := ⟨.hbm, 823, rfl⟩
abbrev main_v606 : Ref sig .tc := ⟨.hbm, 824, rfl⟩
abbrev main_v607 : Ref sig .tc := ⟨.hbm, 825, rfl⟩
abbrev main_cst_216 : Ref sig .tc := ⟨.hbm, 826, rfl⟩
abbrev main_v608 : Ref sig .tc := ⟨.hbm, 827, rfl⟩
abbrev main_v609 : Ref sig .tc := ⟨.hbm, 828, rfl⟩
abbrev main_v610 : Ref sig .tc := ⟨.hbm, 829, rfl⟩
abbrev main_cst_217 : Ref sig .tc := ⟨.hbm, 830, rfl⟩
abbrev main_v611 : Ref sig .tc := ⟨.hbm, 831, rfl⟩
abbrev main_v612 : Ref sig .tc := ⟨.hbm, 832, rfl⟩
abbrev main_v613 : Ref sig .tc := ⟨.hbm, 833, rfl⟩
abbrev main_cst_218 : Ref sig .tc := ⟨.hbm, 834, rfl⟩
abbrev main_v614 : Ref sig .tc := ⟨.hbm, 835, rfl⟩
abbrev main_v615 : Ref sig .tc := ⟨.hbm, 836, rfl⟩
abbrev main_v616 : Ref sig .tc := ⟨.hbm, 837, rfl⟩
abbrev main_cst_219 : Ref sig .tc := ⟨.hbm, 838, rfl⟩
abbrev main_v617 : Ref sig .tc := ⟨.hbm, 839, rfl⟩
abbrev main_v618 : Ref sig .tc := ⟨.hbm, 840, rfl⟩
abbrev main_v619 : Ref sig .tc := ⟨.hbm, 841, rfl⟩
abbrev main_cst_220 : Ref sig .tc := ⟨.hbm, 842, rfl⟩
abbrev main_v620 : Ref sig .tc := ⟨.hbm, 843, rfl⟩
abbrev main_v621 : Ref sig .tc := ⟨.hbm, 844, rfl⟩
abbrev main_v622 : Ref sig .tc := ⟨.hbm, 845, rfl⟩
abbrev main_cst_221 : Ref sig .tc := ⟨.hbm, 846, rfl⟩
abbrev main_v623 : Ref sig .tc := ⟨.hbm, 847, rfl⟩
abbrev main_v624 : Ref sig .tc := ⟨.hbm, 848, rfl⟩
abbrev main_v625 : Ref sig .tc := ⟨.hbm, 849, rfl⟩
abbrev main_cst_222 : Ref sig .tc := ⟨.hbm, 850, rfl⟩
abbrev main_v626 : Ref sig .tc := ⟨.hbm, 851, rfl⟩
abbrev main_v627 : Ref sig .tc := ⟨.hbm, 852, rfl⟩
abbrev main_v628 : Ref sig .tc := ⟨.hbm, 853, rfl⟩
abbrev main_cst_223 : Ref sig .tc := ⟨.hbm, 854, rfl⟩
abbrev main_v629 : Ref sig .tc := ⟨.hbm, 855, rfl⟩
abbrev main_v630 : Ref sig .tc := ⟨.hbm, 856, rfl⟩
abbrev main_v631 : Ref sig .tc := ⟨.hbm, 857, rfl⟩
abbrev main_cst_224 : Ref sig .tc := ⟨.hbm, 858, rfl⟩
abbrev main_v632 : Ref sig .tc := ⟨.hbm, 859, rfl⟩
abbrev main_v633 : Ref sig .tc := ⟨.hbm, 860, rfl⟩
abbrev main_v634 : Ref sig .tc := ⟨.hbm, 861, rfl⟩
abbrev main_cst_225 : Ref sig .tc := ⟨.hbm, 862, rfl⟩
abbrev main_v635 : Ref sig .tc := ⟨.hbm, 863, rfl⟩
abbrev main_v636 : Ref sig .tc := ⟨.hbm, 864, rfl⟩
abbrev main_v637 : Ref sig .tc := ⟨.hbm, 865, rfl⟩
abbrev main_cst_226 : Ref sig .tc := ⟨.hbm, 866, rfl⟩
abbrev main_v638 : Ref sig .tc := ⟨.hbm, 867, rfl⟩
abbrev main_v639 : Ref sig .tc := ⟨.hbm, 868, rfl⟩
abbrev main_v640 : Ref sig .tc := ⟨.hbm, 869, rfl⟩
abbrev main_cst_227 : Ref sig .tc := ⟨.hbm, 870, rfl⟩
abbrev main_v641 : Ref sig .tc := ⟨.hbm, 871, rfl⟩
abbrev main_v642 : Ref sig .tc := ⟨.hbm, 872, rfl⟩
abbrev main_v643 : Ref sig .tc := ⟨.hbm, 873, rfl⟩
abbrev main_cst_228 : Ref sig .tc := ⟨.hbm, 874, rfl⟩
abbrev main_v644 : Ref sig .tc := ⟨.hbm, 875, rfl⟩
abbrev main_v645 : Ref sig .tc := ⟨.hbm, 876, rfl⟩
abbrev main_v646 : Ref sig .tc := ⟨.hbm, 877, rfl⟩
abbrev main_cst_229 : Ref sig .tc := ⟨.hbm, 878, rfl⟩
abbrev main_v647 : Ref sig .tc := ⟨.hbm, 879, rfl⟩
abbrev main_v648 : Ref sig .tc := ⟨.hbm, 880, rfl⟩
abbrev main_v649 : Ref sig .tc := ⟨.hbm, 881, rfl⟩
abbrev main_cst_230 : Ref sig .tc := ⟨.hbm, 882, rfl⟩
abbrev main_v650 : Ref sig .tc := ⟨.hbm, 883, rfl⟩
abbrev main_v651 : Ref sig .tc := ⟨.hbm, 884, rfl⟩
abbrev main_v652 : Ref sig .tc := ⟨.hbm, 885, rfl⟩
abbrev main_cst_231 : Ref sig .tc := ⟨.hbm, 886, rfl⟩
abbrev main_v653 : Ref sig .tc := ⟨.hbm, 887, rfl⟩
abbrev main_v654 : Ref sig .tc := ⟨.hbm, 888, rfl⟩
abbrev main_v655 : Ref sig .tc := ⟨.hbm, 889, rfl⟩
abbrev main_cst_232 : Ref sig .tc := ⟨.hbm, 890, rfl⟩
abbrev main_v656 : Ref sig .tc := ⟨.hbm, 891, rfl⟩
abbrev main_v657 : Ref sig .tc := ⟨.hbm, 892, rfl⟩
abbrev main_v658 : Ref sig .tc := ⟨.hbm, 893, rfl⟩
abbrev main_cst_233 : Ref sig .tc := ⟨.hbm, 894, rfl⟩
abbrev main_v659 : Ref sig .tc := ⟨.hbm, 895, rfl⟩
abbrev main_v660 : Ref sig .tc := ⟨.hbm, 896, rfl⟩
abbrev main_v661 : Ref sig .tc := ⟨.hbm, 897, rfl⟩
abbrev main_cst_234 : Ref sig .tc := ⟨.hbm, 898, rfl⟩
abbrev main_v662 : Ref sig .tc := ⟨.hbm, 899, rfl⟩
abbrev main_v663 : Ref sig .tc := ⟨.hbm, 900, rfl⟩
abbrev main_v664 : Ref sig .tc := ⟨.hbm, 901, rfl⟩
abbrev main_cst_235 : Ref sig .tc := ⟨.hbm, 902, rfl⟩
abbrev main_v665 : Ref sig .tc := ⟨.hbm, 903, rfl⟩
abbrev main_v666 : Ref sig .tc := ⟨.hbm, 904, rfl⟩
abbrev main_cst_236 : Ref sig .tc := ⟨.hbm, 905, rfl⟩
abbrev main_v667 : Ref sig .tc := ⟨.hbm, 906, rfl⟩
abbrev main_v668 : Ref sig .tc := ⟨.hbm, 907, rfl⟩
abbrev main_v669 : Ref sig .tc := ⟨.hbm, 908, rfl⟩
abbrev main_cst_237 : Ref sig .tc := ⟨.hbm, 909, rfl⟩
abbrev main_v670 : Ref sig .tc := ⟨.hbm, 910, rfl⟩
abbrev main_v671 : Ref sig .tc := ⟨.hbm, 911, rfl⟩
abbrev main_v672 : Ref sig .tc := ⟨.hbm, 912, rfl⟩
abbrev main_cst_238 : Ref sig .tc := ⟨.hbm, 913, rfl⟩
abbrev main_v673 : Ref sig .tc := ⟨.hbm, 914, rfl⟩
abbrev main_v674 : Ref sig .tc := ⟨.hbm, 915, rfl⟩
abbrev main_v675 : Ref sig .tc := ⟨.hbm, 916, rfl⟩
abbrev main_cst_239 : Ref sig .tc := ⟨.hbm, 917, rfl⟩
abbrev main_v676 : Ref sig .tc := ⟨.hbm, 918, rfl⟩
abbrev main_v677 : Ref sig .tc := ⟨.hbm, 919, rfl⟩
abbrev main_v678 : Ref sig .tc := ⟨.hbm, 920, rfl⟩
abbrev main_cst_240 : Ref sig .tc := ⟨.hbm, 921, rfl⟩
abbrev main_v679 : Ref sig .tc := ⟨.hbm, 922, rfl⟩
abbrev main_v680 : Ref sig .tc := ⟨.hbm, 923, rfl⟩
abbrev main_v681 : Ref sig .tc := ⟨.hbm, 924, rfl⟩
abbrev main_cst_241 : Ref sig .tc := ⟨.hbm, 925, rfl⟩
abbrev main_v682 : Ref sig .tc := ⟨.hbm, 926, rfl⟩
abbrev main_v683 : Ref sig .tc := ⟨.hbm, 927, rfl⟩
abbrev main_v684 : Ref sig .tc := ⟨.hbm, 928, rfl⟩
abbrev main_cst_242 : Ref sig .tc := ⟨.hbm, 929, rfl⟩
abbrev main_v685 : Ref sig .tc := ⟨.hbm, 930, rfl⟩
abbrev main_v686 : Ref sig .tc := ⟨.hbm, 931, rfl⟩
abbrev main_v687 : Ref sig .tc := ⟨.hbm, 932, rfl⟩
abbrev main_cst_243 : Ref sig .tc := ⟨.hbm, 933, rfl⟩
abbrev main_v688 : Ref sig .tc := ⟨.hbm, 934, rfl⟩
abbrev main_v689 : Ref sig .tc := ⟨.hbm, 935, rfl⟩
abbrev main_v690 : Ref sig .tc := ⟨.hbm, 936, rfl⟩
abbrev main_cst_244 : Ref sig .tc := ⟨.hbm, 937, rfl⟩
abbrev main_v691 : Ref sig .tc := ⟨.hbm, 938, rfl⟩
abbrev main_v692 : Ref sig .tc := ⟨.hbm, 939, rfl⟩
abbrev main_v693 : Ref sig .tc := ⟨.hbm, 940, rfl⟩
abbrev main_cst_245 : Ref sig .tc := ⟨.hbm, 941, rfl⟩
abbrev main_v694 : Ref sig .tc := ⟨.hbm, 942, rfl⟩
abbrev main_v695 : Ref sig .tc := ⟨.hbm, 943, rfl⟩
abbrev main_v696 : Ref sig .tc := ⟨.hbm, 944, rfl⟩
abbrev main_cst_246 : Ref sig .tc := ⟨.hbm, 945, rfl⟩
abbrev main_v697 : Ref sig .tc := ⟨.hbm, 946, rfl⟩
abbrev main_v698 : Ref sig .tc := ⟨.hbm, 947, rfl⟩
abbrev main_v699 : Ref sig .tc := ⟨.hbm, 948, rfl⟩
abbrev main_cst_247 : Ref sig .tc := ⟨.hbm, 949, rfl⟩
abbrev main_v700 : Ref sig .tc := ⟨.hbm, 950, rfl⟩
abbrev main_v701 : Ref sig .tc := ⟨.hbm, 951, rfl⟩
abbrev main_v702 : Ref sig .tc := ⟨.hbm, 952, rfl⟩
abbrev main_cst_248 : Ref sig .tc := ⟨.hbm, 953, rfl⟩
abbrev main_v703 : Ref sig .tc := ⟨.hbm, 954, rfl⟩
abbrev main_v704 : Ref sig .tc := ⟨.hbm, 955, rfl⟩
abbrev main_v705 : Ref sig .tc := ⟨.hbm, 956, rfl⟩
abbrev main_cst_249 : Ref sig .tc := ⟨.hbm, 957, rfl⟩
abbrev main_v706 : Ref sig .tc := ⟨.hbm, 958, rfl⟩
abbrev main_v707 : Ref sig .tc := ⟨.hbm, 959, rfl⟩
abbrev main_v708 : Ref sig .tc := ⟨.hbm, 960, rfl⟩
abbrev main_cst_250 : Ref sig .tc := ⟨.hbm, 961, rfl⟩
abbrev main_v709 : Ref sig .tc := ⟨.hbm, 962, rfl⟩
abbrev main_v710 : Ref sig .tc := ⟨.hbm, 963, rfl⟩
abbrev main_v711 : Ref sig .tc := ⟨.hbm, 964, rfl⟩
abbrev main_cst_251 : Ref sig .tc := ⟨.hbm, 965, rfl⟩
abbrev main_v712 : Ref sig .tc := ⟨.hbm, 966, rfl⟩
abbrev main_v713 : Ref sig .tc := ⟨.hbm, 967, rfl⟩
abbrev main_v714 : Ref sig .tc := ⟨.hbm, 968, rfl⟩
abbrev main_cst_252 : Ref sig .tc := ⟨.hbm, 969, rfl⟩
abbrev main_v715 : Ref sig .tc := ⟨.hbm, 970, rfl⟩
abbrev main_v716 : Ref sig .tc := ⟨.hbm, 971, rfl⟩
abbrev main_v717 : Ref sig .tc := ⟨.hbm, 972, rfl⟩
abbrev main_cst_253 : Ref sig .tc := ⟨.hbm, 973, rfl⟩
abbrev main_v718 : Ref sig .tc := ⟨.hbm, 974, rfl⟩
abbrev main_v719 : Ref sig .tc := ⟨.hbm, 975, rfl⟩
abbrev main_v720 : Ref sig .tc := ⟨.hbm, 976, rfl⟩
abbrev main_cst_254 : Ref sig .tc := ⟨.hbm, 977, rfl⟩
abbrev main_v721 : Ref sig .tc := ⟨.hbm, 978, rfl⟩
abbrev main_v722 : Ref sig .tc := ⟨.hbm, 979, rfl⟩
abbrev main_v723 : Ref sig .tc := ⟨.hbm, 980, rfl⟩
abbrev main_cst_255 : Ref sig .tc := ⟨.hbm, 981, rfl⟩
abbrev main_v724 : Ref sig .tc := ⟨.hbm, 982, rfl⟩
abbrev main_v725 : Ref sig .tc := ⟨.hbm, 983, rfl⟩
abbrev main_v726 : Ref sig .tc := ⟨.hbm, 984, rfl⟩
abbrev main_cst_256 : Ref sig .tc := ⟨.hbm, 985, rfl⟩
abbrev main_v727 : Ref sig .tc := ⟨.hbm, 986, rfl⟩
abbrev main_v728 : Ref sig .tc := ⟨.hbm, 987, rfl⟩
abbrev main_v729 : Ref sig .tc := ⟨.hbm, 988, rfl⟩
abbrev main_cst_257 : Ref sig .tc := ⟨.hbm, 989, rfl⟩
abbrev main_v730 : Ref sig .tc := ⟨.hbm, 990, rfl⟩
abbrev main_v731 : Ref sig .tc := ⟨.hbm, 991, rfl⟩
abbrev main_v732 : Ref sig .tc := ⟨.hbm, 992, rfl⟩
abbrev main_cst_258 : Ref sig .tc := ⟨.hbm, 993, rfl⟩
abbrev main_v733 : Ref sig .tc := ⟨.hbm, 994, rfl⟩
abbrev main_v734 : Ref sig .tc := ⟨.hbm, 995, rfl⟩
abbrev main_v735 : Ref sig .tc := ⟨.hbm, 996, rfl⟩
abbrev main_cst_259 : Ref sig .tc := ⟨.hbm, 997, rfl⟩
abbrev main_v736 : Ref sig .tc := ⟨.hbm, 998, rfl⟩
abbrev main_v737 : Ref sig .tc := ⟨.hbm, 999, rfl⟩
abbrev main_v738 : Ref sig .tc := ⟨.hbm, 1000, rfl⟩
abbrev main_cst_260 : Ref sig .tc := ⟨.hbm, 1001, rfl⟩
abbrev main_v739 : Ref sig .tc := ⟨.hbm, 1002, rfl⟩
abbrev main_v740 : Ref sig .tc := ⟨.hbm, 1003, rfl⟩
abbrev main_v741 : Ref sig .tc := ⟨.hbm, 1004, rfl⟩
abbrev main_cst_261 : Ref sig .tc := ⟨.hbm, 1005, rfl⟩
abbrev main_v742 : Ref sig .tc := ⟨.hbm, 1006, rfl⟩
abbrev main_v743 : Ref sig .tc := ⟨.hbm, 1007, rfl⟩
abbrev main_v744 : Ref sig .tc := ⟨.hbm, 1008, rfl⟩
abbrev main_cst_262 : Ref sig .tc := ⟨.hbm, 1009, rfl⟩
abbrev main_v745 : Ref sig .tc := ⟨.hbm, 1010, rfl⟩
abbrev main_v746 : Ref sig .tc := ⟨.hbm, 1011, rfl⟩
abbrev main_v747 : Ref sig .tc := ⟨.hbm, 1012, rfl⟩
abbrev main_cst_263 : Ref sig .tc := ⟨.hbm, 1013, rfl⟩
abbrev main_v748 : Ref sig .tc := ⟨.hbm, 1014, rfl⟩
abbrev main_v749 : Ref sig .tc := ⟨.hbm, 1015, rfl⟩
abbrev main_v750 : Ref sig .tc := ⟨.hbm, 1016, rfl⟩
abbrev main_cst_264 : Ref sig .tc := ⟨.hbm, 1017, rfl⟩
abbrev main_v751 : Ref sig .tc := ⟨.hbm, 1018, rfl⟩
abbrev main_v752 : Ref sig .tc := ⟨.hbm, 1019, rfl⟩
abbrev main_v753 : Ref sig .tc := ⟨.hbm, 1020, rfl⟩
abbrev main_cst_265 : Ref sig .tc := ⟨.hbm, 1021, rfl⟩
abbrev main_v754 : Ref sig .tc := ⟨.hbm, 1022, rfl⟩
abbrev main_v755 : Ref sig .tc := ⟨.hbm, 1023, rfl⟩
abbrev main_v756 : Ref sig .tc := ⟨.hbm, 1024, rfl⟩
abbrev main_cst_266 : Ref sig .tc := ⟨.hbm, 1025, rfl⟩
abbrev main_v757 : Ref sig .tc := ⟨.hbm, 1026, rfl⟩
abbrev main_v758 : Ref sig .tc := ⟨.hbm, 1027, rfl⟩
abbrev main_cst_267 : Ref sig .tc := ⟨.hbm, 1028, rfl⟩
abbrev main_v759 : Ref sig .tc := ⟨.hbm, 1029, rfl⟩
abbrev main_v760 : Ref sig .tc := ⟨.hbm, 1030, rfl⟩
abbrev main_v761 : Ref sig .tc := ⟨.hbm, 1031, rfl⟩
abbrev main_cst_268 : Ref sig .tc := ⟨.hbm, 1032, rfl⟩
abbrev main_v762 : Ref sig .tc := ⟨.hbm, 1033, rfl⟩
abbrev main_v763 : Ref sig .tc := ⟨.hbm, 1034, rfl⟩
abbrev main_v764 : Ref sig .tc := ⟨.hbm, 1035, rfl⟩
abbrev main_cst_269 : Ref sig .tc := ⟨.hbm, 1036, rfl⟩
abbrev main_v765 : Ref sig .tc := ⟨.hbm, 1037, rfl⟩
abbrev main_v766 : Ref sig .tc := ⟨.hbm, 1038, rfl⟩
abbrev main_v767 : Ref sig .tc := ⟨.hbm, 1039, rfl⟩
abbrev main_cst_270 : Ref sig .tc := ⟨.hbm, 1040, rfl⟩
abbrev main_v768 : Ref sig .tc := ⟨.hbm, 1041, rfl⟩
abbrev main_v769 : Ref sig .tc := ⟨.hbm, 1042, rfl⟩
abbrev main_v770 : Ref sig .tc := ⟨.hbm, 1043, rfl⟩
abbrev main_cst_271 : Ref sig .tc := ⟨.hbm, 1044, rfl⟩
abbrev main_v771 : Ref sig .tc := ⟨.hbm, 1045, rfl⟩
abbrev main_v772 : Ref sig .tc := ⟨.hbm, 1046, rfl⟩
abbrev main_v773 : Ref sig .tc := ⟨.hbm, 1047, rfl⟩
abbrev main_cst_272 : Ref sig .tc := ⟨.hbm, 1048, rfl⟩
abbrev main_v774 : Ref sig .tc := ⟨.hbm, 1049, rfl⟩
abbrev main_v775 : Ref sig .tc := ⟨.hbm, 1050, rfl⟩
abbrev main_v776 : Ref sig .tc := ⟨.hbm, 1051, rfl⟩
abbrev main_cst_273 : Ref sig .tc := ⟨.hbm, 1052, rfl⟩
abbrev main_v777 : Ref sig .tc := ⟨.hbm, 1053, rfl⟩
abbrev main_v778 : Ref sig .tc := ⟨.hbm, 1054, rfl⟩
abbrev main_v779 : Ref sig .tc := ⟨.hbm, 1055, rfl⟩
abbrev main_cst_274 : Ref sig .tc := ⟨.hbm, 1056, rfl⟩
abbrev main_v780 : Ref sig .tc := ⟨.hbm, 1057, rfl⟩
abbrev main_v781 : Ref sig .tc := ⟨.hbm, 1058, rfl⟩
abbrev main_v782 : Ref sig .tc := ⟨.hbm, 1059, rfl⟩
abbrev main_cst_275 : Ref sig .tc := ⟨.hbm, 1060, rfl⟩
abbrev main_v783 : Ref sig .tc := ⟨.hbm, 1061, rfl⟩
abbrev main_v784 : Ref sig .tc := ⟨.hbm, 1062, rfl⟩
abbrev main_v785 : Ref sig .tc := ⟨.hbm, 1063, rfl⟩
abbrev main_cst_276 : Ref sig .tc := ⟨.hbm, 1064, rfl⟩
abbrev main_v786 : Ref sig .tc := ⟨.hbm, 1065, rfl⟩
abbrev main_v787 : Ref sig .tc := ⟨.hbm, 1066, rfl⟩
abbrev main_v788 : Ref sig .tc := ⟨.hbm, 1067, rfl⟩
abbrev main_cst_277 : Ref sig .tc := ⟨.hbm, 1068, rfl⟩
abbrev main_v789 : Ref sig .tc := ⟨.hbm, 1069, rfl⟩
abbrev main_v790 : Ref sig .tc := ⟨.hbm, 1070, rfl⟩
abbrev main_v791 : Ref sig .tc := ⟨.hbm, 1071, rfl⟩
abbrev main_cst_278 : Ref sig .tc := ⟨.hbm, 1072, rfl⟩
abbrev main_v792 : Ref sig .tc := ⟨.hbm, 1073, rfl⟩
abbrev main_v793 : Ref sig .tc := ⟨.hbm, 1074, rfl⟩
abbrev main_v794 : Ref sig .tc := ⟨.hbm, 1075, rfl⟩
abbrev main_cst_279 : Ref sig .tc := ⟨.hbm, 1076, rfl⟩
abbrev main_v795 : Ref sig .tc := ⟨.hbm, 1077, rfl⟩
abbrev main_v796 : Ref sig .tc := ⟨.hbm, 1078, rfl⟩
abbrev main_v797 : Ref sig .tc := ⟨.hbm, 1079, rfl⟩
abbrev main_cst_280 : Ref sig .tc := ⟨.hbm, 1080, rfl⟩
abbrev main_v798 : Ref sig .tc := ⟨.hbm, 1081, rfl⟩
abbrev main_v799 : Ref sig .tc := ⟨.hbm, 1082, rfl⟩
abbrev main_v800 : Ref sig .tc := ⟨.hbm, 1083, rfl⟩
abbrev main_cst_281 : Ref sig .tc := ⟨.hbm, 1084, rfl⟩
abbrev main_v801 : Ref sig .tc := ⟨.hbm, 1085, rfl⟩
abbrev main_v802 : Ref sig .tc := ⟨.hbm, 1086, rfl⟩
abbrev main_v803 : Ref sig .tc := ⟨.hbm, 1087, rfl⟩
abbrev main_cst_282 : Ref sig .tc := ⟨.hbm, 1088, rfl⟩
abbrev main_v804 : Ref sig .tc := ⟨.hbm, 1089, rfl⟩
abbrev main_v805 : Ref sig .tc := ⟨.hbm, 1090, rfl⟩
abbrev main_v806 : Ref sig .tc := ⟨.hbm, 1091, rfl⟩
abbrev main_cst_283 : Ref sig .tc := ⟨.hbm, 1092, rfl⟩
abbrev main_v807 : Ref sig .tc := ⟨.hbm, 1093, rfl⟩
abbrev main_v808 : Ref sig .tc := ⟨.hbm, 1094, rfl⟩
abbrev main_v809 : Ref sig .tc := ⟨.hbm, 1095, rfl⟩
abbrev main_cst_284 : Ref sig .tc := ⟨.hbm, 1096, rfl⟩
abbrev main_v810 : Ref sig .tc := ⟨.hbm, 1097, rfl⟩
abbrev main_v811 : Ref sig .tc := ⟨.hbm, 1098, rfl⟩
abbrev main_v812 : Ref sig .tc := ⟨.hbm, 1099, rfl⟩
abbrev main_cst_285 : Ref sig .tc := ⟨.hbm, 1100, rfl⟩
abbrev main_v813 : Ref sig .tc := ⟨.hbm, 1101, rfl⟩
abbrev main_v814 : Ref sig .tc := ⟨.hbm, 1102, rfl⟩
abbrev main_v815 : Ref sig .tc := ⟨.hbm, 1103, rfl⟩
abbrev main_cst_286 : Ref sig .tc := ⟨.hbm, 1104, rfl⟩
abbrev main_v816 : Ref sig .tc := ⟨.hbm, 1105, rfl⟩
abbrev main_v817 : Ref sig .tc := ⟨.hbm, 1106, rfl⟩
abbrev main_v818 : Ref sig .tc := ⟨.hbm, 1107, rfl⟩
abbrev main_cst_287 : Ref sig .tc := ⟨.hbm, 1108, rfl⟩
abbrev main_v819 : Ref sig .tc := ⟨.hbm, 1109, rfl⟩
abbrev main_v820 : Ref sig .tc := ⟨.hbm, 1110, rfl⟩
abbrev main_v821 : Ref sig .tc := ⟨.hbm, 1111, rfl⟩
abbrev main_cst_288 : Ref sig .tc := ⟨.hbm, 1112, rfl⟩
abbrev main_v822 : Ref sig .tc := ⟨.hbm, 1113, rfl⟩
abbrev main_v823 : Ref sig .tc := ⟨.hbm, 1114, rfl⟩
abbrev main_v824 : Ref sig .tc := ⟨.hbm, 1115, rfl⟩
abbrev main_cst_289 : Ref sig .tc := ⟨.hbm, 1116, rfl⟩
abbrev main_v825 : Ref sig .tc := ⟨.hbm, 1117, rfl⟩
abbrev main_v826 : Ref sig .tc := ⟨.hbm, 1118, rfl⟩
abbrev main_v827 : Ref sig .tc := ⟨.hbm, 1119, rfl⟩
abbrev main_cst_290 : Ref sig .tc := ⟨.hbm, 1120, rfl⟩
abbrev main_v828 : Ref sig .tc := ⟨.hbm, 1121, rfl⟩
abbrev main_v829 : Ref sig .tc := ⟨.hbm, 1122, rfl⟩
abbrev main_v830 : Ref sig .tc := ⟨.hbm, 1123, rfl⟩
abbrev main_cst_291 : Ref sig .tc := ⟨.hbm, 1124, rfl⟩
abbrev main_v831 : Ref sig .tc := ⟨.hbm, 1125, rfl⟩
abbrev main_v832 : Ref sig .tc := ⟨.hbm, 1126, rfl⟩
abbrev main_v833 : Ref sig .tc := ⟨.hbm, 1127, rfl⟩
abbrev main_cst_292 : Ref sig .tc := ⟨.hbm, 1128, rfl⟩
abbrev main_v834 : Ref sig .tc := ⟨.hbm, 1129, rfl⟩
abbrev main_v835 : Ref sig .tc := ⟨.hbm, 1130, rfl⟩
abbrev main_v836 : Ref sig .tc := ⟨.hbm, 1131, rfl⟩
abbrev main_cst_293 : Ref sig .tc := ⟨.hbm, 1132, rfl⟩
abbrev main_v837 : Ref sig .tc := ⟨.hbm, 1133, rfl⟩
abbrev main_v838 : Ref sig .tc := ⟨.hbm, 1134, rfl⟩
abbrev main_v839 : Ref sig .tc := ⟨.hbm, 1135, rfl⟩
abbrev main_cst_294 : Ref sig .tc := ⟨.hbm, 1136, rfl⟩
abbrev main_v840 : Ref sig .tc := ⟨.hbm, 1137, rfl⟩
abbrev main_v841 : Ref sig .tc := ⟨.hbm, 1138, rfl⟩
abbrev main_v842 : Ref sig .tc := ⟨.hbm, 1139, rfl⟩
abbrev main_cst_295 : Ref sig .tc := ⟨.hbm, 1140, rfl⟩
abbrev main_v843 : Ref sig .tc := ⟨.hbm, 1141, rfl⟩
abbrev main_v844 : Ref sig .tc := ⟨.hbm, 1142, rfl⟩
abbrev main_v845 : Ref sig .tc := ⟨.hbm, 1143, rfl⟩
abbrev main_cst_296 : Ref sig .tc := ⟨.hbm, 1144, rfl⟩
abbrev main_v846 : Ref sig .tc := ⟨.hbm, 1145, rfl⟩
abbrev main_v847 : Ref sig .tc := ⟨.hbm, 1146, rfl⟩
abbrev main_v848 : Ref sig .tc := ⟨.hbm, 1147, rfl⟩
abbrev main_cst_297 : Ref sig .tc := ⟨.hbm, 1148, rfl⟩
abbrev main_v849 : Ref sig .tc := ⟨.hbm, 1149, rfl⟩
abbrev main_v850 : Ref sig .tc := ⟨.hbm, 1150, rfl⟩
abbrev main_v851 : Ref sig .tc := ⟨.hbm, 1151, rfl⟩
abbrev main_cst_298 : Ref sig .tc := ⟨.hbm, 1152, rfl⟩
abbrev main_v852 : Ref sig .tc := ⟨.hbm, 1153, rfl⟩
abbrev main_v853 : Ref sig .tc := ⟨.hbm, 1154, rfl⟩
abbrev main_v854 : Ref sig .tc := ⟨.hbm, 1155, rfl⟩
abbrev main_cst_299 : Ref sig .tc := ⟨.hbm, 1156, rfl⟩
abbrev main_v855 : Ref sig .tc := ⟨.hbm, 1157, rfl⟩
abbrev main_v856 : Ref sig .tc := ⟨.hbm, 1158, rfl⟩
abbrev main_v857 : Ref sig .tc := ⟨.hbm, 1159, rfl⟩
abbrev main_cst_300 : Ref sig .tc := ⟨.hbm, 1160, rfl⟩
abbrev main_v858 : Ref sig .tc := ⟨.hbm, 1161, rfl⟩
abbrev main_v859 : Ref sig .tc := ⟨.hbm, 1162, rfl⟩
abbrev main_v860 : Ref sig .tc := ⟨.hbm, 1163, rfl⟩
abbrev main_cst_301 : Ref sig .tc := ⟨.hbm, 1164, rfl⟩
abbrev main_v861 : Ref sig .tc := ⟨.hbm, 1165, rfl⟩
abbrev main_v862 : Ref sig .tc := ⟨.hbm, 1166, rfl⟩
abbrev main_cst_302 : Ref sig .tc := ⟨.hbm, 1167, rfl⟩
abbrev main_v863 : Ref sig .tc := ⟨.hbm, 1168, rfl⟩
abbrev main_v864 : Ref sig .tc := ⟨.hbm, 1169, rfl⟩
abbrev main_v865 : Ref sig .tc := ⟨.hbm, 1170, rfl⟩
abbrev main_cst_303 : Ref sig .tc := ⟨.hbm, 1171, rfl⟩
abbrev main_v866 : Ref sig .tc := ⟨.hbm, 1172, rfl⟩
abbrev main_v867 : Ref sig .tc := ⟨.hbm, 1173, rfl⟩
abbrev main_v868 : Ref sig .tc := ⟨.hbm, 1174, rfl⟩
abbrev main_cst_304 : Ref sig .tc := ⟨.hbm, 1175, rfl⟩
abbrev main_v869 : Ref sig .tc := ⟨.hbm, 1176, rfl⟩
abbrev main_v870 : Ref sig .tc := ⟨.hbm, 1177, rfl⟩
abbrev main_v871 : Ref sig .tc := ⟨.hbm, 1178, rfl⟩
abbrev main_cst_305 : Ref sig .tc := ⟨.hbm, 1179, rfl⟩
abbrev main_v872 : Ref sig .tc := ⟨.hbm, 1180, rfl⟩
abbrev main_v873 : Ref sig .tc := ⟨.hbm, 1181, rfl⟩
abbrev main_v874 : Ref sig .tc := ⟨.hbm, 1182, rfl⟩
abbrev main_cst_306 : Ref sig .tc := ⟨.hbm, 1183, rfl⟩
abbrev main_v875 : Ref sig .tc := ⟨.hbm, 1184, rfl⟩
abbrev main_v876 : Ref sig .tc := ⟨.hbm, 1185, rfl⟩
abbrev main_v877 : Ref sig .tc := ⟨.hbm, 1186, rfl⟩
abbrev main_cst_307 : Ref sig .tc := ⟨.hbm, 1187, rfl⟩
abbrev main_v878 : Ref sig .tc := ⟨.hbm, 1188, rfl⟩
abbrev main_v879 : Ref sig .tc := ⟨.hbm, 1189, rfl⟩
abbrev main_v880 : Ref sig .tc := ⟨.hbm, 1190, rfl⟩
abbrev main_cst_308 : Ref sig .tc := ⟨.hbm, 1191, rfl⟩
abbrev main_v881 : Ref sig .tc := ⟨.hbm, 1192, rfl⟩
abbrev main_v882 : Ref sig .tc := ⟨.hbm, 1193, rfl⟩
abbrev main_v883 : Ref sig .tc := ⟨.hbm, 1194, rfl⟩
abbrev main_cst_309 : Ref sig .tc := ⟨.hbm, 1195, rfl⟩
abbrev main_v884 : Ref sig .tc := ⟨.hbm, 1196, rfl⟩
abbrev main_v885 : Ref sig .tc := ⟨.hbm, 1197, rfl⟩
abbrev main_v886 : Ref sig .tc := ⟨.hbm, 1198, rfl⟩
abbrev main_cst_310 : Ref sig .tc := ⟨.hbm, 1199, rfl⟩
abbrev main_v887 : Ref sig .tc := ⟨.hbm, 1200, rfl⟩
abbrev main_v888 : Ref sig .tc := ⟨.hbm, 1201, rfl⟩
abbrev main_v889 : Ref sig .tc := ⟨.hbm, 1202, rfl⟩
abbrev main_cst_311 : Ref sig .tc := ⟨.hbm, 1203, rfl⟩
abbrev main_v890 : Ref sig .tc := ⟨.hbm, 1204, rfl⟩
abbrev main_v891 : Ref sig .tc := ⟨.hbm, 1205, rfl⟩
abbrev main_v892 : Ref sig .tc := ⟨.hbm, 1206, rfl⟩
abbrev main_cst_312 : Ref sig .tc := ⟨.hbm, 1207, rfl⟩
abbrev main_v893 : Ref sig .tc := ⟨.hbm, 1208, rfl⟩
abbrev main_v894 : Ref sig .tc := ⟨.hbm, 1209, rfl⟩
abbrev main_v895 : Ref sig .tc := ⟨.hbm, 1210, rfl⟩
abbrev main_cst_313 : Ref sig .tc := ⟨.hbm, 1211, rfl⟩
abbrev main_v896 : Ref sig .tc := ⟨.hbm, 1212, rfl⟩
abbrev main_v897 : Ref sig .tc := ⟨.hbm, 1213, rfl⟩
abbrev main_v898 : Ref sig .tc := ⟨.hbm, 1214, rfl⟩
abbrev main_cst_314 : Ref sig .tc := ⟨.hbm, 1215, rfl⟩
abbrev main_v899 : Ref sig .tc := ⟨.hbm, 1216, rfl⟩
abbrev main_v900 : Ref sig .tc := ⟨.hbm, 1217, rfl⟩
abbrev main_v901 : Ref sig .tc := ⟨.hbm, 1218, rfl⟩
abbrev main_cst_315 : Ref sig .tc := ⟨.hbm, 1219, rfl⟩
abbrev main_v902 : Ref sig .tc := ⟨.hbm, 1220, rfl⟩
abbrev main_v903 : Ref sig .tc := ⟨.hbm, 1221, rfl⟩
abbrev main_v904 : Ref sig .tc := ⟨.hbm, 1222, rfl⟩
abbrev main_cst_316 : Ref sig .tc := ⟨.hbm, 1223, rfl⟩
abbrev main_v905 : Ref sig .tc := ⟨.hbm, 1224, rfl⟩
abbrev main_v906 : Ref sig .tc := ⟨.hbm, 1225, rfl⟩
abbrev main_v907 : Ref sig .tc := ⟨.hbm, 1226, rfl⟩
abbrev main_cst_317 : Ref sig .tc := ⟨.hbm, 1227, rfl⟩
abbrev main_v908 : Ref sig .tc := ⟨.hbm, 1228, rfl⟩
abbrev main_v909 : Ref sig .tc := ⟨.hbm, 1229, rfl⟩
abbrev main_v910 : Ref sig .tc := ⟨.hbm, 1230, rfl⟩
abbrev main_cst_318 : Ref sig .tc := ⟨.hbm, 1231, rfl⟩
abbrev main_v911 : Ref sig .tc := ⟨.hbm, 1232, rfl⟩
abbrev main_v912 : Ref sig .tc := ⟨.hbm, 1233, rfl⟩
abbrev main_v913 : Ref sig .tc := ⟨.hbm, 1234, rfl⟩
abbrev main_cst_319 : Ref sig .tc := ⟨.hbm, 1235, rfl⟩
abbrev main_v914 : Ref sig .tc := ⟨.hbm, 1236, rfl⟩
abbrev main_v915 : Ref sig .tc := ⟨.hbm, 1237, rfl⟩
abbrev main_v916 : Ref sig .tc := ⟨.hbm, 1238, rfl⟩
abbrev main_v917 : Ref sig .tc := ⟨.hbm, 1239, rfl⟩
abbrev main_v918 : Ref sig .tc := ⟨.hbm, 1240, rfl⟩
abbrev main_v919 : Ref sig .tc := ⟨.hbm, 1241, rfl⟩
abbrev main_v920 : Ref sig .tc := ⟨.hbm, 1242, rfl⟩
abbrev main_v921 : Ref sig .tc := ⟨.hbm, 1243, rfl⟩
abbrev main_v922 : Ref sig .tc := ⟨.hbm, 1244, rfl⟩
abbrev main_v923 : Ref sig .tc := ⟨.hbm, 1245, rfl⟩
abbrev main_v924 : Ref sig .tc := ⟨.hbm, 1246, rfl⟩
abbrev main_v925 : Ref sig .tc := ⟨.hbm, 1247, rfl⟩
abbrev main_v926 : Ref sig .tc := ⟨.hbm, 1248, rfl⟩
abbrev main_v927 : Ref sig .tc := ⟨.hbm, 1249, rfl⟩
abbrev main_v928 : Ref sig .tc := ⟨.hbm, 1250, rfl⟩
abbrev main_v929 : Ref sig .tc := ⟨.hbm, 1251, rfl⟩
abbrev main_v930 : Ref sig .tc := ⟨.hbm, 1252, rfl⟩
abbrev main_v931 : Ref sig .tc := ⟨.hbm, 1253, rfl⟩
abbrev main_v932 : Ref sig .tc := ⟨.hbm, 1254, rfl⟩
abbrev main_v933 : Ref sig .tc := ⟨.hbm, 1255, rfl⟩
abbrev main_v934 : Ref sig .tc := ⟨.hbm, 1256, rfl⟩
abbrev main_v935 : Ref sig .tc := ⟨.hbm, 1257, rfl⟩
abbrev main_v936 : Ref sig .tc := ⟨.hbm, 1258, rfl⟩
abbrev main_v937 : Ref sig .tc := ⟨.hbm, 1259, rfl⟩
abbrev main_v938 : Ref sig .tc := ⟨.hbm, 1260, rfl⟩
abbrev main_v939 : Ref sig .tc := ⟨.hbm, 1261, rfl⟩
abbrev main_v940 : Ref sig .tc := ⟨.hbm, 1262, rfl⟩
abbrev main_v941 : Ref sig .tc := ⟨.hbm, 1263, rfl⟩
abbrev main_v942 : Ref sig .tc := ⟨.hbm, 1264, rfl⟩
abbrev main_v943 : Ref sig .tc := ⟨.hbm, 1265, rfl⟩
abbrev main_v944 : Ref sig .tc := ⟨.hbm, 1266, rfl⟩
abbrev main_v945 : Ref sig .tc := ⟨.hbm, 1267, rfl⟩
abbrev main_v946 : Ref sig .tc := ⟨.hbm, 1268, rfl⟩
abbrev main_v947 : Ref sig .tc := ⟨.hbm, 1269, rfl⟩
abbrev main_v948 : Ref sig .tc := ⟨.hbm, 1270, rfl⟩
abbrev main_v949 : Ref sig .tc := ⟨.hbm, 1271, rfl⟩
abbrev main_v950 : Ref sig .tc := ⟨.hbm, 1272, rfl⟩
abbrev main_v951 : Ref sig .tc := ⟨.hbm, 1273, rfl⟩
abbrev main_v952 : Ref sig .tc := ⟨.hbm, 1274, rfl⟩
abbrev main_v953 : Ref sig .tc := ⟨.hbm, 1275, rfl⟩
abbrev main_v954 : Ref sig .tc := ⟨.hbm, 1276, rfl⟩
abbrev main_v955 : Ref sig .tc := ⟨.hbm, 1277, rfl⟩
abbrev main_v956 : Ref sig .tc := ⟨.hbm, 1278, rfl⟩
abbrev main_v957 : Ref sig .tc := ⟨.hbm, 1279, rfl⟩
abbrev main_v958 : Ref sig .tc := ⟨.hbm, 1280, rfl⟩
abbrev main_v959 : Ref sig .tc := ⟨.hbm, 1281, rfl⟩
abbrev main_v960 : Ref sig .tc := ⟨.hbm, 1282, rfl⟩
abbrev main_v961 : Ref sig .tc := ⟨.hbm, 1283, rfl⟩
abbrev main_v962 : Ref sig .tc := ⟨.hbm, 1284, rfl⟩
abbrev main_v963 : Ref sig .tc := ⟨.hbm, 1285, rfl⟩
abbrev main_v964 : Ref sig .tc := ⟨.hbm, 1286, rfl⟩
abbrev main_v965 : Ref sig .tc := ⟨.hbm, 1287, rfl⟩
abbrev main_v966 : Ref sig .tc := ⟨.hbm, 1288, rfl⟩
abbrev main_v967 : Ref sig .tc := ⟨.hbm, 1289, rfl⟩
abbrev main_v968 : Ref sig .tc := ⟨.hbm, 1290, rfl⟩
abbrev main_v969 : Ref sig .tc := ⟨.hbm, 1291, rfl⟩
abbrev main_v970 : Ref sig .tc := ⟨.hbm, 1292, rfl⟩
abbrev main_v971 : Ref sig .tc := ⟨.hbm, 1293, rfl⟩
abbrev main_v972 : Ref sig .tc := ⟨.hbm, 1294, rfl⟩
abbrev main_v973 : Ref sig .tc := ⟨.hbm, 1295, rfl⟩
abbrev main_v974 : Ref sig .tc := ⟨.hbm, 1296, rfl⟩
abbrev main_v975 : Ref sig .tc := ⟨.hbm, 1297, rfl⟩
abbrev main_v976 : Ref sig .tc := ⟨.hbm, 1298, rfl⟩
abbrev main_v977 : Ref sig .tc := ⟨.hbm, 1299, rfl⟩
abbrev main_v978 : Ref sig .tc := ⟨.hbm, 1300, rfl⟩
abbrev main_v979 : Ref sig .tc := ⟨.hbm, 1301, rfl⟩
abbrev main_v980 : Ref sig .tc := ⟨.hbm, 1302, rfl⟩
abbrev main_v981 : Ref sig .tc := ⟨.hbm, 1303, rfl⟩
abbrev main_v982 : Ref sig .tc := ⟨.hbm, 1304, rfl⟩
abbrev main_v983 : Ref sig .tc := ⟨.hbm, 1305, rfl⟩
abbrev main_v984 : Ref sig .tc := ⟨.hbm, 1306, rfl⟩
abbrev main_v985 : Ref sig .tc := ⟨.hbm, 1307, rfl⟩
abbrev main_v986 : Ref sig .tc := ⟨.hbm, 1308, rfl⟩
abbrev main_v987 : Ref sig .tc := ⟨.hbm, 1309, rfl⟩
abbrev main_v988 : Ref sig .tc := ⟨.hbm, 1310, rfl⟩
abbrev main_v989 : Ref sig .tc := ⟨.hbm, 1311, rfl⟩
abbrev main_v990 : Ref sig .tc := ⟨.hbm, 1312, rfl⟩
abbrev main_v991 : Ref sig .tc := ⟨.hbm, 1313, rfl⟩
abbrev main_v992 : Ref sig .tc := ⟨.hbm, 1314, rfl⟩
abbrev main_v993 : Ref sig .tc := ⟨.hbm, 1315, rfl⟩
abbrev main_v994 : Ref sig .tc := ⟨.hbm, 1316, rfl⟩
abbrev main_v995 : Ref sig .tc := ⟨.hbm, 1317, rfl⟩
abbrev main_v996 : Ref sig .tc := ⟨.hbm, 1318, rfl⟩
abbrev main_v997 : Ref sig .tc := ⟨.hbm, 1319, rfl⟩
abbrev main_v998 : Ref sig .tc := ⟨.hbm, 1320, rfl⟩
abbrev main_v999 : Ref sig .tc := ⟨.hbm, 1321, rfl⟩
abbrev main_v1000 : Ref sig .tc := ⟨.hbm, 1322, rfl⟩
abbrev main_v1001 : Ref sig .tc := ⟨.hbm, 1323, rfl⟩
abbrev main_v1002 : Ref sig .tc := ⟨.hbm, 1324, rfl⟩
abbrev main_v1003 : Ref sig .tc := ⟨.hbm, 1325, rfl⟩
abbrev main_v1004 : Ref sig .tc := ⟨.hbm, 1326, rfl⟩
abbrev main_v1005 : Ref sig .tc := ⟨.hbm, 1327, rfl⟩
abbrev main_v1006 : Ref sig .tc := ⟨.hbm, 1328, rfl⟩
abbrev main_v1007 : Ref sig .tc := ⟨.hbm, 1329, rfl⟩
abbrev main_v1008 : Ref sig .tc := ⟨.hbm, 1330, rfl⟩
abbrev main_v1009 : Ref sig .tc := ⟨.hbm, 1331, rfl⟩
abbrev main_v1010 : Ref sig .tc := ⟨.hbm, 1332, rfl⟩
abbrev main_v1011 : Ref sig .tc := ⟨.hbm, 1333, rfl⟩
abbrev main_v1012 : Ref sig .tc := ⟨.hbm, 1334, rfl⟩
abbrev main_v1013 : Ref sig .tc := ⟨.hbm, 1335, rfl⟩
abbrev main_v1014 : Ref sig .tc := ⟨.hbm, 1336, rfl⟩
abbrev main_v1015 : Ref sig .tc := ⟨.hbm, 1337, rfl⟩
abbrev main_v1016 : Ref sig .tc := ⟨.hbm, 1338, rfl⟩
abbrev main_v1017 : Ref sig .tc := ⟨.hbm, 1339, rfl⟩
abbrev main_v1018 : Ref sig .tc := ⟨.hbm, 1340, rfl⟩
abbrev main_v1019 : Ref sig .tc := ⟨.hbm, 1341, rfl⟩
abbrev main_v1020 : Ref sig .tc := ⟨.hbm, 1342, rfl⟩
abbrev main_v1021 : Ref sig .tc := ⟨.hbm, 1343, rfl⟩
abbrev main_v1022 : Ref sig .tc := ⟨.hbm, 1344, rfl⟩
abbrev main_v1023 : Ref sig .tc := ⟨.hbm, 1345, rfl⟩
abbrev main_v1024 : Ref sig .tc := ⟨.hbm, 1346, rfl⟩
abbrev main_v1025 : Ref sig .tc := ⟨.hbm, 1347, rfl⟩
abbrev main_v1026 : Ref sig .tc := ⟨.hbm, 1348, rfl⟩

abbrev nD : Nat := 1
abbrev τ : Topo := Topo.v7x

variable {F : FTy → Type} [FloatOps F]

class Facts₀ : Prop where
  slices_S2000000x3_S2000000x1_0_0 : S2000000x3.Slices ![0, 0] S2000000x1
  shapeCasts_S2000000x1_S2000000 : S2000000x1.ShapeCasts S2000000
  slices_S2000000x3_S2000000x1_0_1 : S2000000x3.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x1_S2000000x1_S2000000x1_S2000000x1_S2000000x1_S2000000x1_S2000000x1_S2000000x1_S2000000x1_S2000000x1_S2000000x1_S2000000x1_S2000000x1_S2000000x1_S2000000x16_d1 : Shape.Concatenates [S2000000x1, S2000000x1, S2000000x1, S2000000x1, S2000000x1, S2000000x1, S2000000x1, S2000000x1, S2000000x1, S2000000x1, S2000000x1, S2000000x1, S2000000x1, S2000000x1, S2000000x1, S2000000x1] S2000000x16 1
  concatenates_S2000000x1_S2000000x1_S2000000x1_S2000000x1_S2000000x4_d1 : Shape.Concatenates [S2000000x1, S2000000x1, S2000000x1, S2000000x1] S2000000x4 1
  concatenates_S2000000x16_S2000000x16_S2000000x16_S2000000x16_S2000000x16_S2000000x16_S2000000x4_S2000000x100_d1 : Shape.Concatenates [S2000000x16, S2000000x16, S2000000x16, S2000000x16, S2000000x16, S2000000x16, S2000000x4] S2000000x100 1
  slices_S2000000x3_S2000000x1_0_2 : S2000000x3.Slices ![0, 2] S2000000x1
  concatenates_S2000000x100_S2000000x1_S2000000x101_d1 : Shape.Concatenates [S2000000x100, S2000000x1] S2000000x101 1

variable [Facts₀]

class Facts : Prop extends Facts₀ where

variable [Facts]
-- ==== Proof.RowsBits.lean ====
import proofs.«160392_j91122026152643_2_alg».proof.Proof.Gen.Kernel.Launch
import proofs.«160392_j91122026152643_2_alg».proof.Proof.Gen.Kernel.Skeleton
import proofs.«160392_j91122026152643_2_alg».proof.Proof.Gen.Kernel.Points
import Idealize.ShloMosaic.Lib.Pipeline.FrameBody
import Idealize.ShloMosaic.Lib.Ring
import Idealize.ShloMosaic.Lib.Tactic

/-!
# The embedding kernel block by block

The program first lays the three columns of the input [2000000, 3] out as the three rows of an array
[3, 2000000] (three slices, three recasts to a vector, three recasts to a row, one concatenation), and
then runs ONE region over a grid of 125 points. At point `t` the body is handed the block of columns
`16000·t … 16000·t + 15999` of that array (a [3, 16000] block: one row of longitudes, one of latitudes,
one of time stamps), computes from it 101 rows of 16000 numbers each, stacks them to a [101, 16000]
array, transposes it and stores the [16000, 101] result whole into its output block, which the pipeline
writes back as rows `16000·t … 16000·t + 15999` of the result [2000000, 101].

This file proves that every weakly fair execution does exactly that and nothing else: the body reads its
input block through three literal rows and overwrites its whole output block with one store, so what each
output block holds after a point is a function of that point's input block alone (`blockOut`); the
pipeline's proof data says so at every point; and the library's launch theorem for one region after a
stretch of host operations gives the run, with every array named in its post. Nothing here depends on what a float is.
-/

set_option maxRecDepth 16384

noncomputable section

namespace Cert.Kernel.Rows

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What core `c`'s buffers hold when the region is entered: the launch memory after the ten host operations
    that transpose the input. -/
abbrev V (c : Dev nD) (b : Ref sig .tc) : Buf (Elt F) ((c : Thread nD τ).loc b) :=
  StableHlo.after hostOps0 (fun b => m (c, b)) b

/-- None of the ten operations allocates. -/
theorem hostOps0_fresh : (hostOps0 : List (HloOp τ sig (Elt F))).Forall fun op => op.fresh = ∅ := by
  simp only [List.Forall]; repeat' constructor

/-- The program is those ten operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the ten operations writes the input array: each writes its own result buffer, and the input is none
    of them. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every point (it is fetched at every point, the block
    whole and inside the array), for any proof data over the arrays `V` whose body leaves that buffer alone. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- From a run that ends with every array of the pipeline as its proof data says and every other buffer as the region
    found it, the input array ends as launched: no window stages it, and no host operation wrote it. -/
theorem input_kept_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c)) h

/-! ## The body on any pair of staging buffers -/

/-- One staging buffer of the output window, through which block contents are stated (which one does not matter). -/
abbrev outView : View sig .tc .vmem S16000x101 .f32 := (Memref.whole cc0_stg1_0 : Memref sig .tc .vmem S16000x101 .f32).view
/-- The staging buffers the pipeline hands the body at point `t`, and that they are whole. -/
abbrev inBuf (t : Fin cfg0.N) : Memref sig .tc .vmem S3x16000 .f32 := win0_0.stage (cfg0.slots t 0)
abbrev inBuf_whole (t : Fin cfg0.N) : (inBuf t).IsWhole := hstage0_0 ((cfg0.slots t 0).cast nbuf0_0)
abbrev outBuf (t : Fin cfg0.N) : Memref sig .tc .vmem S16000x101 .f32 := win0_1.stage (cfg0.slots t 1)
abbrev outBuf_whole (t : Fin cfg0.N) : (outBuf t).IsWhole := hstage0_1 ((cfg0.slots t 1).cast nbuf0_1)

set_option maxHeartbeats 4000000 in
/-- The body, run on a whole input buffer holding `x0` and a whole output buffer holding anything: it terminates
    without a fault, leaves the input buffer as it was and the output buffer with a list of stores written into it.
    The list is whatever the run meets (here: the one store of the transposed stack); it is the witness. -/
noncomputable def bodyRun (c : Dev nD) (i : grid0.Coords) (arg1 : Memref sig .tc .vmem S3x16000 .f32) (harg1 : arg1.IsWhole)
    (arg2 : Memref sig .tc .vmem S16000x101 .f32) (harg2 : arg2.IsWhole) (x0 : Vec F S3x16000 .f32) :
    { L : List (View.Piece (Elt F) S16000x101 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L)) -∗ K ⟨⟩))
          ⊢ wp frame (wpE (defs₀ (F := F)) Variants.none c none) E (cc0__sh_kernel i arg1 harg1 arg2 harg2) K } := by
  refine ⟨?_, fun E K => ?run⟩
  case run =>
    simp only [cc0__sh_kernel_eq_skeleton]; unfold cc0__sh_kernel_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

/-! ## What the body leaves in its output block -/

/-- The run's stores tile the output block (checked on the rectangles alone), so they cover it. -/
theorem stores_cover (c : Dev nD) (i : grid0.Coords) (arg1 : Memref sig .tc .vmem S3x16000 .f32) (harg1 : arg1.IsWhole)
    (arg2 : Memref sig .tc .vmem S16000x101 .f32) (harg2 : arg2.IsWhole) (x0 : Vec F S3x16000 .f32) (y : S16000x101.Idx) :
    ∃ pc ∈ (bodyRun c i arg1 harg1 arg2 harg2 x0).1, y ∈ pc.1.set :=
  View.cover_of_tiledL (bodyRun c i arg1 harg1 arg2 harg2 x0).1 S16000x101.size (by sl_kernel_rfl) y

/-- The output block after the body, as a function of the input block: the run's stores read back. Since they
    cover the block, nothing of what the buffer held before is left. -/
def blockOut (c : Dev nD) (i : grid0.Coords) (arg1 : Memref sig .tc .vmem S3x16000 .f32) (harg1 : arg1.IsWhole)
    (arg2 : Memref sig .tc .vmem S16000x101 .f32) (harg2 : arg2.IsWhole) (x0 : Vec F S3x16000 .f32) : Vec F S16000x101 .f32 :=
  outView.read (Elt F) (outView.writes (Elt F) outView.junk (bodyRun c i arg1 harg1 arg2 harg2 x0).1)

/-! ## The pipeline's proof data -/

/-- On core `c`: the arrays as the region finds them; after the body at point `t` the input buffer still at its
    block and the output buffer at `blockOut` of that block; the invariant is the untouched rest; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockOut c (grid0.coords t) (inBuf t) (inBuf_whole t) (outBuf t) (outBuf_whole t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) :
    (dats m 0 c).after 1 t = blockOut c (grid0.coords t) (inBuf t) (inBuf_whole t) (outBuf t) (outBuf_whole t) (iblk m c 0 t) := by
  dsimp only [dats]

/-- The input buffer holds the point's block when the body starts. -/
theorem before_in (c : Dev nD) (t : Fin cfg0.N) (d) : (dats m 0 c).before 0 t d = iblk m c 0 t :=
  before_in_of m (dats m 0 c) (A_eq m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

set_option maxHeartbeats 800000 in
/-- At every point the input buffer holds the block, so the body's run applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  unfold blockOut
  iintro ⟨HΦ, Ho, ⟨%d0, H0⟩, ⟨%d1, H1⟩⟩
  iapply ((bodyRun c (grid0.coords t) _ _ _ _ (iblk m c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (stores_cover c _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault; at the end
    each array of the pipeline holds what the proof data says and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves its input array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  input_kept_of m ρ (dats m) (A_eq m) (run_main m ρ)

end Cert.Kernel.Rows

end
-- ==== Proof.RowsIdeal.lean ====
import proofs.«160392_j91122026152643_2_alg».proof.Proof.Gen.KernelIdeal.Launch
import proofs.«160392_j91122026152643_2_alg».proof.Proof.Gen.KernelIdeal.Skeleton
import proofs.«160392_j91122026152643_2_alg».proof.Proof.Gen.KernelIdeal.Points
import Idealize.ShloMosaic.Lib.Pipeline.FrameBody
import Idealize.ShloMosaic.Lib.Ring
import Idealize.ShloMosaic.Lib.Tactic

/-!
# The embedding kernel block by block

The program first lays the three columns of the input [2000000, 3] out as the three rows of an array
[3, 2000000] (three slices, three recasts to a vector, three recasts to a row, one concatenation), and
then runs ONE region over a grid of 125 points. At point `t` the body is handed the block of columns
`16000·t … 16000·t + 15999` of that array (a [3, 16000] block: one row of longitudes, one of latitudes,
one of time stamps), computes from it 101 rows of 16000 numbers each, stacks them to a [101, 16000]
array, transposes it and stores the [16000, 101] result whole into its output block, which the pipeline
writes back as rows `16000·t … 16000·t + 15999` of the result [2000000, 101].

This file proves that every weakly fair execution does exactly that and nothing else: the body reads its
input block through three literal rows and overwrites its whole output block with one store, so what each
output block holds after a point is a function of that point's input block alone (`blockOut`); the
pipeline's proof data says so at every point; and the library's launch theorem for one region after a
stretch of host operations gives the run, with every array named in its post. Nothing here depends on what a float is.
-/

set_option maxRecDepth 16384

noncomputable section

namespace Cert.KernelIdeal.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What core `c`'s buffers hold when the region is entered: the launch memory after the ten host operations
    that transpose the input. -/
abbrev V (c : Dev nD) (b : Ref sig .tc) : Buf (Elt F) ((c : Thread nD τ).loc b) :=
  StableHlo.after hostOps0 (fun b => m (c, b)) b

/-- None of the ten operations allocates. -/
theorem hostOps0_fresh : (hostOps0 : List (HloOp τ sig (Elt F))).Forall fun op => op.fresh = ∅ := by
  simp only [List.Forall]; repeat' constructor

/-- The program is those ten operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the ten operations writes the input array: each writes its own result buffer, and the input is none
    of them. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every point (it is fetched at every point, the block
    whole and inside the array), for any proof data over the arrays `V` whose body leaves that buffer alone. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- From a run that ends with every array of the pipeline as its proof data says and every other buffer as the region
    found it, the input array ends as launched: no window stages it, and no host operation wrote it. -/
theorem input_kept_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (V_main_arg0 m c)) h

/-! ## The body on any pair of staging buffers -/

/-- One staging buffer of the output window, through which block contents are stated (which one does not matter). -/
abbrev outView : View sig .tc .vmem S16000x101 .f32 := (Memref.whole cc0_stg1_0 : Memref sig .tc .vmem S16000x101 .f32).view
/-- The staging buffers the pipeline hands the body at point `t`, and that they are whole. -/
abbrev inBuf (t : Fin cfg0.N) : Memref sig .tc .vmem S3x16000 .f32 := win0_0.stage (cfg0.slots t 0)
abbrev inBuf_whole (t : Fin cfg0.N) : (inBuf t).IsWhole := hstage0_0 ((cfg0.slots t 0).cast nbuf0_0)
abbrev outBuf (t : Fin cfg0.N) : Memref sig .tc .vmem S16000x101 .f32 := win0_1.stage (cfg0.slots t 1)
abbrev outBuf_whole (t : Fin cfg0.N) : (outBuf t).IsWhole := hstage0_1 ((cfg0.slots t 1).cast nbuf0_1)

set_option maxHeartbeats 4000000 in
/-- The body, run on a whole input buffer holding `x0` and a whole output buffer holding anything: it terminates
    without a fault, leaves the input buffer as it was and the output buffer with a list of stores written into it.
    The list is whatever the run meets (here: the one store of the transposed stack); it is the witness. -/
noncomputable def bodyRun (c : Dev nD) (i : grid0.Coords) (arg1 : Memref sig .tc .vmem S3x16000 .f32) (harg1 : arg1.IsWhole)
    (arg2 : Memref sig .tc .vmem S16000x101 .f32) (harg2 : arg2.IsWhole) (x0 : Vec F S3x16000 .f32) :
    { L : List (View.Piece (Elt F) S16000x101 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L)) -∗ K ⟨⟩))
          ⊢ wp frame (wpE (defs₀ (F := F)) Variants.none c none) E (cc0__sh_kernel i arg1 harg1 arg2 harg2) K } := by
  refine ⟨?_, fun E K => ?run⟩
  case run =>
    simp only [cc0__sh_kernel_eq_skeleton]; unfold cc0__sh_kernel_skel
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

/-! ## What the body leaves in its output block -/

/-- The run's stores tile the output block (checked on the rectangles alone), so they cover it. -/
theorem stores_cover (c : Dev nD) (i : grid0.Coords) (arg1 : Memref sig .tc .vmem S3x16000 .f32) (harg1 : arg1.IsWhole)
    (arg2 : Memref sig .tc .vmem S16000x101 .f32) (harg2 : arg2.IsWhole) (x0 : Vec F S3x16000 .f32) (y : S16000x101.Idx) :
    ∃ pc ∈ (bodyRun c i arg1 harg1 arg2 harg2 x0).1, y ∈ pc.1.set :=
  View.cover_of_tiledL (bodyRun c i arg1 harg1 arg2 harg2 x0).1 S16000x101.size (by sl_kernel_rfl) y

/-- The output block after the body, as a function of the input block: the run's stores read back. Since they
    cover the block, nothing of what the buffer held before is left. -/
def blockOut (c : Dev nD) (i : grid0.Coords) (arg1 : Memref sig .tc .vmem S3x16000 .f32) (harg1 : arg1.IsWhole)
    (arg2 : Memref sig .tc .vmem S16000x101 .f32) (harg2 : arg2.IsWhole) (x0 : Vec F S3x16000 .f32) : Vec F S16000x101 .f32 :=
  outView.read (Elt F) (outView.writes (Elt F) outView.junk (bodyRun c i arg1 harg1 arg2 harg2 x0).1)

/-! ## The pipeline's proof data -/

/-- On core `c`: the arrays as the region finds them; after the body at point `t` the input buffer still at its
    block and the output buffer at `blockOut` of that block; the invariant is the untouched rest; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockOut c (grid0.coords t) (inBuf t) (inBuf_whole t) (outBuf t) (outBuf_whole t) (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) :
    (dats m 0 c).after 1 t = blockOut c (grid0.coords t) (inBuf t) (inBuf_whole t) (outBuf t) (outBuf_whole t) (iblk m c 0 t) := by
  dsimp only [dats]

/-- The input buffer holds the point's block when the body starts. -/
theorem before_in (c : Dev nD) (t : Fin cfg0.N) (d) : (dats m 0 c).before 0 t d = iblk m c 0 t :=
  before_in_of m (dats m 0 c) (A_eq m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

set_option maxHeartbeats 800000 in
/-- At every point the input buffer holds the block, so the body's run applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  unfold blockOut
  iintro ⟨HΦ, Ho, ⟨%d0, H0⟩, ⟨%d1, H1⟩⟩
  iapply ((bodyRun c (grid0.coords t) _ _ _ _ (iblk m c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (stores_cover c _ _ _ _ _ _)

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates without a fault; at the end
    each array of the pipeline holds what the proof data says and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves its input array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  input_kept_of m ρ (dats m) (A_eq m) (run_main m ρ)

end Cert.KernelIdeal.Rows

end
-- ==== Proof.LibSmallF32.lean ====
import Idealize.ShloMosaic.PureOps.Ideal

/-!
# The single-precision patterns of the integers 1 … 9

At the exact instance a float literal denotes the dyadic rational its IEEE pattern spells. For the nine small
integers that multiply an angle (`m·φ`, `m = 1 … 9`) that rational is the integer itself.
-/

noncomputable section

namespace Cert.LibSmallF32

open Idealize.ShloMosaic

theorem f32_1 : Ideal.ofBits .f32 0x3F800000#32 = ((1 : ℝ) : EReal) := by
  simp [Ideal.ofBits, Ideal.ieee, -EReal.coe_mul]; norm_num
theorem f32_2 : Ideal.ofBits .f32 0x40000000#32 = ((2 : ℝ) : EReal) := by
  simp [Ideal.ofBits, Ideal.ieee, -EReal.coe_mul]; norm_num
theorem f32_3 : Ideal.ofBits .f32 0x40400000#32 = ((3 : ℝ) : EReal) := by
  simp [Ideal.ofBits, Ideal.ieee, -EReal.coe_mul]; norm_num
theorem f32_4 : Ideal.ofBits .f32 0x40800000#32 = ((4 : ℝ) : EReal) := by
  simp [Ideal.ofBits, Ideal.ieee, -EReal.coe_mul]; norm_num
theorem f32_5 : Ideal.ofBits .f32 0x40A00000#32 = ((5 : ℝ) : EReal) := by
  simp [Ideal.ofBits, Ideal.ieee, -EReal.coe_mul]; norm_num
theorem f32_6 : Ideal.ofBits .f32 0x40C00000#32 = ((6 : ℝ) : EReal) := by
  simp [Ideal.ofBits, Ideal.ieee, -EReal.coe_mul]; norm_num
theorem f32_7 : Ideal.ofBits .f32 0x40E00000#32 = ((7 : ℝ) : EReal) := by
  simp [Ideal.ofBits, Ideal.ieee, -EReal.coe_mul]; norm_num
theorem f32_8 : Ideal.ofBits .f32 0x41000000#32 = ((8 : ℝ) : EReal) := by
  simp [Ideal.ofBits, Ideal.ieee, -EReal.coe_mul]; norm_num
theorem f32_9 : Ideal.ofBits .f32 0x41100000#32 = ((9 : ℝ) : EReal) := by
  simp [Ideal.ofBits, Ideal.ieee, -EReal.coe_mul]; norm_num

end Cert.LibSmallF32

end
-- ==== Proof.RowsAt.lean ====
import proofs.«160392_j91122026152643_2_alg».proof.Proof.RowsIdeal
import proofs.«160392_j91122026152643_2_alg».proof.Proof.LibSmallF32
import Idealize.ShloMosaic.Lib.ValueIdx
import Idealize.ShloMosaic.Lib.ValueLayout
import Idealize.ShloMosaic.Lib.Pipeline.Value
import Idealize.ShloMosaic.PureOps.Ideal.Laws

/-!
# The kernel's block, entry by entry

What the body leaves at entry `(r, j)` of its [16000, 101] output block is entry `(j, r)` of the [101, 16000] stack
of rows it transposes. Each row is built from the three rows of the input block by operations that act entry by
entry, except the nine rows `cos(m·φ)` and the nine rows `sin(m·φ)`, `m = 1 … 9`, which the body computes at once as
a [9, 16000] array — the row of angles `φ` against the column `1, …, 9` — and then cuts into rows. This file reads
those pieces at an entry: a load through a literal row of the input block, and row `k` of the two [9, 16000]
arrays, which at column `r` is `cos ((k + 1) · φ r)` and `sin ((k + 1) · φ r)` with `k + 1` the exact integer.
-/

set_option maxRecDepth 16384

noncomputable section

namespace Cert.KernelIdeal.Rows

open Cert.KernelIdeal Cert.KernelIdeal.Gen Cert.LibSmallF32
open Idealize.ShloMosaic Idealize.ShloMosaic.TcCoe Idealize.ShloMosaic.ValueIdx
open Idealize.SL.Sem

variable {F : FTy → Type} [FloatOps F]

theorem zeros2 : (![0, 0] : Fin 2 → Nat) = fun _ => 0 := funext fun a => by fin_cases a <;> rfl

/-- The one store covers the block, so the block is its payload: the stack of rows, transposed. -/
theorem blockOut_at (c : Dev nD) (i : grid0.Coords) (arg1 : Memref sig .tc .vmem S3x16000 .f32) (harg1 : arg1.IsWhole)
    (arg2 : Memref sig .tc .vmem S16000x101 .f32) (harg2 : arg2.IsWhole) (x0 : Vec F S3x16000 .f32) (r : Fin 16000) (j : Fin 101) :
    blockOut c i arg1 harg1 arg2 harg2 x0 (ix2 r j) = bodyRun.sl.v748 c arg1 harg1 x0 (ix2 j r) := by
  unfold blockOut
  rw [View.read_writes_eq_canon _ _ _ (stores_cover c i arg1 harg1 arg2 harg2 x0)]
  unfold bodyRun
  dsimp only
  rw [View.canon_unit_zero zeros2]
  unfold k0_pay7
  exact transpose_ix2_apply _ _ r j

/-- A load through row `k` of a buffer that holds `x0` reads row `k` of `x0`. -/
theorem load_row (arg1 : Memref sig .tc .vmem S3x16000 .f32) (harg1 : arg1.IsWhole) (x0 : Vec F S3x16000 .f32)
    (k : ℕ) (hinb : ∀ a, (![k, 0] : Fin 2 → Nat) a + S1x16000.size a ≤ S3x16000.size a) (r : Fin 16000) :
    View.readAt (Elt F) arg1.view (Rect.unit (s := S3x16000) ![k, 0] S1x16000.size hinb).toLoadRect (harg1.unread x0) (ix2 0 r)
      = x0 (ix2 ⟨k, by have := hinb 0; simp at this; omega⟩ r) := by
  rw [View.readAt_eq_ld, harg1.read_unread]
  show x0 _ = x0 _
  congr 1
  funext a
  apply Fin.ext
  match a with
  | ⟨0, _⟩ => show k + 1 * 0 = k; omega
  | ⟨1, _⟩ => show 0 + 1 * r.val = r.val; omega

theorem cos_at {s : Shape} (x : FVec Ideal s .f32) (i : s.Idx) : cos x i = Ideal.cos (x i) := rfl
theorem sin_at {s : Shape} (x : FVec Ideal s .f32) (i : s.Idx) : sin x i = Ideal.sin (x i) := rfl

/-- The f32 pattern of the integer `k + 1`, for `k < 9`. -/
def multPat : ℕ → BitVec 32
  | 0 => 0x3F800000#32 | 1 => 0x40000000#32 | 2 => 0x40400000#32 | 3 => 0x40800000#32 | 4 => 0x40A00000#32
  | 5 => 0x40C00000#32 | 6 => 0x40E00000#32 | 7 => 0x41000000#32 | 8 => 0x41100000#32 | _ => 0#32

/-- Row `k` of the [9, 16000] array of angles: the row `φ` against the column of the integers `1 … 9` (an integer
    count, plus one, converted exactly) is `(k + 1) · φ`; the integer `k + 1` is what its f32 pattern denotes. -/
theorem anglesRow_at (v9 : FVec Ideal S1x16000 .f32) (k : ℕ) (hk : k < 9) (r : Fin 16000) :
    k0_pay79 v9 (ix2 ⟨k, hk⟩ r) = Ideal.ofBits .f32 (multPat k) * v9 (ix2 0 r) := by
  unfold k0_pay79
  rw [mulf_apply]
  rw [broadcastTo_apply v9 _ (ix2 ⟨k, hk⟩ r) (ix2 0 r) (fun a => by match a with | ⟨0, _⟩ => simp | ⟨1, _⟩ => simp)]
  rw [broadcastTo_apply _ _ (ix2 ⟨k, hk⟩ r) (ix2 ⟨k, hk⟩ 0) (fun a => by match a with | ⟨0, _⟩ => simp | ⟨1, _⟩ => simp)]
  rw [sitofp_apply]
  show v9 (ix2 0 r) * (((IntOp.addi (BitVec.ofNat 32 (0 * 9 + k)) 1#32).toInt : ℝ) : EReal) = _
  have hm : (IntOp.addi (BitVec.ofNat 32 (0 * 9 + k)) 1#32).toInt = ((k + 1 : ℕ) : ℤ) := by
    interval_cases k <;> decide
  rw [hm, mul_comm]
  congr 1
  interval_cases k <;> simp only [multPat, f32_1, f32_2, f32_3, f32_4, f32_5, f32_6, f32_7, f32_8, f32_9] <;> norm_num

/-- Row `k` of `cos` of the angles, cut out as a row. -/
theorem cosRow_at (v9 : FVec Ideal S1x16000 .f32) (k : ℕ) (h : S9x16000.Slices ![k, 0] S1x16000) (r : Fin 16000) :
    extractStridedSlice S1x16000 ![k, 0] (k0_pay80 v9) h (ix2 0 r) = Ideal.cos (Ideal.ofBits .f32 (multPat k) * v9 (ix2 0 r)) := by
  have hk : k < 9 := by have := h.2 0; simp at this; omega
  rw [slice2_axis0_apply k _ h 0 r ⟨k, hk⟩ (by simp)]
  unfold k0_pay80
  rw [cos_at, anglesRow_at v9 k hk r]

/-- Row `k` of `sin` of the angles, cut out as a row. -/
theorem sinRow_at (v9 : FVec Ideal S1x16000 .f32) (k : ℕ) (h : S9x16000.Slices ![k, 0] S1x16000) (r : Fin 16000) :
    extractStridedSlice S1x16000 ![k, 0] (k0_pay81 v9) h (ix2 0 r) = Ideal.sin (Ideal.ofBits .f32 (multPat k) * v9 (ix2 0 r)) := by
  have hk : k < 9 := by have := h.2 0; simp at this; omega
  rw [slice2_axis0_apply k _ h 0 r ⟨k, hk⟩ (by simp)]
  unfold k0_pay81
  rw [sin_at, anglesRow_at v9 k hk r]

end Cert.KernelIdeal.Rows

end
-- ==== Proof.LibConcatAt.lean ====
import Idealize.ShloMosaic.Lib.ValueIdx
import Idealize.ShloMosaic.Lib.Pipeline.Value

/-!
# A concatenation of matrices read at an entry

Two corollaries of the library's reading of a concatenation at an index (`concatenate_apply_piece`), in the two
forms a row-by-row or column-by-column assembly needs, with every index written by its coordinates:

* matrices [Wₖ, N] stacked on top of each other (axis 0) into [R, N]: entry `(j, r)` of the stack is entry
  `(p, r)` of piece `k` when the pieces before `k` have `pre` rows together and `j = pre + p`;
* matrices [N, Wₖ] set side by side (axis 1) into [N, K]: entry `(n, j)` is entry `(n, p)` of piece `k` when the
  pieces before `k` have `pre` columns together and `j = pre + p`.

The piece is named by an equation `xs[k]? = some ⟨shape, x₁⟩`, which for a literal list and a literal `k` is
decided by walking the list and tells Lean what `x₁` is; the count `pre` is a sum over a literal prefix of the list. Nothing here depends
on what the entries are.
-/

namespace Cert.LibConcatAt

open Idealize.ShloMosaic Idealize.ShloMosaic.ValueIdx

variable {α : Type}

/-- The extents of the pieces along axis `a` of the result, as the library's lemma sums them. -/
abbrev extents {t : Shape} (a : Fin t.rank) (ss : List Shape) : List Nat :=
  ss.map fun s => if h : s.rank = t.rank then s.size (a.cast h.symm) else 0

/-- Matrices stacked on top of each other, read at `(j, r)`: row `p` of piece `k`, where `j = pre + p` and `pre`
    is the number of rows of the pieces before `k`. -/
theorem stacked_at {R N W : ℕ} (xs : List ((s : Shape) × (s.Idx → α)))
    (h : Shape.Concatenates (xs.map (·.1)) ⟨2, ![R, N]⟩ (0 : Fin 2)) (j : Fin R) (r : Fin N)
    (k : ℕ) (x₁ : (⟨2, ![W, N]⟩ : Shape).Idx → α) (hxk : xs[k]? = some ⟨⟨2, ![W, N]⟩, x₁⟩)
    (pre : ℕ) (hpre : (extents (t := ⟨2, ![R, N]⟩) (0 : Fin 2) ((xs.take k).map (·.1))).sum = pre)
    (p : Fin W) (hj : pre + p.val = j.val) :
    concatenate ⟨2, ![R, N]⟩ (0 : Fin 2) xs h (ix2 j r) = x₁ (ix2 p r) := by
  obtain ⟨hk, hxk'⟩ := List.getElem?_eq_some_iff.mp hxk
  exact concatenate_apply_piece (t := ⟨2, ![R, N]⟩) (0 : Fin 2) xs h (ix2 j r) k hk ⟨2, ![W, N]⟩ x₁ hxk' rfl pre hpre (ix2 p r)
    (fun b hb => by
      match b with
      | ⟨0, _⟩ => exact absurd rfl hb
      | ⟨1, _⟩ => rfl) hj

/-- Matrices set side by side, read at `(n, j)`: column `p` of piece `k`, where `j = pre + p` and `pre` is the
    number of columns of the pieces before `k`. -/
theorem sideBySide_at {N K W : ℕ} (xs : List ((s : Shape) × (s.Idx → α)))
    (h : Shape.Concatenates (xs.map (·.1)) ⟨2, ![N, K]⟩ (1 : Fin 2)) (n : Fin N) (j : Fin K)
    (k : ℕ) (x₁ : (⟨2, ![N, W]⟩ : Shape).Idx → α) (hxk : xs[k]? = some ⟨⟨2, ![N, W]⟩, x₁⟩)
    (pre : ℕ) (hpre : (extents (t := ⟨2, ![N, K]⟩) (1 : Fin 2) ((xs.take k).map (·.1))).sum = pre)
    (p : Fin W) (hj : pre + p.val = j.val) :
    concatenate ⟨2, ![N, K]⟩ (1 : Fin 2) xs h (ix2 n j) = x₁ (ix2 n p) := by
  obtain ⟨hk, hxk'⟩ := List.getElem?_eq_some_iff.mp hxk
  exact concatenate_apply_piece (t := ⟨2, ![N, K]⟩) (1 : Fin 2) xs h (ix2 n j) k hk ⟨2, ![N, W]⟩ x₁ hxk' rfl pre hpre (ix2 n p)
    (fun b hb => by
      match b with
      | ⟨0, _⟩ => rfl
      | ⟨1, _⟩ => exact absurd rfl hb) hj

/-- Rows [1, N] stacked into [R, N]: row `j` of the stack is the `j`-th piece. The piece is found by walking the
    list to position `j`; that the `j` pieces before it are one row each is a sum over the prefix. -/
theorem stackedRows_at {R N : ℕ} (xs : List ((s : Shape) × (s.Idx → α)))
    (h : Shape.Concatenates (xs.map (·.1)) ⟨2, ![R, N]⟩ (0 : Fin 2)) (j : Fin R) (r : Fin N)
    (x₁ : (⟨2, ![1, N]⟩ : Shape).Idx → α) (hxk : xs[j.val]? = some ⟨⟨2, ![1, N]⟩, x₁⟩)
    (hpre : (extents (t := ⟨2, ![R, N]⟩) (0 : Fin 2) ((xs.take j.val).map (·.1))).sum = j.val) :
    concatenate ⟨2, ![R, N]⟩ (0 : Fin 2) xs h (ix2 j r) = x₁ (ix2 0 r) :=
  stacked_at xs h j r j.val x₁ hxk j.val hpre 0 rfl

/-- Columns [N, 1] set side by side into [N, K]: column `j` of the result is the `j`-th piece. -/
theorem columns_at {N K : ℕ} (xs : List ((s : Shape) × (s.Idx → α)))
    (h : Shape.Concatenates (xs.map (·.1)) ⟨2, ![N, K]⟩ (1 : Fin 2)) (n : Fin N) (j : Fin K)
    (x₁ : (⟨2, ![N, 1]⟩ : Shape).Idx → α) (hxk : xs[j.val]? = some ⟨⟨2, ![N, 1]⟩, x₁⟩)
    (hpre : (extents (t := ⟨2, ![N, K]⟩) (1 : Fin 2) ((xs.take j.val).map (·.1))).sum = j.val) :
    concatenate ⟨2, ![N, K]⟩ (1 : Fin 2) xs h (ix2 n j) = x₁ (ix2 n 0) :=
  sideBySide_at xs h n j j.val x₁ hxk j.val hpre 0 rfl

end Cert.LibConcatAt
-- ==== Proof.LibColumnVec.lean ====
import Idealize.ShloMosaic.Lib.ValueIdx
import Idealize.ShloMosaic.Lib.Pipeline.Value
import Idealize.ShloMosaic.Lib.ValueLayout

/-!
# A vector set as a column, a column read as a vector, one column cut out of a matrix

Four re-layings of `N` numbers, each read at an index written by its coordinates:

* a vector [N] laid out as a column [N, 1] (a `broadcast_in_dim` along axis 0): entry `(n, 0)` is entry `n`;
* a vector [N] laid out as a row [1, N] (a `broadcast_in_dim` along axis 1): entry `(0, n)` is entry `n`;
* a column [N, 1] recast to a vector [N]: entry `n` is entry `(n, 0)`;
* column `k` cut out of a matrix [N, C] as a column [N, 1]: entry `(n, 0)` is entry `(n, k)`.

Nothing here depends on what the entries are.
-/

namespace Cert.LibColumnVec

open Idealize.ShloMosaic Idealize.ShloMosaic.ValueIdx

variable {α : Type}

/-- A vector laid out as a column. -/
theorem columnOfVector_at {N : ℕ} (v : (⟨1, ![N]⟩ : Shape).Idx → α)
    (h : (⟨1, ![N]⟩ : Shape).BroadcastsInDim ⟨2, ![N, 1]⟩ (![0] : Fin 1 → Fin 2)) (n : Fin N) :
    broadcastInDim ⟨2, ![N, 1]⟩ (![0] : Fin 1 → Fin 2) h v (ix2 n 0) = v (ix1 n) :=
  broadcastInDim_apply _ h v (ix2 n 0) (ix1 n) (fun a => by
    match a with
    | ⟨0, _⟩ =>
      show n.val = if N = 1 then 0 else n.val
      by_cases hN : N = 1
      · rw [if_pos hN]; have := n.isLt; omega
      · rw [if_neg hN])

/-- A vector laid out as a row. -/
theorem rowOfVector_at {N : ℕ} (v : (⟨1, ![N]⟩ : Shape).Idx → α)
    (h : (⟨1, ![N]⟩ : Shape).BroadcastsInDim ⟨2, ![1, N]⟩ (![1] : Fin 1 → Fin 2)) (n : Fin N) :
    broadcastInDim ⟨2, ![1, N]⟩ (![1] : Fin 1 → Fin 2) h v (ix2 0 n) = v (ix1 n) :=
  broadcastInDim_apply _ h v (ix2 0 n) (ix1 n) (fun a => by
    match a with
    | ⟨0, _⟩ =>
      show n.val = if N = 1 then 0 else n.val
      by_cases hN : N = 1
      · rw [if_pos hN]; have := n.isLt; omega
      · rw [if_neg hN])

/-- A column recast to a vector: the same numbers in the same order. -/
theorem vectorOfColumn_at {N : ℕ} (A : (⟨2, ![N, 1]⟩ : Shape).Idx → α)
    (h : (⟨2, ![N, 1]⟩ : Shape).ShapeCasts ⟨1, ![N]⟩) (n : Fin N) :
    shapeCast ⟨1, ![N]⟩ A h (ix1 n) = A (ix2 n 0) :=
  shapeCast_apply A h (ix1 n) (ix2 n 0) (by
    rw [Shape.rowMajor_val_two, Shape.rowMajor_val_one]
    show n.val * 1 + 0 = n.val
    omega)

/-- Column `k` of a matrix, cut out as a column. -/
theorem columnOfMatrix_at {N C : ℕ} (k : ℕ) (A : (⟨2, ![N, C]⟩ : Shape).Idx → α)
    (h : (⟨2, ![N, C]⟩ : Shape).Slices ![0, k] ⟨2, ![N, 1]⟩) (n : Fin N) :
    extractStridedSlice ⟨2, ![N, 1]⟩ ![0, k] A h (ix2 n 0)
      = A (ix2 n ⟨k, by have := h.2 1; simpa using this⟩) :=
  slice2_axis1_apply k A h n 0 _ (by simp)

end Cert.LibColumnVec
-- ==== Proof.ColumnsBase.lean ====
import proofs.«160392_j91122026152643_2_alg».proof.Proof.RowsAt
import proofs.«160392_j91122026152643_2_alg».proof.Proof.LibConcatAt
import proofs.«160392_j91122026152643_2_alg».proof.Proof.LibColumnVec
import proofs.«160392_j91122026152643_2_alg».proof.Proof.Gen.ReferenceIdeal.Run

/-!
# The two programs, column by column: the common steps

Both programs compute, for each row `n` of the input, the same 101 numbers by the same arithmetic in the same order: the
angles `φ = (lon + 180)·(π/180)` and `θ = (lat + 90)·(π/180)` (the same f32 pattern of `π/180`), `x = cos θ`, `s = sin θ`,
the associated Legendre values by the three-term recurrence (`P_m^m` from `P_{m-1}^{m-1}` by `·(−(2m−1))·s`,
`P_{m+1}^m = x·(2m+1)·P_m^m`, `P_l^m = ((2l−1)·x·P_{l−1}^m − (l+m−1)·P_{l−2}^m)/(l−m)`), and column `l² + l + m` as the
pattern of `√2·K_l^{|m|}` times `cos(mφ)` or `sin(|m|φ)` times `P_l^{|m|}` (the pattern of `K_l^0` times `P_l^0` for `m = 0`), the last
column the time stamp. The kernel does it on a [1, 16000] row per quantity and stacks the 101 rows; the reference on
[2000000] vectors and sets the 101 columns side by side, sixteen at a time. Entry by entry every operation is the same
exact operation on the extended reals, so the two results are the same expression of the row's three numbers: no law of
arithmetic is needed beyond reading each side at an entry, and no finiteness. The one place where the texts differ is the
angle `m·φ`: the kernel multiplies the row `φ` by the column of integers `1 … 9` (converted exactly), the reference by the
f32 literal `m`; these are the same number (RowsAt).

This file has what every column needs: the reference's two angle vectors read at an entry, its result as a function of
the contents its run starts from, and the steps that compare one row of the kernel's stack with one column of a group
(`same_entry`): find the row and the column in their lists, open both down to the three numbers of the input row, and
see that the two expressions are one.
-/

set_option maxRecDepth 16384

noncomputable section

namespace Cert.Columns

open Cert.KernelIdeal Cert.KernelIdeal.Gen Cert.KernelIdeal.Rows Cert.LibColumnVec
open Idealize.ShloMosaic Idealize.ShloMosaic.TcCoe Idealize.ShloMosaic.ValueIdx Idealize.ShloMosaic.Tactic
open Idealize.SL.Sem

theorem hostCos_at {s : Shape} (x : FVec Ideal s .f32) (i : s.Idx) : Host.cos x i = Ideal.cos (x i) := rfl
theorem hostSin_at {s : Shape} (x : FVec Ideal s .f32) (i : s.Idx) : Host.sin x i = Ideal.sin (x i) := rfl
theorem hostDivf_at {s : Shape} (a b : FVec Ideal s .f32) (i : s.Idx) : Host.divf a b i = Ideal.div (a i) (b i) := rfl

/-- The reference's result as a function of the contents its run starts from. -/
def refOut (V0 : Valuation Cert.ReferenceIdeal.τ Cert.ReferenceIdeal.sig (Elt Ideal)) :
    Cert.ReferenceIdeal.S2000000x101.Idx → EReal :=
  Cert.ReferenceIdeal.Value.val23 V0 (Proc.devRef .tc Cert.ReferenceIdeal.main_v1026)

/-- The argument array among the contents the reference's run starts from. -/
def argOf (V0 : Valuation Cert.ReferenceIdeal.τ Cert.ReferenceIdeal.sig (Elt Ideal)) : (⟨2, ![2000000, 3]⟩ : Shape).Idx → EReal :=
  V0 (Proc.devRef .tc Cert.ReferenceIdeal.main_arg0)

/-- The reference's `φ` at row `n`: the longitude plus 180, times the pattern of π/180. -/
theorem refPhi_at (V0 : Valuation Cert.ReferenceIdeal.τ Cert.ReferenceIdeal.sig (Elt Ideal)) (n : Fin 2000000) :
    Cert.ReferenceIdeal.Value.res_main_v7 V0 (ix1 n)
      = (argOf V0 (ix2 n ⟨0, by decide⟩) + Ideal.ofBits .f32 0x43340000#32)
          * Ideal.ofBits .f32 0x3C8EFA35#32 := by
  unfold Cert.ReferenceIdeal.Value.res_main_v7
  simp only [mulf_apply, addf_apply, broadcastInDim, constant, Ideal.ofBits_def]
  erw [vectorOfColumn_at, columnOfMatrix_at]
  rfl

/-- The reference's `θ` at row `n`: the latitude plus 90, times the pattern of π/180. -/
theorem refTheta_at (V0 : Valuation Cert.ReferenceIdeal.τ Cert.ReferenceIdeal.sig (Elt Ideal)) (n : Fin 2000000) :
    Cert.ReferenceIdeal.Value.res_main_v11 V0 (ix1 n)
      = (argOf V0 (ix2 n ⟨1, by decide⟩) + Ideal.ofBits .f32 0x42B40000#32)
          * Ideal.ofBits .f32 0x3C8EFA35#32 := by
  unfold Cert.ReferenceIdeal.Value.res_main_v11
  simp only [mulf_apply, addf_apply, broadcastInDim, constant, Ideal.ofBits_def]
  erw [vectorOfColumn_at, columnOfMatrix_at]
  rfl

/-- Both sides opened down to the entries of the input: every payload of the kernel's rows and every named intermediate
    of the reference (except its two angle vectors, read by the lemmas above) by its definition, every operation at the
    entry. -/
macro "open_entries" : tactic => `(tactic|
  simp only [k0_pay1, k0_pay2, k0_pay3, k0_pay4, k0_pay5, k0_pay6, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182,
      Cert.ReferenceIdeal.Value.res_main_v12, Cert.ReferenceIdeal.Value.res_main_v13, Cert.ReferenceIdeal.Value.res_main_v14, Cert.ReferenceIdeal.Value.res_main_v17, Cert.ReferenceIdeal.Value.res_main_v25, Cert.ReferenceIdeal.Value.res_main_v33, Cert.ReferenceIdeal.Value.res_main_v41, Cert.ReferenceIdeal.Value.res_main_v49, Cert.ReferenceIdeal.Value.res_main_v57, Cert.ReferenceIdeal.Value.res_main_v65, Cert.ReferenceIdeal.Value.res_main_v73, Cert.ReferenceIdeal.Value.res_main_v84, Cert.ReferenceIdeal.Value.res_main_v87, Cert.ReferenceIdeal.Value.res_main_v95, Cert.ReferenceIdeal.Value.res_main_v103, Cert.ReferenceIdeal.Value.res_main_v111, Cert.ReferenceIdeal.Value.res_main_v119, Cert.ReferenceIdeal.Value.res_main_v127, Cert.ReferenceIdeal.Value.res_main_v135, Cert.ReferenceIdeal.Value.res_main_v143, Cert.ReferenceIdeal.Value.res_main_v146, Cert.ReferenceIdeal.Value.res_main_v149, Cert.ReferenceIdeal.Value.res_main_v157, Cert.ReferenceIdeal.Value.res_main_v165, Cert.ReferenceIdeal.Value.res_main_v173, Cert.ReferenceIdeal.Value.res_main_v181, Cert.ReferenceIdeal.Value.res_main_v189, Cert.ReferenceIdeal.Value.res_main_v197, Cert.ReferenceIdeal.Value.res_main_v200, Cert.ReferenceIdeal.Value.res_main_v203, Cert.ReferenceIdeal.Value.res_main_v211, Cert.ReferenceIdeal.Value.res_main_v219, Cert.ReferenceIdeal.Value.res_main_v227, Cert.ReferenceIdeal.Value.res_main_v235, Cert.ReferenceIdeal.Value.res_main_v243, Cert.ReferenceIdeal.Value.res_main_v246, Cert.ReferenceIdeal.Value.res_main_v249, Cert.ReferenceIdeal.Value.res_main_v257, Cert.ReferenceIdeal.Value.res_main_v265, Cert.ReferenceIdeal.Value.res_main_v273, Cert.ReferenceIdeal.Value.res_main_v281, Cert.ReferenceIdeal.Value.res_main_v284, Cert.ReferenceIdeal.Value.res_main_v287, Cert.ReferenceIdeal.Value.res_main_v295, Cert.ReferenceIdeal.Value.res_main_v303, Cert.ReferenceIdeal.Value.res_main_v311, Cert.ReferenceIdeal.Value.res_main_v314, Cert.ReferenceIdeal.Value.res_main_v317, Cert.ReferenceIdeal.Value.res_main_v325, Cert.ReferenceIdeal.Value.res_main_v333, Cert.ReferenceIdeal.Value.res_main_v336, Cert.ReferenceIdeal.Value.res_main_v339, Cert.ReferenceIdeal.Value.res_main_v347, Cert.ReferenceIdeal.Value.res_main_v350, Cert.ReferenceIdeal.Value.res_main_v353, Cert.ReferenceIdeal.Value.res_main_v356,
      refPhi_at, refTheta_at, cosRow_at, sinRow_at, shapeCast_self, mulf_apply, addf_apply, subf_apply, divf_apply, broadcast_apply,
      cos_at, sin_at, Scalar.ofBits, Ideal.ofBits_def, multPat,
      hostCos_at, hostSin_at, hostDivf_at, broadcastInDim, constant])

/-- One row of the stack against one column of a group, at row `r` of the block and row `n` of the arrays: the goal is
    `stack (j, r) = group (n, p)` with `j` and `p` literals. -/
macro "same_entry" arg1:term:max harg1:term:max x0:term:max r:term:max hx:term:max : tactic => `(tactic| (
    refine Eq.trans (LibConcatAt.stackedRows_at _ _ _ _ ?_ ?hk ?hp) ?_
    case hk => exact rfl
    case hp => simp [LibConcatAt.extents]
    symm
    refine Eq.trans (LibConcatAt.columns_at _ _ _ _ ?_ ?hk ?hp) ?_
    case hk => exact rfl
    case hp => simp [LibConcatAt.extents]
    rw [columnOfVector_at]
    sl_unfold_run_names
    sl_unfold_run_names
    sl_unfold_run_names
    open_entries
    try rw [load_row $arg1 $harg1 $x0 0 inb_S3x16000_S1x16000_0_0 $r]
    try rw [load_row $arg1 $harg1 $x0 1 inb_S3x16000_S1x16000_1_0 $r]
    try simp only [$hx:term]
    try rfl))

end Cert.Columns

end
-- ==== Proof.Columns0.lean ====
import proofs.«160392_j91122026152643_2_alg».proof.Proof.ColumnsBase

/-! Columns 0 … 15 of the result: rows 0 … 15 of the kernel's stack against the reference's group 0 of sixteen. -/

set_option maxRecDepth 16384

noncomputable section

namespace Cert.Columns

open Cert.KernelIdeal Cert.KernelIdeal.Gen Cert.KernelIdeal.Rows Cert.LibColumnVec
open Idealize.ShloMosaic Idealize.ShloMosaic.TcCoe Idealize.ShloMosaic.ValueIdx Idealize.ShloMosaic.Tactic
open Idealize.SL.Sem

set_option maxHeartbeats 4000000 in
theorem columns_0 (c : Dev nD) (arg1 : Memref sig .tc .vmem S3x16000 .f32) (harg1 : arg1.IsWhole) (x0 : Vec Ideal S3x16000 .f32)
    (V0 : Valuation Cert.ReferenceIdeal.τ Cert.ReferenceIdeal.sig (Elt Ideal)) (r : Fin 16000) (n : Fin 2000000)
    (hx : ∀ (k : ℕ) (hk : k < 3), x0 (ix2 ⟨k, hk⟩ r) = argOf V0 (ix2 n ⟨k, hk⟩))
    (p : Fin 16) :
    bodyRun.sl.v748 (F := Ideal) c arg1 harg1 x0 (ix2 ⟨0 + p.val, by omega⟩ r)
      = refOut V0 (ix2 n ⟨0 + p.val, by omega⟩) := by
  unfold refOut
  rw [Cert.ReferenceIdeal.Value.val23_main_v1026]
  refine Eq.trans ?_ (LibConcatAt.sideBySide_at _ _ n _ 0 _ rfl 0 rfl (⟨0 + p.val, by omega⟩ : Fin 100) (by simp)).symm
  refine Eq.trans ?_ (LibConcatAt.sideBySide_at _ _ n _ 0 _ rfl 0 (by simp [LibConcatAt.extents]) p rfl).symm
  unfold Cert.ReferenceIdeal.Value.res_main_v1017
  unfold bodyRun.sl.v748
  obtain ⟨p, hp⟩ := p
  interval_cases p
  all_goals same_entry arg1 harg1 x0 r hx

end Cert.Columns

end
-- ==== Proof.Columns1.lean ====
import proofs.«160392_j91122026152643_2_alg».proof.Proof.ColumnsBase

/-! Columns 16 … 31 of the result: rows 16 … 31 of the kernel's stack against the reference's group 1 of sixteen. -/

set_option maxRecDepth 16384

noncomputable section

namespace Cert.Columns

open Cert.KernelIdeal Cert.KernelIdeal.Gen Cert.KernelIdeal.Rows Cert.LibColumnVec
open Idealize.ShloMosaic Idealize.ShloMosaic.TcCoe Idealize.ShloMosaic.ValueIdx Idealize.ShloMosaic.Tactic
open Idealize.SL.Sem

set_option maxHeartbeats 4000000 in
theorem columns_1 (c : Dev nD) (arg1 : Memref sig .tc .vmem S3x16000 .f32) (harg1 : arg1.IsWhole) (x0 : Vec Ideal S3x16000 .f32)
    (V0 : Valuation Cert.ReferenceIdeal.τ Cert.ReferenceIdeal.sig (Elt Ideal)) (r : Fin 16000) (n : Fin 2000000)
    (hx : ∀ (k : ℕ) (hk : k < 3), x0 (ix2 ⟨k, hk⟩ r) = argOf V0 (ix2 n ⟨k, hk⟩))
    (p : Fin 16) :
    bodyRun.sl.v748 (F := Ideal) c arg1 harg1 x0 (ix2 ⟨16 + p.val, by omega⟩ r)
      = refOut V0 (ix2 n ⟨16 + p.val, by omega⟩) := by
  unfold refOut
  rw [Cert.ReferenceIdeal.Value.val23_main_v1026]
  refine Eq.trans ?_ (LibConcatAt.sideBySide_at _ _ n _ 0 _ rfl 0 rfl (⟨16 + p.val, by omega⟩ : Fin 100) (by simp)).symm
  refine Eq.trans ?_ (LibConcatAt.sideBySide_at _ _ n _ 1 _ rfl 16 (by simp [LibConcatAt.extents]) p rfl).symm
  unfold Cert.ReferenceIdeal.Value.res_main_v1018
  unfold bodyRun.sl.v748
  obtain ⟨p, hp⟩ := p
  interval_cases p
  all_goals same_entry arg1 harg1 x0 r hx

end Cert.Columns

end
-- ==== Proof.Columns2.lean ====
import proofs.«160392_j91122026152643_2_alg».proof.Proof.ColumnsBase

/-! Columns 32 … 47 of the result: rows 32 … 47 of the kernel's stack against the reference's group 2 of sixteen. -/

set_option maxRecDepth 16384

noncomputable section

namespace Cert.Columns

open Cert.KernelIdeal Cert.KernelIdeal.Gen Cert.KernelIdeal.Rows Cert.LibColumnVec
open Idealize.ShloMosaic Idealize.ShloMosaic.TcCoe Idealize.ShloMosaic.ValueIdx Idealize.ShloMosaic.Tactic
open Idealize.SL.Sem

set_option maxHeartbeats 4000000 in
theorem columns_2 (c : Dev nD) (arg1 : Memref sig .tc .vmem S3x16000 .f32) (harg1 : arg1.IsWhole) (x0 : Vec Ideal S3x16000 .f32)
    (V0 : Valuation Cert.ReferenceIdeal.τ Cert.ReferenceIdeal.sig (Elt Ideal)) (r : Fin 16000) (n : Fin 2000000)
    (hx : ∀ (k : ℕ) (hk : k < 3), x0 (ix2 ⟨k, hk⟩ r) = argOf V0 (ix2 n ⟨k, hk⟩))
    (p : Fin 16) :
    bodyRun.sl.v748 (F := Ideal) c arg1 harg1 x0 (ix2 ⟨32 + p.val, by omega⟩ r)
      = refOut V0 (ix2 n ⟨32 + p.val, by omega⟩) := by
  unfold refOut
  rw [Cert.ReferenceIdeal.Value.val23_main_v1026]
  refine Eq.trans ?_ (LibConcatAt.sideBySide_at _ _ n _ 0 _ rfl 0 rfl (⟨32 + p.val, by omega⟩ : Fin 100) (by simp)).symm
  refine Eq.trans ?_ (LibConcatAt.sideBySide_at _ _ n _ 2 _ rfl 32 (by simp [LibConcatAt.extents]) p rfl).symm
  unfold Cert.ReferenceIdeal.Value.res_main_v1019
  unfold bodyRun.sl.v748
  obtain ⟨p, hp⟩ := p
  interval_cases p
  all_goals same_entry arg1 harg1 x0 r hx

end Cert.Columns

end
-- ==== Proof.Columns3.lean ====
import proofs.«160392_j91122026152643_2_alg».proof.Proof.ColumnsBase

/-! Columns 48 … 63 of the result: rows 48 … 63 of the kernel's stack against the reference's group 3 of sixteen. -/

set_option maxRecDepth 16384

noncomputable section

namespace Cert.Columns

open Cert.KernelIdeal Cert.KernelIdeal.Gen Cert.KernelIdeal.Rows Cert.LibColumnVec
open Idealize.ShloMosaic Idealize.ShloMosaic.TcCoe Idealize.ShloMosaic.ValueIdx Idealize.ShloMosaic.Tactic
open Idealize.SL.Sem

set_option maxHeartbeats 4000000 in
theorem columns_3 (c : Dev nD) (arg1 : Memref sig .tc .vmem S3x16000 .f32) (harg1 : arg1.IsWhole) (x0 : Vec Ideal S3x16000 .f32)
    (V0 : Valuation Cert.ReferenceIdeal.τ Cert.ReferenceIdeal.sig (Elt Ideal)) (r : Fin 16000) (n : Fin 2000000)
    (hx : ∀ (k : ℕ) (hk : k < 3), x0 (ix2 ⟨k, hk⟩ r) = argOf V0 (ix2 n ⟨k, hk⟩))
    (p : Fin 16) :
    bodyRun.sl.v748 (F := Ideal) c arg1 harg1 x0 (ix2 ⟨48 + p.val, by omega⟩ r)
      = refOut V0 (ix2 n ⟨48 + p.val, by omega⟩) := by
  unfold refOut
  rw [Cert.ReferenceIdeal.Value.val23_main_v1026]
  refine Eq.trans ?_ (LibConcatAt.sideBySide_at _ _ n _ 0 _ rfl 0 rfl (⟨48 + p.val, by omega⟩ : Fin 100) (by simp)).symm
  refine Eq.trans ?_ (LibConcatAt.sideBySide_at _ _ n _ 3 _ rfl 48 (by simp [LibConcatAt.extents]) p rfl).symm
  unfold Cert.ReferenceIdeal.Value.res_main_v1020
  unfold bodyRun.sl.v748
  obtain ⟨p, hp⟩ := p
  interval_cases p
  all_goals same_entry arg1 harg1 x0 r hx

end Cert.Columns

end
-- ==== Proof.Columns4.lean ====
import proofs.«160392_j91122026152643_2_alg».proof.Proof.ColumnsBase

/-! Columns 64 … 79 of the result: rows 64 … 79 of the kernel's stack against the reference's group 4 of sixteen. -/

set_option maxRecDepth 16384

noncomputable section

namespace Cert.Columns

open Cert.KernelIdeal Cert.KernelIdeal.Gen Cert.KernelIdeal.Rows Cert.LibColumnVec
open Idealize.ShloMosaic Idealize.ShloMosaic.TcCoe Idealize.ShloMosaic.ValueIdx Idealize.ShloMosaic.Tactic
open Idealize.SL.Sem

set_option maxHeartbeats 4000000 in
theorem columns_4 (c : Dev nD) (arg1 : Memref sig .tc .vmem S3x16000 .f32) (harg1 : arg1.IsWhole) (x0 : Vec Ideal S3x16000 .f32)
    (V0 : Valuation Cert.ReferenceIdeal.τ Cert.ReferenceIdeal.sig (Elt Ideal)) (r : Fin 16000) (n : Fin 2000000)
    (hx : ∀ (k : ℕ) (hk : k < 3), x0 (ix2 ⟨k, hk⟩ r) = argOf V0 (ix2 n ⟨k, hk⟩))
    (p : Fin 16) :
    bodyRun.sl.v748 (F := Ideal) c arg1 harg1 x0 (ix2 ⟨64 + p.val, by omega⟩ r)
      = refOut V0 (ix2 n ⟨64 + p.val, by omega⟩) := by
  unfold refOut
  rw [Cert.ReferenceIdeal.Value.val23_main_v1026]
  refine Eq.trans ?_ (LibConcatAt.sideBySide_at _ _ n _ 0 _ rfl 0 rfl (⟨64 + p.val, by omega⟩ : Fin 100) (by simp)).symm
  refine Eq.trans ?_ (LibConcatAt.sideBySide_at _ _ n _ 4 _ rfl 64 (by simp [LibConcatAt.extents]) p rfl).symm
  unfold Cert.ReferenceIdeal.Value.res_main_v1021
  unfold bodyRun.sl.v748
  obtain ⟨p, hp⟩ := p
  interval_cases p
  all_goals same_entry arg1 harg1 x0 r hx

end Cert.Columns

end
-- ==== Proof.Columns5.lean ====
import proofs.«160392_j91122026152643_2_alg».proof.Proof.ColumnsBase

/-! Columns 80 … 95 of the result: rows 80 … 95 of the kernel's stack against the reference's group 5 of sixteen. -/

set_option maxRecDepth 16384

noncomputable section

namespace Cert.Columns

open Cert.KernelIdeal Cert.KernelIdeal.Gen Cert.KernelIdeal.Rows Cert.LibColumnVec
open Idealize.ShloMosaic Idealize.ShloMosaic.TcCoe Idealize.ShloMosaic.ValueIdx Idealize.ShloMosaic.Tactic
open Idealize.SL.Sem

set_option maxHeartbeats 4000000 in
theorem columns_5 (c : Dev nD) (arg1 : Memref sig .tc .vmem S3x16000 .f32) (harg1 : arg1.IsWhole) (x0 : Vec Ideal S3x16000 .f32)
    (V0 : Valuation Cert.ReferenceIdeal.τ Cert.ReferenceIdeal.sig (Elt Ideal)) (r : Fin 16000) (n : Fin 2000000)
    (hx : ∀ (k : ℕ) (hk : k < 3), x0 (ix2 ⟨k, hk⟩ r) = argOf V0 (ix2 n ⟨k, hk⟩))
    (p : Fin 16) :
    bodyRun.sl.v748 (F := Ideal) c arg1 harg1 x0 (ix2 ⟨80 + p.val, by omega⟩ r)
      = refOut V0 (ix2 n ⟨80 + p.val, by omega⟩) := by
  unfold refOut
  rw [Cert.ReferenceIdeal.Value.val23_main_v1026]
  refine Eq.trans ?_ (LibConcatAt.sideBySide_at _ _ n _ 0 _ rfl 0 rfl (⟨80 + p.val, by omega⟩ : Fin 100) (by simp)).symm
  refine Eq.trans ?_ (LibConcatAt.sideBySide_at _ _ n _ 5 _ rfl 80 (by simp [LibConcatAt.extents]) p rfl).symm
  unfold Cert.ReferenceIdeal.Value.res_main_v1022
  unfold bodyRun.sl.v748
  obtain ⟨p, hp⟩ := p
  interval_cases p
  all_goals same_entry arg1 harg1 x0 r hx

end Cert.Columns

end
-- ==== Proof.Columns6.lean ====
import proofs.«160392_j91122026152643_2_alg».proof.Proof.ColumnsBase

/-! Columns 96 … 99 of the result (the reference's last, short group of four) and column 100, the time stamp. -/

set_option maxRecDepth 16384

noncomputable section

namespace Cert.Columns

open Cert.KernelIdeal Cert.KernelIdeal.Gen Cert.KernelIdeal.Rows Cert.LibColumnVec
open Idealize.ShloMosaic Idealize.ShloMosaic.TcCoe Idealize.ShloMosaic.ValueIdx Idealize.ShloMosaic.Tactic
open Idealize.SL.Sem

set_option maxHeartbeats 4000000 in
theorem columns_6 (c : Dev nD) (arg1 : Memref sig .tc .vmem S3x16000 .f32) (harg1 : arg1.IsWhole) (x0 : Vec Ideal S3x16000 .f32)
    (V0 : Valuation Cert.ReferenceIdeal.τ Cert.ReferenceIdeal.sig (Elt Ideal)) (r : Fin 16000) (n : Fin 2000000)
    (hx : ∀ (k : ℕ) (hk : k < 3), x0 (ix2 ⟨k, hk⟩ r) = argOf V0 (ix2 n ⟨k, hk⟩))
    (p : Fin 4) :
    bodyRun.sl.v748 (F := Ideal) c arg1 harg1 x0 (ix2 ⟨96 + p.val, by omega⟩ r)
      = refOut V0 (ix2 n ⟨96 + p.val, by omega⟩) := by
  unfold refOut
  rw [Cert.ReferenceIdeal.Value.val23_main_v1026]
  refine Eq.trans ?_ (LibConcatAt.sideBySide_at _ _ n _ 0 _ rfl 0 rfl (⟨96 + p.val, by omega⟩ : Fin 100) (by simp)).symm
  refine Eq.trans ?_ (LibConcatAt.sideBySide_at _ _ n _ 6 _ rfl 96 (by simp [LibConcatAt.extents]) p rfl).symm
  unfold bodyRun.sl.v748
  obtain ⟨p, hp⟩ := p
  interval_cases p
  all_goals same_entry arg1 harg1 x0 r hx

set_option maxHeartbeats 4000000 in
/-- The last column is the time stamp, carried through unchanged by both programs. -/
theorem column_time (c : Dev nD) (arg1 : Memref sig .tc .vmem S3x16000 .f32) (harg1 : arg1.IsWhole) (x0 : Vec Ideal S3x16000 .f32)
    (V0 : Valuation Cert.ReferenceIdeal.τ Cert.ReferenceIdeal.sig (Elt Ideal)) (r : Fin 16000) (n : Fin 2000000)
    (hx : ∀ (k : ℕ) (hk : k < 3), x0 (ix2 ⟨k, hk⟩ r) = argOf V0 (ix2 n ⟨k, hk⟩)) :
    bodyRun.sl.v748 (F := Ideal) c arg1 harg1 x0 (ix2 ⟨100, by decide⟩ r) = refOut V0 (ix2 n ⟨100, by decide⟩) := by
  unfold refOut
  rw [Cert.ReferenceIdeal.Value.val23_main_v1026]
  refine Eq.trans ?_ (LibConcatAt.sideBySide_at _ _ n _ 1 _ rfl 100 (by simp [LibConcatAt.extents]) (0 : Fin 1) rfl).symm
  unfold bodyRun.sl.v748
  refine Eq.trans (LibConcatAt.stackedRows_at _ _ _ _ ?_ ?hk ?hp) ?_
  case hk => exact rfl
  case hp => simp [LibConcatAt.extents]
  sl_unfold_run_names
  sl_unfold_run_names
  simp only [k0_pay8, shapeCast_self]
  rw [load_row arg1 harg1 x0 2 inb_S3x16000_S1x16000_2_0 r, hx 2 (by decide)]
  symm
  erw [columnOfMatrix_at]
  rfl

end Cert.Columns

end
-- ==== Proof.ColumnsAll.lean ====
import proofs.«160392_j91122026152643_2_alg».proof.Proof.Columns0
import proofs.«160392_j91122026152643_2_alg».proof.Proof.Columns1
import proofs.«160392_j91122026152643_2_alg».proof.Proof.Columns2
import proofs.«160392_j91122026152643_2_alg».proof.Proof.Columns3
import proofs.«160392_j91122026152643_2_alg».proof.Proof.Columns4
import proofs.«160392_j91122026152643_2_alg».proof.Proof.Columns5
import proofs.«160392_j91122026152643_2_alg».proof.Proof.Columns6

/-! Every column: row `j` of the kernel's stack at column `r` is entry `(n, j)` of the reference's result, whenever row `r` of
    the input block is row `n` of the argument. -/

noncomputable section

namespace Cert.Columns

open Cert.KernelIdeal Cert.KernelIdeal.Gen Cert.KernelIdeal.Rows
open Idealize.ShloMosaic Idealize.ShloMosaic.TcCoe Idealize.ShloMosaic.ValueIdx
open Idealize.SL.Sem

theorem allColumns (c : Dev nD) (arg1 : Memref sig .tc .vmem S3x16000 .f32) (harg1 : arg1.IsWhole) (x0 : Vec Ideal S3x16000 .f32)
    (V0 : Valuation Cert.ReferenceIdeal.τ Cert.ReferenceIdeal.sig (Elt Ideal)) (r : Fin 16000) (n : Fin 2000000)
    (hx : ∀ (k : ℕ) (hk : k < 3), x0 (ix2 ⟨k, hk⟩ r) = argOf V0 (ix2 n ⟨k, hk⟩)) (j : Fin 101) :
    bodyRun.sl.v748 (F := Ideal) c arg1 harg1 x0 (ix2 j r) = refOut V0 (ix2 n j) := by
  obtain ⟨j, hj⟩ := j
  by_cases h0 : j < 16
  · have e : (⟨j, hj⟩ : Fin 101) = ⟨0 + (⟨j - 0, by omega⟩ : Fin 16).val, by show 0 + (j - 0) < 101; omega⟩ :=
      Fin.ext (by show j = 0 + (j - 0); omega)
    rw [e]
    exact columns_0 c arg1 harg1 x0 V0 r n hx ⟨j - 0, by omega⟩
  by_cases h1 : j < 32
  · have e : (⟨j, hj⟩ : Fin 101) = ⟨16 + (⟨j - 16, by omega⟩ : Fin 16).val, by show 16 + (j - 16) < 101; omega⟩ :=
      Fin.ext (by show j = 16 + (j - 16); omega)
    rw [e]
    exact columns_1 c arg1 harg1 x0 V0 r n hx ⟨j - 16, by omega⟩
  by_cases h2 : j < 48
  · have e : (⟨j, hj⟩ : Fin 101) = ⟨32 + (⟨j - 32, by omega⟩ : Fin 16).val, by show 32 + (j - 32) < 101; omega⟩ :=
      Fin.ext (by show j = 32 + (j - 32); omega)
    rw [e]
    exact columns_2 c arg1 harg1 x0 V0 r n hx ⟨j - 32, by omega⟩
  by_cases h3 : j < 64
  · have e : (⟨j, hj⟩ : Fin 101) = ⟨48 + (⟨j - 48, by omega⟩ : Fin 16).val, by show 48 + (j - 48) < 101; omega⟩ :=
      Fin.ext (by show j = 48 + (j - 48); omega)
    rw [e]
    exact columns_3 c arg1 harg1 x0 V0 r n hx ⟨j - 48, by omega⟩
  by_cases h4 : j < 80
  · have e : (⟨j, hj⟩ : Fin 101) = ⟨64 + (⟨j - 64, by omega⟩ : Fin 16).val, by show 64 + (j - 64) < 101; omega⟩ :=
      Fin.ext (by show j = 64 + (j - 64); omega)
    rw [e]
    exact columns_4 c arg1 harg1 x0 V0 r n hx ⟨j - 64, by omega⟩
  by_cases h5 : j < 96
  · have e : (⟨j, hj⟩ : Fin 101) = ⟨80 + (⟨j - 80, by omega⟩ : Fin 16).val, by show 80 + (j - 80) < 101; omega⟩ :=
      Fin.ext (by show j = 80 + (j - 80); omega)
    rw [e]
    exact columns_5 c arg1 harg1 x0 V0 r n hx ⟨j - 80, by omega⟩
  by_cases h6 : j < 100
  · have e : (⟨j, hj⟩ : Fin 101) = ⟨96 + (⟨j - 96, by omega⟩ : Fin 4).val, by show 96 + (j - 96) < 101; omega⟩ :=
      Fin.ext (by show j = 96 + (j - 96); omega)
    rw [e]
    exact columns_6 c arg1 harg1 x0 V0 r n hx ⟨j - 96, by omega⟩
  · have e : (⟨j, hj⟩ : Fin 101) = ⟨100, by decide⟩ := Fin.ext (by show j = 100; omega)
    rw [e]
    exact column_time c arg1 harg1 x0 V0 r n hx

end Cert.Columns

end
-- ==== Proof.BlocksAt.lean ====
import proofs.«160392_j91122026152643_2_alg».proof.Proof.RowsAt
import proofs.«160392_j91122026152643_2_alg».proof.Proof.LibConcatAt
import proofs.«160392_j91122026152643_2_alg».proof.Proof.LibColumnVec
import Idealize.ShloMosaic.Lib.StableHlo.Run

/-!
# Where the blocks sit

The array the input window stages is the transposed input: its entry `(k, n)` is entry `(n, k)` of the argument
array (the host operations cut column `k` out, recast it to a vector, lay it out as a row and stack the three rows).
Point `t` of the grid is handed columns `16000·t … 16000·t + 15999` of it and writes back rows
`16000·t … 16000·t + 15999` of the result; the 125 output blocks tile the result, so every entry of the result lies
in the block of point `n / 16000`.
-/

set_option maxRecDepth 16384

noncomputable section

namespace Cert.KernelIdeal.Rows

open Cert.KernelIdeal Cert.KernelIdeal.Gen Cert.LibColumnVec
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- The staged array as the host operations leave it: the three columns of the argument, each as a row, stacked. -/
theorem staged_eq (c : Dev nD) :
    (V m c main_v9 : S3x2000000.Idx → EReal)
      = concatenate S3x2000000 0
          [⟨S1x2000000, broadcastInDim S1x2000000 ![1] bcast_S2000000_S1x2000000_1
              (shapeCast S2000000 (extractStridedSlice S2000000x1 ![0, 0] (m ((c : Thread nD τ).loc main_arg0)) slices_S2000000x3_S2000000x1_0_0) shapeCasts_S2000000x1_S2000000)⟩,
           ⟨S1x2000000, broadcastInDim S1x2000000 ![1] bcast_S2000000_S1x2000000_1
              (shapeCast S2000000 (extractStridedSlice S2000000x1 ![0, 1] (m ((c : Thread nD τ).loc main_arg0)) slices_S2000000x3_S2000000x1_0_1) shapeCasts_S2000000x1_S2000000)⟩,
           ⟨S1x2000000, broadcastInDim S1x2000000 ![1] bcast_S2000000_S1x2000000_1
              (shapeCast S2000000 (extractStridedSlice S2000000x1 ![0, 2] (m ((c : Thread nD τ).loc main_arg0)) slices_S2000000x3_S2000000x1_0_2) shapeCasts_S2000000x1_S2000000)⟩]
          concatenates_S1x2000000_S1x2000000_S1x2000000_S3x2000000_d0 := by
  dsimp only [V, hostOps0]
  after_results
  rfl

/-- The staged array is the argument transposed. -/
theorem staged_at (c : Dev nD) (k : ℕ) (hk : k < 3) (n : Fin 2000000) :
    V m c main_v9 (ix2 ⟨k, hk⟩ n) = m ((c : Thread nD τ).loc main_arg0) (ix2 n ⟨k, hk⟩) := by
  rw [staged_eq]
  interval_cases k
  all_goals
    refine (LibConcatAt.stackedRows_at _ _ _ _ _ rfl (by simp [LibConcatAt.extents])).trans ?_
    rw [rowOfVector_at, vectorOfColumn_at, columnOfMatrix_at]

/-- The printed index maps over the grid: the input block of point `t` is block `(0, t)`, its output block `(t, 0)`. -/
theorem index_facts : ∀ t : Fin cfg0.N, win0_0.index t (0 : Fin 2) = 0 ∧ win0_0.index t (1 : Fin 2) = t.val
    ∧ win0_1.index t (0 : Fin 2) = t.val ∧ win0_1.index t (1 : Fin 2) = 0 :=
  (by decide +kernel : ∀ t : Fin grid0.N, _)

theorem point_lt (t : Fin cfg0.N) : t.val < 125 := lt_of_lt_of_eq t.isLt (show cfg0.N = 125 from N_0)

/-- Row `k`, column `r` of the input block of point `t` is entry `(16000·t + r, k)` of the argument. -/
theorem inBlock_at (c : Dev nD) (t : Fin cfg0.N) (k : ℕ) (hk : k < 3) (r : Fin 16000) :
    iblk m c 0 t (ix2 ⟨k, hk⟩ r)
      = m ((c : Thread nD τ).loc main_arg0) (ix2 ⟨16000 * t.val + r.val, by have := point_lt t; have := r.isLt; omega⟩ ⟨k, hk⟩) := by
  rw [← staged_at m c k hk]
  unfold iblk
  show V m c main_v9 (((cfg0.win 0).blk t).view.emb (ix2 ⟨k, hk⟩ r)) = _
  congr 1
  obtain ⟨e0, e1, -, -⟩ := index_facts t
  funext a
  apply Fin.ext
  match a with
  | ⟨0, _⟩ => show win0_0.index t (0 : Fin 2) * 3 + 1 * k = k; omega
  | ⟨1, _⟩ => show win0_0.index t (1 : Fin 2) * 16000 + 1 * r.val = 16000 * t.val + r.val; omega

/-- Entry `(r, j)` of the output block of point `t` sits at entry `(16000·t + r, j)` of the result. -/
theorem outBlock_emb (t : Fin cfg0.N) (r : Fin 16000) (j : Fin 101) :
    ((cfg0.win 1).blk t).view.emb (ix2 r j)
      = ix2 (⟨16000 * t.val + r.val, by have := point_lt t; have := r.isLt; omega⟩ : Fin 2000000) j := by
  obtain ⟨-, -, e2, e3⟩ := index_facts t
  funext a
  apply Fin.ext
  match a with
  | ⟨0, _⟩ => show win0_1.index t (0 : Fin 2) * 16000 + 1 * r.val = 16000 * t.val + r.val; omega
  | ⟨1, _⟩ => show win0_1.index t (1 : Fin 2) * 101 + 1 * j.val = j.val; omega

/-- An entry of the result is in the output block of point `t` iff each coordinate is in the block's range. -/
theorem mem_outBlock (t : Fin cfg0.N) (i : S2000000x101.Idx) :
    i ∈ ((cfg0.win 1).blk t).view.set ↔ ∀ a : Fin 2, win0_1.index t a * S16000x101.size a ≤ (i a).val ∧ (i a).val < win0_1.index t a * S16000x101.size a + S16000x101.size a := by
  show i ∈ ((View.whole main_v10).slice (win0_1.rect t)).set ↔ _
  rw [View.set_slice_whole, Rect.mem_set_unit]
  exact Iff.rfl

/-- The output blocks tile the result: entry `(n, j)` lies in the block of point `n / 16000`. -/
theorem outBlocks_cover (i : S2000000x101.Idx) :
    ∃ t : Fin cfg0.N, (cfg0.win 1).flush t = true ∧ i ∈ ((cfg0.win 1).blk t).view.set := by
  have hi0 : (i 0).val < 2000000 := (i 0).isLt
  have hi1 : (i 1).val < 101 := (i 1).isLt
  have hN : cfg0.N = 125 := N_0
  refine ⟨⟨(i 0).val / 16000, by rw [hN]; omega⟩, flush0_1 _, ?_⟩
  rw [mem_outBlock]
  obtain ⟨-, -, e2, e3⟩ := index_facts ⟨(i 0).val / 16000, by rw [hN]; omega⟩
  intro a
  match a with
  | ⟨0, _⟩ =>
    show win0_1.index _ (0 : Fin 2) * 16000 ≤ (i 0).val ∧ (i 0).val < win0_1.index _ (0 : Fin 2) * 16000 + 16000
    rw [e2]; show (i 0).val / 16000 * 16000 ≤ (i 0).val ∧ (i 0).val < (i 0).val / 16000 * 16000 + 16000
    omega
  | ⟨1, _⟩ =>
    show win0_1.index _ (1 : Fin 2) * 101 ≤ (i 1).val ∧ (i 1).val < win0_1.index _ (1 : Fin 2) * 101 + 101
    rw [e3]; omega

end Cert.KernelIdeal.Rows

end
-- ==== Proof.Bridge.lean ====
import proofs.«160392_j91122026152643_2_alg».proof.Proof.ColumnsAll
import proofs.«160392_j91122026152643_2_alg».proof.Proof.BlocksAt

/-!
# From the blocks to the whole result

Point `t` writes back the block whose entry `(r, j)` is row `j`, column `r` of the stack the body built from the input
block of point `t`, and that input block holds rows `16000·t … 16000·t + 15999` of the argument (transposed). By the
column-by-column comparison, that entry is entry `(16000·t + r, j)` of the reference's result computed from an equal
argument. The 125 blocks tile the result, so after the run the kernel's whole result array is the reference's.
-/

set_option maxRecDepth 16384

noncomputable section

namespace Cert.Bridge

open Cert.KernelIdeal Cert.KernelIdeal.Gen Cert.KernelIdeal.Rows Cert.Columns
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- What point `t` writes back is block `t` of the reference's result. -/
theorem flushed_eq (c : Dev nD) (V0 : Valuation Cert.ReferenceIdeal.τ Cert.ReferenceIdeal.sig (Elt Ideal))
    (hA : V0 (Proc.devRef .tc Cert.ReferenceIdeal.main_arg0) = m ((c : Thread nD τ).loc main_arg0)) (t : Fin cfg0.N) :
    (dats m 0 c).flushed 1 t = ((cfg0.win 1).blk t).view.read (Elt Ideal) (refOut V0) := by
  show (cfg0.win 1).cut (grid0.coords t) ((dats m 0 c).after 1 t) = _
  rw [after_out]
  funext y
  obtain ⟨r, j, rfl⟩ : ∃ (r : Fin 16000) (j : Fin 101), y = ix2 r j := ⟨y 0, y 1, eq_ix2 y⟩
  show blockOut c (grid0.coords t) (inBuf t) (inBuf_whole t) (outBuf t) (outBuf_whole t) (iblk m c 0 t) (ix2 r j)
    = refOut V0 (((cfg0.win 1).blk t).view.emb (ix2 r j))
  rw [blockOut_at, outBlock_emb]
  exact allColumns c (inBuf t) (inBuf_whole t) (iblk m c 0 t) V0 r _ (fun k hk => by rw [inBlock_at]; unfold argOf; rw [hA]) j

/-- After the run the kernel's result array is the reference's result of an equal argument. -/
theorem final (c : Dev nD) (V0 : Valuation Cert.ReferenceIdeal.τ Cert.ReferenceIdeal.sig (Elt Ideal))
    (hA : V0 (Proc.devRef .tc Cert.ReferenceIdeal.main_arg0) = m ((c : Thread nD τ).loc main_arg0)) :
    (dats m 0 c).arrAt 1 cfg0.N = refOut V0 :=
  (dats m 0 c).arrAt_eq_of_cover 1 (refOut V0) (fun t _ => flushed_eq m c V0 hA t) outBlocks_cover

/-- The kernel's run with its result array named, and the argument as launched. -/
theorem run_named : θ_run defs (onTc (τ := τ) (main (F := Ideal))) ⟨m, fun _ => 0, ρ⟩ fun r => ∀ c : Dev nD,
      r.2.mem ((c : Thread nD τ).loc main_v10) = (dats m 0 c).arrAt 1 cfg0.N
      ∧ r.2.mem ((c : Thread nD τ).loc main_arg0) = m ((c : Thread nD τ).loc main_arg0) :=
  (θ_run defs _ _).mono (fun r h c => ⟨(h c).1 1,
      ((h c).2 main_arg0 (Pipeline.mem_restRefs_of main_arg0 (by decide) (by decide))).trans (V_main_arg0 m c)⟩)
    (run_main m ρ)

end Cert.Bridge

end
-- ==== Proof.lean ====
/-
  Two programs compute, for each of 2,000,000 points on the sphere, the 100 real spherical harmonics of degree
  below 10 at the point and its time stamp: a kernel that works on blocks of 16000 points laid out along the lanes,
  and a reference that works on whole vectors. Read on the extended reals the two results are equal entry by entry.

  The kernel programs (word-level and exact) run to the end and leave the argument alone: the region's body loads
  three rows and overwrites its whole output block, point after point (Proof/RowsBits.lean, Proof/RowsIdeal.lean). The reference
  is a straight line of host operations (its generated run). What the kernel's output block holds is read entry by
  entry (Proof/RowsAt.lean), placed in the result (Proof/BlocksAt.lean), compared with the reference column by column
  (Proof/Columns*.lean) and assembled (Proof/Bridge.lean). The exact kernel is the word-level kernel's own text, so
  nothing was rewritten between them.
-/
import proofs.«160392_j91122026152643_2_alg».proof.Defs
import proofs.«160392_j91122026152643_2_alg».proof.Proof.Gen.Kernel
import proofs.«160392_j91122026152643_2_alg».proof.Proof.Gen.KernelIdeal
import proofs.«160392_j91122026152643_2_alg».proof.Proof.Gen.ReferenceIdeal
import proofs.«160392_j91122026152643_2_alg».proof.Proof.Gen.Pre_finite_inputs
import proofs.«160392_j91122026152643_2_alg».proof.Proof.Gen.ReferenceIdeal.Run
import proofs.«160392_j91122026152643_2_alg».proof.Proof.RowsBits
import proofs.«160392_j91122026152643_2_alg».proof.Proof.RowsIdeal
import proofs.«160392_j91122026152643_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Rows.frame m ρ

theorem frame_kernelIdeal : Cert.frame_KernelIdeal := fun m ρ _ => Cert.KernelIdeal.Rows.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end; the kernel's result array is the reference's result of the equal argument. -/
theorem algebraic : Cert.algebraic_KernelIdeal_ReferenceIdeal := by
  intro m ρ m' ρ' _ hagree
  refine ⟨fun c => (Cert.KernelIdeal.Rows.dats m 0 c).arrAt 1 Cert.KernelIdeal.cfg0.N, Cert.Bridge.run_named m ρ, ?_⟩
  refine (θ_run Cert.ReferenceIdeal.defs _ _).mono (fun _ h c => ⟨(h c).1.trans ?_, (h c).2⟩)
    (Cert.ReferenceIdeal.Value.run (F := Ideal) m' ρ')
  rw [← Cert.ReferenceIdeal.Value.val23_main_v1026 (StableHlo.launchContents m' c)]
  exact (Cert.Bridge.final m c (StableHlo.launchContents m' c) (hagree c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
